-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x64 : Shape := ⟨2, ![256, 64]⟩
abbrev S1600000 : Shape := ⟨1, ![1600000]⟩
abbrev S100000 : Shape := ⟨1, ![100000]⟩
abbrev S100x128 : Shape := ⟨2, ![100, 128]⟩
abbrev S100 : Shape := ⟨1, ![100]⟩
abbrev S20x100 : Shape := ⟨2, ![20, 100]⟩
abbrev S20 : Shape := ⟨1, ![20]⟩
abbrev S20x64 : Shape := ⟨2, ![20, 64]⟩
abbrev S32x64 : Shape := ⟨2, ![32, 64]⟩
abbrev S32 : Shape := ⟨1, ![32]⟩
abbrev S8x32 : Shape := ⟨2, ![8, 32]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S100x128 : S_.BroadcastsInDim S100x128 (![] : Fin 0 → Fin S100x128.rank)
  reducesTo_S100x128_S_d0_1 : S100x128.ReducesTo [0, 1] S_
  bcast_S_S100 : S_.BroadcastsInDim S100 (![] : Fin 0 → Fin S100.rank)
  reducesTo_S100_S_d0 : S100.ReducesTo [0] S_
  bcast_S_S20x100 : S_.BroadcastsInDim S20x100 (![] : Fin 0 → Fin S20x100.rank)
  reducesTo_S20x100_S_d0_1 : S20x100.ReducesTo [0, 1] S_
  bcast_S_S20 : S_.BroadcastsInDim S20 (![] : Fin 0 → Fin S20.rank)
  reducesTo_S20_S_d0 : S20.ReducesTo [0] S_
  bcast_S_S20x64 : S_.BroadcastsInDim S20x64 (![] : Fin 0 → Fin S20x64.rank)
  reducesTo_S20x64_S_d0_1 : S20x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S32 .f32) (main_arg18 : FVec F S8 .f32) (main_arg19 : FVec F S8 .f32) (main_v63 : IVec S_ 1) (main_v67 : IVec S_ 1) : IVec S_ 1 :=
  let main_v68 : IVec S_ 1 := andi main_v63 main_v67
  let main_v69 : FVec F S32 .f32 := Host.absf main_arg17
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S8 .f32 := Host.absf main_arg18
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8 .f32 := Host.absf main_arg19
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  main_v83

def fn_part3 {F : FTy → Type} [FloatOps F] (main_arg14 : FVec F S1x8 .f32) (main_arg15 : FVec F S1 .f32) (main_arg16 : FVec F S32 .f32) (main_arg17 : FVec F S32 .f32) (main_arg18 : FVec F S8 .f32) (main_arg19 : FVec F S8 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S1x8 .f32 := Host.absf main_arg14
  let main_cst_20 : FVec F S_ .f32 := constant S_ .f32 0x7F800000#32
  let main_v55 : FVec F S1x8 .f32 := broadcastInDim S1x8 ![] bcast_S_S1x8 main_cst_20
  let main_v56 : IVec S1x8 1 := cmpf .olt main_v54 main_v55
  let main_c_21 : IVec S_ 1 := constantI S_ 1 1#1
  let main_v57 : IVec S_ 1 := (fun x v => Host.reduce IntOp.andi x v reducesTo_S1x8_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S32 .f32 := Host.absf main_arg16
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg17 main_arg18 main_arg19 main_v63 main_v67

def fn_part2 {F : FTy → Type} [FloatOps F] (main_arg10 : FVec F S32x64 .f32) (main_arg11 : FVec F S32 .f32) (main_arg12 : FVec F S8x32 .f32) (main_arg13 : FVec F S8 .f32) (main_arg14 : FVec F S1x8 .f32) (main_arg15 : FVec F S1 .f32) (main_arg16 : FVec F S32 .f32) (main_arg17 : FVec F S32 .f32) (main_arg18 : FVec F S8 .f32) (main_arg19 : FVec F S8 .f32) (main_v33 : IVec S_ 1) : IVec S_ 1 :=
  let main_v34 : FVec F S32x64 .f32 := Host.absf main_arg10
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg11
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S8x32 .f32 := Host.absf main_arg12
  let main_cst_16 : FVec F S_ .f32 := constant S_ .f32 0x7F800000#32
  let main_v45 : FVec F S8x32 .f32 := broadcastInDim S8x32 ![] bcast_S_S8x32 main_cst_16
  let main_v46 : IVec S8x32 1 := cmpf .olt main_v44 main_v45
  let main_c_17 : IVec S_ 1 := constantI S_ 1 1#1
  let main_v47 : IVec S_ 1 := (fun x v => Host.reduce IntOp.andi x v reducesTo_S8x32_S_d0_1 h_S_) main_v46 main_c_17
  let main_v48 : IVec S_ 1 := andi main_v43 main_v47
  let main_v49 : FVec F S8 .f32 := Host.absf main_arg13
  let main_cst_18 : FVec F S_ .f32 := constant S_ .f32 0x7F800000#32
  let main_v50 : FVec F S8 .f32 := broadcastInDim S8 ![] bcast_S_S8 main_cst_18
  fn_part3 (F := F) main_arg14 main_arg15 main_arg16 main_arg17 main_arg18 main_arg19 main_v48 main_v49 main_v50

def fn_part1 {F : FTy → Type} [FloatOps F] (main_arg7 : FVec F S20x100 .f32) (main_arg8 : FVec F S20 .f32) (main_arg9 : FVec F S20x64 .f32) (main_arg10 : FVec F S32x64 .f32) (main_arg11 : FVec F S32 .f32) (main_arg12 : FVec F S8x32 .f32) (main_arg13 : FVec F S8 .f32) (main_arg14 : FVec F S1x8 .f32) (main_arg15 : FVec F S1 .f32) (main_arg16 : FVec F S32 .f32) (main_arg17 : FVec F S32 .f32) (main_arg18 : FVec F S8 .f32) (main_arg19 : FVec F S8 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S20x100 .f32 := Host.absf main_arg7
  let main_cst_6 : FVec F S_ .f32 := constant S_ .f32 0x7F800000#32
  let main_v20 : FVec F S20x100 .f32 := broadcastInDim S20x100 ![] bcast_S_S20x100 main_cst_6
  let main_v21 : IVec S20x100 1 := cmpf .olt main_v19 main_v20
  let main_c_7 : IVec S_ 1 := constantI S_ 1 1#1
  let main_v22 : IVec S_ 1 := (fun x v => Host.reduce IntOp.andi x v reducesTo_S20x100_S_d0_1 h_S_) main_v21 main_c_7
  let main_v23 : IVec S_ 1 := andi main_v18 main_v22
  let main_v24 : FVec F S20 .f32 := Host.absf main_arg8
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x64 .f32 := Host.absf main_arg9
  let main_cst_10 : FVec F S_ .f32 := constant S_ .f32 0x7F800000#32
  let main_v30 : FVec F S20x64 .f32 := broadcastInDim S20x64 ![] bcast_S_S20x64 main_cst_10
  let main_v31 : IVec S20x64 1 := cmpf .olt main_v29 main_v30
  let main_c_11 : IVec S_ 1 := constantI S_ 1 1#1
  let main_v32 : IVec S_ 1 := (fun x v => Host.reduce IntOp.andi x v reducesTo_S20x64_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S100000x128 .f32) (main_arg1 : FVec F S256x64 .f32) (main_arg2 : IVec S1600000 32) (main_arg3 : IVec S1600000 32) (main_arg4 : IVec S100000 32) (main_arg5 : FVec F S100x128 .f32) (main_arg6 : FVec F S100 .f32) (main_arg7 : FVec F S20x100 .f32) (main_arg8 : FVec F S20 .f32) (main_arg9 : FVec F S20x64 .f32) (main_arg10 : FVec F S32x64 .f32) (main_arg11 : FVec F S32 .f32) (main_arg12 : FVec F S8x32 .f32) (main_arg13 : FVec F S8 .f32) (main_arg14 : FVec F S1x8 .f32) (main_arg15 : FVec F S1 .f32) (main_arg16 : FVec F S32 .f32) (main_arg17 : FVec F S32 .f32) (main_arg18 : FVec F S8 .f32) (main_arg19 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S100x128 .f32 := Host.absf main_arg5
  let main_cst_2 : FVec F S_ .f32 := constant S_ .f32 0x7F800000#32
  let main_v10 : FVec F S100x128 .f32 := broadcastInDim S100x128 ![] bcast_S_S100x128 main_cst_2
  let main_v11 : IVec S100x128 1 := cmpf .olt main_v9 main_v10
  let main_c_3 : IVec S_ 1 := constantI S_ 1 1#1
  let main_v12 : IVec S_ 1 := (fun x v => Host.reduce IntOp.andi x v reducesTo_S100x128_S_d0_1 h_S_) main_v11 main_c_3
  let main_v13 : IVec S_ 1 := andi main_v8 main_v12
  let main_v14 : FVec F S100 .f32 := Host.absf main_arg6
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S256x64 : Shape := ⟨2, ![256, 64]⟩
abbrev S1600000 : Shape := ⟨1, ![1600000]⟩
abbrev S100000 : Shape := ⟨1, ![100000]⟩
abbrev S100x128 : Shape := ⟨2, ![100, 128]⟩
abbrev S100 : Shape := ⟨1, ![100]⟩
abbrev S20x100 : Shape := ⟨2, ![20, 100]⟩
abbrev S20 : Shape := ⟨1, ![20]⟩
abbrev S20x64 : Shape := ⟨2, ![20, 64]⟩
abbrev S32x64 : Shape := ⟨2, ![32, 64]⟩
abbrev S32 : Shape := ⟨1, ![32]⟩
abbrev S8x32 : Shape := ⟨2, ![8, 32]⟩
abbrev S8 : Shape := ⟨1, ![8]⟩
abbrev S1x8 : Shape := ⟨2, ![1, 8]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S128x100 : Shape := ⟨2, ![128, 100]⟩
abbrev S100000x100 : Shape := ⟨2, ![100000, 100]⟩
abbrev S5000x128 : Shape := ⟨2, ![5000, 128]⟩
abbrev S5000x100 : Shape := ⟨2, ![5000, 100]⟩
abbrev S1600000x100 : Shape := ⟨2, ![1600000, 100]⟩
abbrev S100x20 : Shape := ⟨2, ![100, 20]⟩
abbrev S1x100 : Shape := ⟨2, ![1, 100]⟩
abbrev S100000x20 : Shape := ⟨2, ![100000, 20]⟩
abbrev S5000x20 : Shape := ⟨2, ![5000, 20]⟩
abbrev S1600000x20 : Shape := ⟨2, ![1600000, 20]⟩
abbrev S1x20 : Shape := ⟨2, ![1, 20]⟩
abbrev S256x20 : Shape := ⟨2, ![256, 20]⟩
abbrev S256x1 : Shape := ⟨2, ![256, 1]⟩
abbrev S1x32 : Shape := ⟨2, ![1, 32]⟩
abbrev S1x1 : Shape := ⟨2, ![1, 1]⟩
abbrev S64x32 : Shape := ⟨2, ![64, 32]⟩
abbrev S256x32 : Shape := ⟨2, ![256, 32]⟩
abbrev S32x8 : Shape := ⟨2, ![32, 8]⟩
abbrev S256x8 : Shape := ⟨2, ![256, 8]⟩
abbrev S8x1 : Shape := ⟨2, ![8, 1]⟩

abbrev nBuf : Space → Nat
  | .hbm => 106
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S256x64, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S100x128, .f32⟩
  | .hbm, ⟨6, _⟩ => ⟨S100, .f32⟩
  | .hbm, ⟨7, _⟩ => ⟨S20x100, .f32⟩
  | .hbm, ⟨8, _⟩ => ⟨S20, .f32⟩
  | .hbm, ⟨9, _⟩ => ⟨S20x64, .f32⟩
  | .hbm, ⟨10, _⟩ => ⟨S32x64, .f32⟩
  | .hbm, ⟨11, _⟩ => ⟨S32, .f32⟩
  | .hbm, ⟨12, _⟩ => ⟨S8x32, .f32⟩
  | .hbm, ⟨13, _⟩ => ⟨S8, .f32⟩
  | .hbm, ⟨14, _⟩ => ⟨S1x8, .f32⟩
  | .hbm, ⟨15, _⟩ => ⟨S1, .f32⟩
  | .hbm, ⟨16, _⟩ => ⟨S32, .f32⟩
  | .hbm, ⟨17, _⟩ => ⟨S32, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S1600000x1, .f32⟩
  | .hbm, ⟨22, _⟩ => ⟨S_, .f32⟩
  | .hbm, ⟨23, _⟩ => ⟨S100000x1, .f32⟩
  | .hbm, ⟨24, _⟩ => ⟨S1600000x1, .i32⟩
  | .hbm, ⟨25, _⟩ => ⟨S100000x1, .f32⟩
  | .hbm, ⟨26, _⟩ => ⟨S128x100, .f32⟩
  | .hbm, ⟨27, _⟩ => ⟨S100000x100, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x100, .f32⟩
  | .hbm, ⟨37, _⟩ => ⟨S_, .f32⟩
  | .hbm, ⟨38, _⟩ => ⟨S100000x100, .f32⟩
  | .hbm, ⟨39, _⟩ => ⟨S1600000x1, .i32⟩
  | .hbm, ⟨40, _⟩ => ⟨S100000x100, .f32⟩
  | .hbm, ⟨41, _⟩ => ⟨S_, .f32⟩
  | .hbm, ⟨42, _⟩ => ⟨S100000x1, .f32⟩
  | .hbm, ⟨43, _⟩ => ⟨S100000x1, .i1⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x100, .f32⟩
  | .hbm, ⟨48, _⟩ => ⟨S100000x100, .f32⟩
  | .hbm, ⟨49, _⟩ => ⟨S100000x100, .i1⟩
  | .hbm, ⟨50, _⟩ => ⟨S100000x100, .f32⟩
  | .hbm, ⟨51, _⟩ => ⟨S100x20, .f32⟩
  | .hbm, ⟨52, _⟩ => ⟨S1x100, .f32⟩
  | .hbm, ⟨53, _⟩ => ⟨S100000x20, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x20, .f32⟩
  | .hbm, ⟨63, _⟩ => ⟨S_, .f32⟩
  | .hbm, ⟨64, _⟩ => ⟨S100000x20, .f32⟩
  | .hbm, ⟨65, _⟩ => ⟨S1600000x1, .i32⟩
  | .hbm, ⟨66, _⟩ => ⟨S100000x20, .f32⟩
  | .hbm, ⟨67, _⟩ => ⟨S_, .f32⟩
  | .hbm, ⟨68, _⟩ => ⟨S100000x1, .f32⟩
  | .hbm, ⟨69, _⟩ => ⟨S100000x1, .i1⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x20, .f32⟩
  | .hbm, ⟨74, _⟩ => ⟨S100000x20, .f32⟩
  | .hbm, ⟨75, _⟩ => ⟨S100000x20, .i1⟩
  | .hbm, ⟨76, _⟩ => ⟨S100000x20, .f32⟩
  | .hbm, ⟨77, _⟩ => ⟨S1x20, .f32⟩
  | .hbm, ⟨78, _⟩ => ⟨S100000x20, .f32⟩
  | .hbm, ⟨79, _⟩ => ⟨S100000x20, .f32⟩
  | .hbm, ⟨80, _⟩ => ⟨S_, .f32⟩
  | .hbm, ⟨81, _⟩ => ⟨S100000x20, .f32⟩
  | .hbm, ⟨82, _⟩ => ⟨S100000x20, .f32⟩
  | .hbm, ⟨83, _⟩ => ⟨S_, .f32⟩
  | .hbm, ⟨84, _⟩ => ⟨S256x20, .f32⟩
  | .hbm, ⟨85, _⟩ => ⟨S100000x1, .i32⟩
  | .hbm, ⟨86, _⟩ => ⟨S256x20, .f32⟩
  | .hbm, ⟨87, _⟩ => ⟨S_, .f32⟩
  | .hbm, ⟨88, _⟩ => ⟨S100000x1, .f32⟩
  | .hbm, ⟨89, _⟩ => ⟨S_, .f32⟩
  | .hbm, ⟨90, _⟩ => ⟨S256x1, .f32⟩
  | .hbm, ⟨91, _⟩ => ⟨S100000x1, .i32⟩
  | .hbm, ⟨92, _⟩ => ⟨S256x1, .f32⟩
  | .hbm, ⟨93, _⟩ => ⟨S_, .f32⟩
  | .hbm, ⟨94, _⟩ => ⟨S256x1, .f32⟩
  | .hbm, ⟨95, _⟩ => ⟨S256x1, .f32⟩
  | .hbm, ⟨96, _⟩ => ⟨S256x20, .f32⟩
  | .hbm, ⟨97, _⟩ => ⟨S256x20, .f32⟩
  | .hbm, ⟨98, _⟩ => ⟨S1x32, .f32⟩
  | .hbm, ⟨99, _⟩ => ⟨S1x8, .f32⟩
  | .hbm, ⟨100, _⟩ => ⟨S1x1, .f32⟩
  | .hbm, ⟨101, _⟩ => ⟨S1x32, .f32⟩
  | .hbm, ⟨102, _⟩ => ⟨S1x32, .f32⟩
  | .hbm, ⟨103, _⟩ => ⟨S1x8, .f32⟩
  | .hbm, ⟨104, _⟩ => ⟨S1x8, .f32⟩
  | .hbm, ⟨105, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S128x100, .f32⟩
  | .local _ .vmem, ⟨3, _⟩ => ⟨S5000x100, .f32⟩
  | .local _ .vmem, ⟨4, _⟩ => ⟨S5000x100, .f32⟩
  | .local _ .vmem, ⟨5, _⟩ => ⟨S5000x100, .f32⟩
  | .local _ .vmem, ⟨6, _⟩ => ⟨S5000x100, .f32⟩
  | .local _ .vmem, ⟨7, _⟩ => ⟨S1x100, .f32⟩
  | .local _ .vmem, ⟨8, _⟩ => ⟨S100x20, .f32⟩
  | .local _ .vmem, ⟨9, _⟩ => ⟨S5000x20, .f32⟩
  | .local _ .vmem, ⟨10, _⟩ => ⟨S5000x20, .f32⟩
  | .local _ .vmem, ⟨11, _⟩ => ⟨S256x20, .f32⟩
  | .local _ .vmem, ⟨12, _⟩ => ⟨S256x64, .f32⟩
  | .local _ .vmem, ⟨13, _⟩ => ⟨S20x64, .f32⟩
  | .local _ .vmem, ⟨14, _⟩ => ⟨S32x64, .f32⟩
  | .local _ .vmem, ⟨15, _⟩ => ⟨S1x32, .f32⟩
  | .local _ .vmem, ⟨16, _⟩ => ⟨S8x32, .f32⟩
  | .local _ .vmem, ⟨17, _⟩ => ⟨S1x8, .f32⟩
  | .local _ .vmem, ⟨18, _⟩ => ⟨S1x8, .f32⟩
  | .local _ .vmem, ⟨19, _⟩ => ⟨S1x1, .f32⟩
  | .local _ .vmem, ⟨20, _⟩ => ⟨S1x32, .f32⟩
  | .local _ .vmem, ⟨21, _⟩ => ⟨S1x32, .f32⟩
  | .local _ .vmem, ⟨22, _⟩ => ⟨S1x8, .f32⟩
  | .local _ .vmem, ⟨23, _⟩ => ⟨S1x8, .f32⟩
  | .local _ .vmem, ⟨24, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call0_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_cst_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call1_v0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call2_cst : Ref sig .tc := ⟨.hbm, 80, rfl⟩
abbrev main_call2_v0 : Ref sig .tc := ⟨.hbm, 81, rfl⟩
abbrev main_v46 : Ref sig .tc := ⟨.hbm, 82, rfl⟩
abbrev main_cst_10 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_11 : Ref sig .tc := ⟨.hbm, 87, rfl⟩
abbrev main_v50 : Ref sig .tc := ⟨.hbm, 88, rfl⟩
abbrev main_cst_12 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_13 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_stg9_0 : Ref sig .tc := ⟨.vmem, 20, rfl⟩
abbrev cc2_stg10_0 : Ref sig .tc := ⟨.vmem, 21, rfl⟩
abbrev cc2_stg11_0 : Ref sig .tc := ⟨.vmem, 22, rfl⟩
abbrev cc2_stg12_0 : Ref sig .tc := ⟨.vmem, 23, rfl⟩
abbrev cc2_stg13_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem8_0 : DmaSem sig := 19
abbrev cc2_sem9_0 : DmaSem sig := 20
abbrev cc2_sem10_0 : DmaSem sig := 21
abbrev cc2_sem11_0 : DmaSem sig := 22
abbrev cc2_sem12_0 : DmaSem sig := 23
abbrev cc2_sem13_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x20 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x20 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S20x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x8 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x8 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

class Facts₀ : Prop where
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  transposes_S100x128_S128x100_1_0 : S100x128.Transposes [1, 0] S128x100
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S5000x100_S5000x100_0_0 : ∀ a, (![0, 0] : Fin 2 → Nat) a + S5000x100.size a ≤ S5000x100.size a
  h_S5000x100 : 0 < S5000x100.numel
  bcast_S_S1600000 : S_.BroadcastsInDim S1600000 (![] : Fin 0 → Fin S1600000.rank)
  bcast_S_S100000x100 : S_.BroadcastsInDim S100000x100 (![] : Fin 0 → Fin S100000x100.rank)
  bcast_S100000x1_S100000x100_0_1 : S100000x1.BroadcastsInDim S100000x100 (![0, 1] : Fin 2 → Fin S100000x100.rank)
  transposes_S20x100_S100x20_1_0 : S20x100.Transposes [1, 0] S100x20
  shapeCasts_S100_S1x100 : S100.ShapeCasts S1x100
  shapeCasts_S5000x100_S5000x100 : S5000x100.ShapeCasts S5000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S100x20_S100x20_0_0 : ∀ a, (![0, 0] : Fin 2 → Nat) a + S100x20.size a ≤ S100x20.size a
  h_S100x20 : 0 < S100x20.numel
  shapeCasts_S100x20_S100x20 : S100x20.ShapeCasts S100x20
  inb_S5000x20_S5000x20_0_0 : ∀ a, (![0, 0] : Fin 2 → Nat) a + S5000x20.size a ≤ S5000x20.size a
  h_S5000x20 : 0 < S5000x20.numel
  bcast_S_S100000x20 : S_.BroadcastsInDim S100000x20 (![] : Fin 0 → Fin S100000x20.rank)
  bcast_S100000x1_S100000x20_0_1 : S100000x1.BroadcastsInDim S100000x20 (![0, 1] : Fin 2 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S256x20 : S_.BroadcastsInDim S256x20 (![] : Fin 0 → Fin S256x20.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x20_0_1 : S256x1.BroadcastsInDim S256x20 (![0, 1] : Fin 2 → Fin S256x20.rank)
  shapeCasts_S32_S1x32 : S32.ShapeCasts S1x32
  shapeCasts_S8_S1x8 : S8.ShapeCasts S1x8
  shapeCasts_S1_S1x1 : S1.ShapeCasts S1x1
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S20x64_S20x64_0_0 : ∀ a, (![0, 0] : Fin 2 → Nat) a + S20x64.size a ≤ S20x64.size a
  h_S20x64 : 0 < S20x64.numel
  inb_S256x64_S256x64_0_0 : ∀ a, (![0, 0] : Fin 2 → Nat) a + S256x64.size a ≤ S256x64.size a
  h_S256x64 : 0 < S256x64.numel
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  reduces_S256x32_S32 : S256x32.Reduces [0] S32
  inb_S8x32_S8x32_0_0 : ∀ a, (![0, 0] : Fin 2 → Nat) a + S8x32.size a ≤ S8x32.size a
  h_S8x32 : 0 < S8x32.numel
  transposes_S8x32_p1_0_S32x8 : S8x32.Transposes [1, 0] S32x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  reduces_S256x8_S8 : S256x8.Reduces [0] S8
  transposes_S1x8_p1_0_S8x1 : S1x8.Transposes [1, 0] S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000x1_S1600000x1_S1600000x1_1_0_0_1_wf : ScatterDims.WF S100000x1 S1600000x1 S1600000x1 [1] [0] [0] 1
  dot_S5000x128_S128x100_S5000x100_1_0_0_1_n_n_wf : DotDims.WF S5000x128 S128x100 S5000x100 [1] [0] [0] [1] [] []
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S5000x100_S100x20_S5000x20_1_0_0_1_n_n_wf : DotDims.WF S5000x100 S100x20 S5000x20 [1] [0] [0] [1] [] []
  gather_S100000x20_S1600000x1_S1600000x20_1_0_n_n_0_1_120_wf : GatherDims.WF S100000x20 S1600000x1 S1600000x20 [1] [0] [] [0] [] 1 ![1, 20]
  scatter_S100000x20_S1600000x1_S1600000x20_1_0_0_1_wf : ScatterDims.WF S100000x20 S1600000x1 S1600000x20 [1] [0] [0] 1
  scatter_S256x20_S100000x1_S100000x20_1_0_0_1_wf : ScatterDims.WF S256x20 S100000x1 S100000x20 [1] [0] [0] 1
  scatter_S256x1_S100000x1_S100000x1_1_0_0_1_wf : ScatterDims.WF S256x1 S100000x1 S100000x1 [1] [0] [0] 1
  dot_S256x20_S20x64_S256x64_1_0_0_1_n_n_wf : DotDims.WF S256x20 S20x64 S256x64 [1] [0] [0] [1] [] []
  dot_S256x64_S64x32_S256x32_1_0_0_1_n_n_wf : DotDims.WF S256x64 S64x32 S256x32 [1] [0] [0] [1] [] []
  dot_S256x32_S32x8_S256x8_1_0_0_1_n_n_wf : DotDims.WF S256x32 S32x8 S256x8 [1] [0] [0] [1] [] []
  dot_S256x8_S8x1_S256x1_1_0_0_1_n_n_wf : DotDims.WF S256x8 S8x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S128x100.size a
  hwx0_1 : ∀ i : grid0.Coords, EltTy.bits .f32 = 32 ∨ (Rect.block (s := S128x100) S128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x100.size a ≤ S100000x100.size a
  hwx0_2 : ∀ i : grid0.Coords, EltTy.bits .f32 = 32 ∨ (Rect.block (s := S100000x100) S5000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S100000x100.size a
  hwx1_0 : ∀ i : grid1.Coords, EltTy.bits .f32 = 32 ∨ (Rect.block (s := S100000x100) S5000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x20.size a ≤ S100x20.size a
  hwx1_2 : ∀ i : grid1.Coords, EltTy.bits .f32 = 32 ∨ (Rect.block (s := S100x20) S100x20.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x20.size a ≤ S100000x20.size a
  hwx1_3 : ∀ i : grid1.Coords, EltTy.bits .f32 = 32 ∨ (Rect.block (s := S100000x20) S5000x20.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x20.size a ≤ S256x20.size a
  hwx2_0 : ∀ i : grid2.Coords, EltTy.bits .f32 = 32 ∨ (Rect.block (s := S256x20) S256x20.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S20x64.size a ≤ S20x64.size a
  hwx2_2 : ∀ i : grid2.Coords, EltTy.bits .f32 = 32 ∨ (Rect.block (s := S20x64) S20x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x32.size a ≤ S8x32.size a
  hwx2_5 : ∀ i : grid2.Coords, EltTy.bits .f32 = 32 ∨ (Rect.block (s := S8x32) S8x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x8.size a ≤ S1x8.size a
  hwx2_6 : ∀ i : grid2.Coords, EltTy.bits .f32 = 32 ∨ (Rect.block (s := S1x8) S1x8.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x8.size a ≤ S1x8.size a
  hwx2_7 : ∀ i : grid2.Coords, EltTy.bits .f32 = 32 ∨ (Rect.block (s := S1x8) S1x8.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x8.size a ≤ S1x8.size a
  hwx2_11 : ∀ i : grid2.Coords, EltTy.bits .f32 = 32 ∨ (Rect.block (s := S1x8) S1x8.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x8.size a ≤ S1x8.size a
  hwx2_12 : ∀ i : grid2.Coords, EltTy.bits .f32 = 32 ∨ (Rect.block (s := S1x8) S1x8.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S256x1.size a ≤ S256x1.size a
  hwx2_13 : ∀ i : grid2.Coords, EltTy.bits .f32 = 32 ∨ (Rect.block (s := S256x1) S256x1.size (cc2_transform_13 i) (hinb2_13 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S5000x100_S100x20_S5000x20_1_0_0_1_n_n : DotDims S5000x100 S100x20 S5000x20 where
  lhsContracting := [1]
  rhsContracting := [0]
  lhsNonContracting := [0]
  rhsNonContracting := [1]
  lhsBatch := []
  rhsBatch := []
  wf := dot_S5000x100_S100x20_S5000x20_1_0_0_1_n_n_wf
def gather_S100000x20_S1600000x1_S1600000x20_1_0_n_n_0_1_120 : GatherDims S100000x20 S1600000x1 S1600000x20 where
  offsetDims := [1]
  collapsedSliceDims := [0]
  operandBatchingDims := []
  startIndicesBatchingDims := []
  startIndexMap := [0]
  indexVectorDim := 1
  sliceSizes := ![1, 20]
  wf := gather_S100000x20_S1600000x1_S1600000x20_1_0_n_n_0_1_120_wf
def scatter_S100000x20_S1600000x1_S1600000x20_1_0_0_1 : ScatterDims S100000x20 S1600000x1 S1600000x20 where
  updateWindowDims := [1]
  insertedWindowDims := [0]
  scatterDimsToOperandDims := [0]
  indexVectorDim := 1
  wf := scatter_S100000x20_S1600000x1_S1600000x20_1_0_0_1_wf
def scatter_S256x20_S100000x1_S100000x20_1_0_0_1 : ScatterDims S256x20 S100000x1 S100000x20 where
  updateWindowDims := [1]
  insertedWindowDims := [0]
  scatterDimsToOperandDims := [0]
  indexVectorDim := 1
  wf := scatter_S256x20_S100000x1_S100000x20_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x20_S20x64_S256x64_1_0_0_1_n_n : DotDims S256x20 S20x64 S256x64 where
  lhsContracting := [1]
  rhsContracting := [0]
  lhsNonContracting := [0]
  rhsNonContracting := [1]
  lhsBatch := []
  rhsBatch := []
  wf := dot_S256x20_S20x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x8_S256x8_1_0_0_1_n_n : DotDims S256x32 S32x8 S256x8 where
  lhsContracting := [1]
  rhsContracting := [0]
  lhsNonContracting := [0]
  rhsNonContracting := [1]
  lhsBatch := []
  rhsBatch := []
  wf := dot_S256x32_S32x8_S256x8_1_0_0_1_n_n_wf
def dot_S256x8_S8x1_S256x1_1_0_0_1_n_n : DotDims S256x8 S8x1 S256x1 where
  lhsContracting := [1]
  rhsContracting := [0]
  lhsNonContracting := [0]
  rhsNonContracting := [1]
  lhsBatch := []
  rhsBatch := []
  wf := dot_S256x8_S8x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S100x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x20.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S256x20.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S20x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S8x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S1x8.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v61) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v62) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v63) S1x8.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v64) S1x8.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v65) S256x1.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x128 : Shape := ⟨2, ![100000, 128]⟩
abbrev S256x64 : Shape := ⟨2, ![256, 64]⟩
abbrev S1600000 : Shape := ⟨1, ![1600000]⟩
abbrev S100000 : Shape := ⟨1, ![100000]⟩
abbrev S100x128 : Shape := ⟨2, ![100, 128]⟩
abbrev S100 : Shape := ⟨1, ![100]⟩
abbrev S20x100 : Shape := ⟨2, ![20, 100]⟩
abbrev S20 : Shape := ⟨1, ![20]⟩
abbrev S20x64 : Shape := ⟨2, ![20, 64]⟩
abbrev S32x64 : Shape := ⟨2, ![32, 64]⟩
abbrev S32 : Shape := ⟨1, ![32]⟩
abbrev S8x32 : Shape := ⟨2, ![8, 32]⟩
abbrev S8 : Shape := ⟨1, ![8]⟩
abbrev S1x8 : Shape := ⟨2, ![1, 8]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S128x100 : Shape := ⟨2, ![128, 100]⟩
abbrev S100000x100 : Shape := ⟨2, ![100000, 100]⟩
abbrev S1x100 : Shape := ⟨2, ![1, 100]⟩
abbrev S1600000x100 : Shape := ⟨2, ![1600000, 100]⟩
abbrev S100x20 : Shape := ⟨2, ![100, 20]⟩
abbrev S100000x20 : Shape := ⟨2, ![100000, 20]⟩
abbrev S1x20 : Shape := ⟨2, ![1, 20]⟩
abbrev S256x20 : Shape := ⟨2, ![256, 20]⟩
abbrev S256x1 : Shape := ⟨2, ![256, 1]⟩
abbrev S64x32 : Shape := ⟨2, ![64, 32]⟩
abbrev S256x32 : Shape := ⟨2, ![256, 32]⟩
abbrev S1x32 : Shape := ⟨2, ![1, 32]⟩
abbrev S32x8 : Shape := ⟨2, ![32, 8]⟩
abbrev S256x8 : Shape := ⟨2, ![256, 8]⟩
abbrev S8x1 : Shape := ⟨2, ![8, 1]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S100000x128, .f32⟩
  | 1 => ⟨S256x64, .f32⟩
  | 2 => ⟨S1600000, .i32⟩
  | 3 => ⟨S1600000, .i32⟩
  | 4 => ⟨S100000, .i32⟩
  | 5 => ⟨S100x128, .f32⟩
  | 6 => ⟨S100, .f32⟩
  | 7 => ⟨S20x100, .f32⟩
  | 8 => ⟨S20, .f32⟩
  | 9 => ⟨S20x64, .f32⟩
  | 10 => ⟨S32x64, .f32⟩
  | 11 => ⟨S32, .f32⟩
  | 12 => ⟨S8x32, .f32⟩
  | 13 => ⟨S8, .f32⟩
  | 14 => ⟨S1x8, .f32⟩
  | 15 => ⟨S1, .f32⟩
  | 16 => ⟨S32, .f32⟩
  | 17 => ⟨S32, .f32⟩
  | 18 => ⟨S8, .f32⟩
  | 19 => ⟨S8, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S_, .f32⟩
  | 34 => ⟨S1600000x1, .f32⟩
  | 35 => ⟨S_, .f32⟩
  | 36 => ⟨S100000x1, .f32⟩
  | 37 => ⟨S1600000x1, .i32⟩
  | 38 => ⟨S100000x1, .f32⟩
  | 39 => ⟨S_, .f32⟩
  | 40 => ⟨S100000x1, .f32⟩
  | 41 => ⟨S100000x1, .i1⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S100000x128, .i1⟩
  | 48 => ⟨S100000x128, .f32⟩
  | 49 => ⟨S128x100, .f32⟩
  | 50 => ⟨S100000x100, .f32⟩
  | 51 => ⟨S1x100, .f32⟩
  | 52 => ⟨S100000x100, .f32⟩
  | 53 => ⟨S100000x100, .f32⟩
  | 54 => ⟨S_, .f32⟩
  | 55 => ⟨S100000x100, .f32⟩
  | 56 => ⟨S100000x100, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x100, .f32⟩
  | 66 => ⟨S_, .f32⟩
  | 67 => ⟨S100000x100, .f32⟩
  | 68 => ⟨S1600000x1, .i32⟩
  | 69 => ⟨S100000x100, .f32⟩
  | 70 => ⟨S_, .f32⟩
  | 71 => ⟨S1600000x1, .f32⟩
  | 72 => ⟨S_, .f32⟩
  | 73 => ⟨S100000x1, .f32⟩
  | 74 => ⟨S1600000x1, .i32⟩
  | 75 => ⟨S100000x1, .f32⟩
  | 76 => ⟨S_, .f32⟩
  | 77 => ⟨S100000x1, .f32⟩
  | 78 => ⟨S100000x1, .i1⟩
  | 79 => ⟨S_, .f32⟩
  | 80 => ⟨S100000x1, .f32⟩
  | 81 => ⟨S100000x1, .f32⟩
  | 82 => ⟨S100000x100, .f32⟩
  | 83 => ⟨S100000x100, .f32⟩
  | 84 => ⟨S100000x100, .i1⟩
  | 85 => ⟨S100000x100, .f32⟩
  | 86 => ⟨S100x20, .f32⟩
  | 87 => ⟨S100000x20, .f32⟩
  | 88 => ⟨S1x20, .f32⟩
  | 89 => ⟨S100000x20, .f32⟩
  | 90 => ⟨S100000x20, .f32⟩
  | 91 => ⟨S_, .f32⟩
  | 92 => ⟨S100000x20, .f32⟩
  | 93 => ⟨S100000x20, .f32⟩
  | 94 => ⟨S_, .f32⟩
  | 95 => ⟨S256x20, .f32⟩
  | 96 => ⟨S100000x1, .i32⟩
  | 97 => ⟨S256x20, .f32⟩
  | 98 => ⟨S_, .f32⟩
  | 99 => ⟨S100000x1, .f32⟩
  | 100 => ⟨S_, .f32⟩
  | 101 => ⟨S256x1, .f32⟩
  | 102 => ⟨S100000x1, .i32⟩
  | 103 => ⟨S256x1, .f32⟩
  | 104 => ⟨S_, .f32⟩
  | 105 => ⟨S256x1, .f32⟩
  | 106 => ⟨S256x1, .f32⟩
  | 107 => ⟨S256x20, .f32⟩
  | 108 => ⟨S256x20, .f32⟩
  | 109 => ⟨S256x64, .f32⟩
  | 110 => ⟨S256x64, .f32⟩
  | 111 => ⟨S64x32, .f32⟩
  | 112 => ⟨S256x32, .f32⟩
  | 113 => ⟨S1x32, .f32⟩
  | 114 => ⟨S256x32, .f32⟩
  | 115 => ⟨S256x32, .f32⟩
  | 116 => ⟨S_, .f32⟩
  | 117 => ⟨S32, .f32⟩
  | 118 => ⟨S_, .f32⟩
  | 119 => ⟨S32, .f32⟩
  | 120 => ⟨S32, .f32⟩
  | 121 => ⟨S1x32, .f32⟩
  | 122 => ⟨S256x32, .f32⟩
  | 123 => ⟨S256x32, .f32⟩
  | 124 => ⟨S256x32, .f32⟩
  | 125 => ⟨S_, .f32⟩
  | 126 => ⟨S32, .f32⟩
  | 127 => ⟨S_, .f32⟩
  | _ => ⟨S100000x128, .f32⟩

abbrev hbmTy0_1 (i : Nat) : BufTy := match i % 128 with
  | 0 => ⟨S32, .f32⟩
  | 1 => ⟨S32, .f32⟩
  | 2 => ⟨S1x32, .f32⟩
  | 3 => ⟨S256x32, .f32⟩
  | 4 => ⟨S256x32, .f32⟩
  | 5 => ⟨S1x32, .f32⟩
  | 6 => ⟨S256x32, .f32⟩
  | 7 => ⟨S256x32, .f32⟩
  | 8 => ⟨S_, .f32⟩
  | 9 => ⟨S32, .f32⟩
  | 10 => ⟨S32, .f32⟩
  | 11 => ⟨S32, .f32⟩
  | 12 => ⟨S1x32, .f32⟩
  | 13 => ⟨S256x32, .f32⟩
  | 14 => ⟨S256x32, .f32⟩
  | 15 => ⟨S1x32, .f32⟩
  | 16 => ⟨S256x32, .f32⟩
  | 17 => ⟨S256x32, .f32⟩
  | 18 => ⟨S_, .f32⟩
  | 19 => ⟨S256x32, .f32⟩
  | 20 => ⟨S256x32, .f32⟩
  | 21 => ⟨S32x8, .f32⟩
  | 22 => ⟨S256x8, .f32⟩
  | 23 => ⟨S1x8, .f32⟩
  | 24 => ⟨S256x8, .f32⟩
  | 25 => ⟨S256x8, .f32⟩
  | 26 => ⟨S_, .f32⟩
  | 27 => ⟨S8, .f32⟩
  | 28 => ⟨S_, .f32⟩
  | 29 => ⟨S8, .f32⟩
  | 30 => ⟨S8, .f32⟩
  | 31 => ⟨S1x8, .f32⟩
  | 32 => ⟨S256x8, .f32⟩
  | 33 => ⟨S256x8, .f32⟩
  | 34 => ⟨S256x8, .f32⟩
  | 35 => ⟨S_, .f32⟩
  | 36 => ⟨S8, .f32⟩
  | 37 => ⟨S_, .f32⟩
  | 38 => ⟨S8, .f32⟩
  | 39 => ⟨S8, .f32⟩
  | 40 => ⟨S1x8, .f32⟩
  | 41 => ⟨S256x8, .f32⟩
  | 42 => ⟨S256x8, .f32⟩
  | 43 => ⟨S1x8, .f32⟩
  | 44 => ⟨S256x8, .f32⟩
  | 45 => ⟨S256x8, .f32⟩
  | 46 => ⟨S_, .f32⟩
  | 47 => ⟨S8, .f32⟩
  | 48 => ⟨S8, .f32⟩
  | 49 => ⟨S8, .f32⟩
  | 50 => ⟨S1x8, .f32⟩
  | 51 => ⟨S256x8, .f32⟩
  | 52 => ⟨S256x8, .f32⟩
  | 53 => ⟨S1x8, .f32⟩
  | 54 => ⟨S256x8, .f32⟩
  | 55 => ⟨S256x8, .f32⟩
  | 56 => ⟨S_, .f32⟩
  | 57 => ⟨S256x8, .f32⟩
  | 58 => ⟨S256x8, .f32⟩
  | 59 => ⟨S8x1, .f32⟩
  | 60 => ⟨S256x1, .f32⟩
  | 61 => ⟨S1x1, .f32⟩
  | 62 => ⟨S256x1, .f32⟩
  | 63 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call0_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call1_cst : Ref sig .tc := ⟨.hbm, 54, rfl⟩
abbrev main_call1_v0 : Ref sig .tc := ⟨.hbm, 55, rfl⟩
abbrev main_v26 : Ref sig .tc := ⟨.hbm, 56, rfl⟩
abbrev main_c_5 : Ref sig .tc := ⟨.hbm, 57, rfl⟩
abbrev main_v27 : Ref sig .tc := ⟨.hbm, 58, rfl⟩
abbrev main_v28 : Ref sig .tc := ⟨.hbm, 59, rfl⟩
abbrev main_c_6 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_8 : Ref sig .tc := ⟨.hbm, 70, rfl⟩
abbrev main_v37 : Ref sig .tc := ⟨.hbm, 71, rfl⟩
abbrev main_cst_9 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_10 : Ref sig .tc := ⟨.hbm, 76, rfl⟩
abbrev main_v41 : Ref sig .tc := ⟨.hbm, 77, rfl⟩
abbrev main_v42 : Ref sig .tc := ⟨.hbm, 78, rfl⟩
abbrev main_cst_11 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_call2_v0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call3_cst : Ref sig .tc := ⟨.hbm, 91, rfl⟩
abbrev main_call3_v0 : Ref sig .tc := ⟨.hbm, 92, rfl⟩
abbrev main_v53 : Ref sig .tc := ⟨.hbm, 93, rfl⟩
abbrev main_cst_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_13 : Ref sig .tc := ⟨.hbm, 98, rfl⟩
abbrev main_v57 : Ref sig .tc := ⟨.hbm, 99, rfl⟩
abbrev main_cst_14 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_16 : Ref sig .tc := ⟨.hbm, 116, rfl⟩
abbrev main_v72 : Ref sig .tc := ⟨.hbm, 117, rfl⟩
abbrev main_cst_17 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_18 : Ref sig .tc := ⟨.hbm, 125, rfl⟩
abbrev main_v79 : Ref sig .tc := ⟨.hbm, 126, rfl⟩
abbrev main_cst_19 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_call4_cst : Ref sig .tc := ⟨.hbm, 146, rfl⟩
abbrev main_call4_v0 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_21 : Ref sig .tc := ⟨.hbm, 154, rfl⟩
abbrev main_v103 : Ref sig .tc := ⟨.hbm, 155, rfl⟩
abbrev main_cst_22 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_23 : Ref sig .tc := ⟨.hbm, 163, rfl⟩
abbrev main_v110 : Ref sig .tc := ⟨.hbm, 164, rfl⟩
abbrev main_cst_24 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_25 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_call5_cst : Ref sig .tc := ⟨.hbm, 184, rfl⟩
abbrev main_call5_v0 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S100x128_S128x100_1_0 : S100x128.Transposes [1, 0] S128x100
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S100000x100 : S_.BroadcastsInDim S100000x100 (![] : Fin 0 → Fin S100000x100.rank)
  bcast_S100000x1_S100000x100_0_1 : S100000x1.BroadcastsInDim S100000x100 (![0, 1] : Fin 2 → Fin S100000x100.rank)
  transposes_S20x100_S100x20_1_0 : S20x100.Transposes [1, 0] S100x20
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S100000x20 : S_.BroadcastsInDim S100000x20 (![] : Fin 0 → Fin S100000x20.rank)
  bcast_S_S256x20 : S_.BroadcastsInDim S256x20 (![] : Fin 0 → Fin S256x20.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x20_0_1 : S256x1.BroadcastsInDim S256x20 (![0, 1] : Fin 2 → Fin S256x20.rank)
  transposes_S32x64_S64x32_1_0 : S32x64.Transposes [1, 0] S64x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  reducesTo_S256x32_S32_d0 : S256x32.ReducesTo [0] S32
  h_S_ : 0 < S_.numel
  bcast_S_S32 : S_.BroadcastsInDim S32 (![] : Fin 0 → Fin S32.rank)
  bcast_S_S256x32 : S_.BroadcastsInDim S256x32 (![] : Fin 0 → Fin S256x32.rank)
  transposes_S8x32_S32x8_1_0 : S8x32.Transposes [1, 0] S32x8
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  reducesTo_S256x8_S8_d0 : S256x8.ReducesTo [0] S8
  bcast_S_S8 : S_.BroadcastsInDim S8 (![] : Fin 0 → Fin S8.rank)
  bcast_S_S256x8 : S_.BroadcastsInDim S256x8 (![] : Fin 0 → Fin S256x8.rank)
  transposes_S1x8_S8x1_1_0 : S1x8.Transposes [1, 0] S8x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x100_S100000x100_1_0_0_1_n_n_wf : DotDims.WF S100000x128 S128x100 S100000x100 [1] [0] [0] [1] [] []
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x20_S100000x20_1_0_0_1_n_n_wf : DotDims.WF S100000x100 S100x20 S100000x20 [1] [0] [0] [1] [] []
  scatter_S256x20_S100000x1_S100000x20_1_0_0_1_wf : ScatterDims.WF S256x20 S100000x1 S100000x20 [1] [0] [0] 1
  scatter_S256x1_S100000x1_S100000x1_1_0_0_1_wf : ScatterDims.WF S256x1 S100000x1 S100000x1 [1] [0] [0] 1
  dot_S256x20_S20x64_S256x64_1_0_0_1_n_n_wf : DotDims.WF S256x20 S20x64 S256x64 [1] [0] [0] [1] [] []
  dot_S256x64_S64x32_S256x32_1_0_0_1_n_n_wf : DotDims.WF S256x64 S64x32 S256x32 [1] [0] [0] [1] [] []
  dot_S256x32_S32x8_S256x8_1_0_0_1_n_n_wf : DotDims.WF S256x32 S32x8 S256x8 [1] [0] [0] [1] [] []
  dot_S256x8_S8x1_S256x1_1_0_0_1_n_n_wf : DotDims.WF S256x8 S8x1 S256x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x100_S100000x100_1_0_0_1_n_n : DotDims S100000x128 S128x100 S100000x100 where
  lhsContracting := [1]
  rhsContracting := [0]
  lhsNonContracting := [0]
  rhsNonContracting := [1]
  lhsBatch := []
  rhsBatch := []
  wf := dot_S100000x128_S128x100_S100000x100_1_0_0_1_n_n_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x20_S100000x20_1_0_0_1_n_n : DotDims S100000x100 S100x20 S100000x20 where
  lhsContracting := [1]
  rhsContracting := [0]
  lhsNonContracting := [0]
  rhsNonContracting := [1]
  lhsBatch := []
  rhsBatch := []
  wf := dot_S100000x100_S100x20_S100000x20_1_0_0_1_n_n_wf
def scatter_S256x20_S100000x1_S100000x20_1_0_0_1 : ScatterDims S256x20 S100000x1 S100000x20 where
  updateWindowDims := [1]
  insertedWindowDims := [0]
  scatterDimsToOperandDims := [0]
  indexVectorDim := 1
  wf := scatter_S256x20_S100000x1_S100000x20_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x20_S20x64_S256x64_1_0_0_1_n_n : DotDims S256x20 S20x64 S256x64 where
  lhsContracting := [1]
  rhsContracting := [0]
  lhsNonContracting := [0]
  rhsNonContracting := [1]
  lhsBatch := []
  rhsBatch := []
  wf := dot_S256x20_S20x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x8_S256x8_1_0_0_1_n_n : DotDims S256x32 S32x8 S256x8 where
  lhsContracting := [1]
  rhsContracting := [0]
  lhsNonContracting := [0]
  rhsNonContracting := [1]
  lhsBatch := []
  rhsBatch := []
  wf := dot_S256x32_S32x8_S256x8_1_0_0_1_n_n_wf
def dot_S256x8_S8x1_S256x1_1_0_0_1_n_n : DotDims S256x8 S8x1 S256x1 where
  lhsContracting := [1]
  rhsContracting := [0]
  lhsNonContracting := [0]
  rhsNonContracting := [1]
  lhsBatch := []
  rhsBatch := []
  wf := dot_S256x8_S8x1_S256x1_1_0_0_1_n_n_wf

class Facts : Prop extends Facts₀ where

variable [Facts]
-- ==== Proof.KernelRun.lean ====
/-
  The idealized kernel's run, with its result named.

  The program is three regions among stretches of host operations. Its generated frame certificate follows the
  contents of every buffer from the launch memory through each stretch and each region (`W0` … `W12`) and shows that
  every weakly fair execution terminates, without a fault, with every buffer that outlives the program holding the
  last of these, `W12`. The frame claim keeps of this only that the arguments end as launched; here the same launch is
  read for every buffer, so that the result array's final contents are the fold's value at the result buffer.
-/
import proofs.«143691_j84954453115059_2_alg».proof.Proof.Gen.KernelIdeal.Frame

set_option maxRecDepth 16384

noncomputable section

namespace Cert.Bridge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that outlives it ends at
    the last boundary's contents: the launch over the program's segments, the last thread state read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The run with the result array and the arguments read off: the result ends at the fold's value at the result
    buffer, every argument as launched. -/
theorem run_value : θ_run defs (onTc (τ := τ) (main (F := F))) ⟨m, fun _ => 0, ρ⟩ (fun r => ∀ c : Dev nD,
      r.2.mem ((c.tc : Thread nD τ).loc main_v65) = W12 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨h c _ (mem_uc main_v65 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c),
     (h c _ (mem_uc main_arg16 (by decide))).trans (W12_main_arg16 m ρ c),
     (h c _ (mem_uc main_arg17 (by decide))).trans (W12_main_arg17 m ρ c),
     (h c _ (mem_uc main_arg18 (by decide))).trans (W12_main_arg18 m ρ c),
     (h c _ (mem_uc main_arg19 (by decide))).trans (W12_main_arg19 m ρ c)⟩) (run_all m ρ)

end Cert.Bridge.Run

end
-- ==== Proof.KStages.lean ====
/-
  The idealized kernel's host stretches and its first two regions, named as whole-array functions.

  Between its three regions the kernel runs host operations: the in-degree of every node (a scatter-add of ones
  along the destination column), the source column used by the row gathers (negative entries wrapped by the
  row count), the mean aggregation with its fallback for nodes without incoming edges
  (`where(deg > 0, segment_sum(z[src], dst) / max(deg, 1), z)`, at widths 100 and 20), a bias and a maximum with
  zero, and the per-graph mean of the node rows. Each is written here once, operation for operation as the
  program states it, so that the kernel's run and the comparison with the reference speak of the same terms.
  The first two regions compute, row block by row block, a contraction of every row with a fixed matrix:
  `reg0` is `x · w`, `reg1` is `max(x + b, 0) · w`, both stated entry by entry over the extended reals.
-/
import proofs.«143691_j84954453115059_2_alg».proof.KernelIdeal
import Idealize.ShloMosaic.PureOps.Ideal
import Idealize.ShloMosaic.Lib.ValueIdx

noncomputable section

namespace Cert.Bridge

open Idealize.ShloMosaic Idealize.ShloMosaic.ValueIdx Cert.KernelIdeal Cert.KernelIdeal.Facts₀
open scoped BigOperators

variable {F : FTy → Type} [FloatOps F] [Cert.KernelIdeal.Facts₀]

/-- The number of incoming edges of every node, as a column: ones scattered along the destination column into zeros. -/
def kDeg (x3 : (⟨S1600000, .i32⟩ : BufTy).Contents (Elt F)) : (⟨S100000x1, .f32⟩ : BufTy).Contents (Elt F) :=
  Host.scatterAdd scatter_S100000x1_S1600000x1_S1600000x1_1_0_0_1
    (broadcastInDim S100000x1 ![] bcast_S_S100000x1 (constant S_ .f32 0x00000000#32))
    (broadcastInDim S1600000x1 ![0] bcast_S1600000_S1600000x1_0 x3)
    (broadcastInDim S1600000x1 ![] bcast_S_S1600000x1 (constant S_ .f32 0x3F800000#32))

/-- The source column of the row gathers: a negative entry is wrapped by the number of rows. -/
def kSrcCol (x2 : (⟨S1600000, .i32⟩ : BufTy).Contents (Elt F)) : (⟨S1600000x1, .i32⟩ : BufTy).Contents (Elt F) :=
  broadcastInDim S1600000x1 ![0] bcast_S1600000_S1600000x1_0
    (select (cmpi .slt x2 (broadcastInDim S1600000 ![] bcast_S_S1600000 (constantI S_ 32 0#32)))
      (addi x2 (broadcastInDim S1600000 ![] bcast_S_S1600000 (constantI S_ 32 100000#32))) x2)

/-- Mean aggregation of projected rows of width 100 over incoming edges; a node without one keeps its own row. -/
def kAgg1 (z : (⟨S100000x100, .f32⟩ : BufTy).Contents (Elt F)) (x2 x3 : (⟨S1600000, .i32⟩ : BufTy).Contents (Elt F)) :
    (⟨S100000x100, .f32⟩ : BufTy).Contents (Elt F) :=
  select
    (broadcastInDim S100000x100 ![0, 1] bcast_S100000x1_S100000x100_0_1
      (cmpf .ogt (kDeg (F := F) x3) (broadcastInDim S100000x1 ![] bcast_S_S100000x1 (constant S_ .f32 0x00000000#32))))
    (Host.divf
      (Host.scatterAdd scatter_S100000x100_S1600000x1_S1600000x100_1_0_0_1
        (broadcastInDim S100000x100 ![] bcast_S_S100000x100 (constant S_ .f32 0x00000000#32))
        (broadcastInDim S1600000x1 ![0] bcast_S1600000_S1600000x1_0 x3)
        (Host.gather gather_S100000x100_S1600000x1_S1600000x100_1_0_n_n_0_1_1100 z (kSrcCol (F := F) x2)))
      (broadcastInDim S100000x100 ![0, 1] bcast_S100000x1_S100000x100_0_1
        (maximumf (kDeg (F := F) x3) (broadcastInDim S100000x1 ![] bcast_S_S100000x1 (constant S_ .f32 0x3F800000#32)))))
    z

/-- The same aggregation at width 20. -/
def kAgg2 (z : (⟨S100000x20, .f32⟩ : BufTy).Contents (Elt F)) (x2 x3 : (⟨S1600000, .i32⟩ : BufTy).Contents (Elt F)) :
    (⟨S100000x20, .f32⟩ : BufTy).Contents (Elt F) :=
  select
    (broadcastInDim S100000x20 ![0, 1] bcast_S100000x1_S100000x20_0_1
      (cmpf .ogt (kDeg (F := F) x3) (broadcastInDim S100000x1 ![] bcast_S_S100000x1 (constant S_ .f32 0x00000000#32))))
    (Host.divf
      (Host.scatterAdd scatter_S100000x20_S1600000x1_S1600000x20_1_0_0_1
        (broadcastInDim S100000x20 ![] bcast_S_S100000x20 (constant S_ .f32 0x00000000#32))
        (broadcastInDim S1600000x1 ![0] bcast_S1600000_S1600000x1_0 x3)
        (Host.gather gather_S100000x20_S1600000x1_S1600000x20_1_0_n_n_0_1_120 z (kSrcCol (F := F) x2)))
      (broadcastInDim S100000x20 ![0, 1] bcast_S100000x1_S100000x20_0_1
        (maximumf (kDeg (F := F) x3) (broadcastInDim S100000x1 ![] bcast_S_S100000x1 (constant S_ .f32 0x3F800000#32)))))
    z

/-- The second layer's bias and maximum with zero. -/
def kH2 (a : (⟨S100000x20, .f32⟩ : BufTy).Contents (Elt F)) (x8 : (⟨S20, .f32⟩ : BufTy).Contents (Elt F)) :
    (⟨S100000x20, .f32⟩ : BufTy).Contents (Elt F) :=
  maximumf
    (addf a (broadcastInDim S100000x20 ![0, 1] bcast_S1x20_S100000x20_0_1 (broadcastInDim S1x20 ![1] bcast_S20_S1x20_1 x8)))
    (broadcastInDim S100000x20 ![] bcast_S_S100000x20 (constant S_ .f32 0x00000000#32))

/-- The per-graph mean of the node rows: rows summed by graph, divided by the graph's node count floored at one. -/
def kHg (h : (⟨S100000x20, .f32⟩ : BufTy).Contents (Elt F)) (x4 : (⟨S100000, .i32⟩ : BufTy).Contents (Elt F)) :
    (⟨S256x20, .f32⟩ : BufTy).Contents (Elt F) :=
  Host.divf
    (Host.scatterAdd scatter_S256x20_S100000x1_S100000x20_1_0_0_1
      (broadcastInDim S256x20 ![] bcast_S_S256x20 (constant S_ .f32 0x00000000#32))
      (broadcastInDim S100000x1 ![0] bcast_S100000_S100000x1_0 x4) h)
    (broadcastInDim S256x20 ![0, 1] bcast_S256x1_S256x20_0_1
      (maximumf
        (Host.scatterAdd scatter_S256x1_S100000x1_S100000x1_1_0_0_1
          (broadcastInDim S256x1 ![] bcast_S_S256x1 (constant S_ .f32 0x00000000#32))
          (broadcastInDim S100000x1 ![0] bcast_S100000_S100000x1_0 x4)
          (broadcastInDim S100000x1 ![] bcast_S_S100000x1 (constant S_ .f32 0x3F800000#32)))
        (broadcastInDim S256x1 ![] bcast_S_S256x1 (constant S_ .f32 0x3F800000#32))))

/-- The first weight matrix with its axes swapped. -/
def kW1T (x5 : (⟨S100x128, .f32⟩ : BufTy).Contents (Elt F)) : (⟨S128x100, .f32⟩ : BufTy).Contents (Elt F) :=
  transpose S128x100 [1, 0] x5 transposes_S100x128_S128x100_1_0

/-- The second weight matrix with its axes swapped. -/
def kW2T (x7 : (⟨S20x100, .f32⟩ : BufTy).Contents (Elt F)) : (⟨S100x20, .f32⟩ : BufTy).Contents (Elt F) :=
  transpose S100x20 [1, 0] x7 transposes_S20x100_S100x20_1_0

/-- The first region's result: every row of `x` contracted with `w`. -/
def reg0 (x : S100000x128.Idx → EReal) (w : S128x100.Idx → EReal) : S100000x100.Idx → EReal :=
  fun i => ∑ c : Fin 128, x (ix2 (n0 := 100000) (i 0) c) * w (ix2 (n1 := 100) c (i 1))

theorem reg0_apply (x : S100000x128.Idx → EReal) (w : S128x100.Idx → EReal) (p : Fin 100000) (q : Fin 100) :
    reg0 x w (ix2 p q) = ∑ c : Fin 128, x (ix2 p c) * w (ix2 c q) := rfl

/-- The second region's result: every row of `max (x + b) 0` contracted with `w`. -/
def reg1 (x : S100000x100.Idx → EReal) (b : S1x100.Idx → EReal) (w : S100x20.Idx → EReal) : S100000x20.Idx → EReal :=
  fun i => ∑ c : Fin 100, max (x (ix2 (n0 := 100000) (i 0) c) + b (ix2 (0 : Fin 1) c)) 0 * w (ix2 (n1 := 20) c (i 1))

theorem reg1_apply (x : S100000x100.Idx → EReal) (b : S1x100.Idx → EReal) (w : S100x20.Idx → EReal) (p : Fin 100000) (q : Fin 20) :
    reg1 x b w (ix2 p q) = ∑ c : Fin 100, max (x (ix2 p c) + b (ix2 0 c)) 0 * w (ix2 c q) := rfl

end Cert.Bridge

end
-- ==== Proof.KernelBackKeep.lean ====
/-
  Buffers that a stretch of host operations leaves alone.

  Between its regions the program runs stretches of host operations, each writing one result buffer. A buffer that
  none of the operations of a stretch writes holds after the stretch what it held before it. Stated once per stretch,
  for any contents before the stretch and any buffer that differs from each of the stretch's result buffers. A region leaves
  alone every buffer that is none of its arrays. Chained along the program's boundaries: a buffer nothing writes after
  the first stretch holds at every later boundary what it held after that stretch, and a buffer nothing writes at all
  holds at every boundary what the launch memory holds.
-/
import proofs.«143691_j84954453115059_2_alg».proof.Proof.Gen.KernelIdeal.Frame
import Idealize.ShloMosaic.Lib.StableHlo.Run

set_option maxRecDepth 16384

noncomputable section

namespace Cert.Bridge.Back

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

/-- The buffers the operations of stretch `hostOps0` write. -/
abbrev wr0 : List (Ref sig .tc) := [main_cst, main_v0, main_cst_0, main_v1, main_v2, main_v3, main_v4]
/-- The buffers the operations of stretch `hostOps1` write. -/
abbrev wr1 : List (Ref sig .tc) := [main_c, main_v6, main_v7, main_c_1, main_v8, main_v9, main_v10, main_v11, main_v12, main_cst_2, main_v13, main_v14, main_v15, main_cst_3, main_v16, main_v17, main_cst_4, main_v18, main_v19, main_v20, main_v21]
/-- The buffers the operations of stretch `hostOps1_1` write. -/
abbrev wr1_1 : List (Ref sig .tc) := [main_call0_v0, main_v22]
/-- The buffers the operations of stretch `hostOps1_2` write. -/
abbrev wr1_2 : List (Ref sig .tc) := [main_v23, main_v24]
/-- The buffers the operations of stretch `hostOps2` write. -/
abbrev wr2 : List (Ref sig .tc) := [main_c_5, main_v26, main_v27, main_c_6, main_v28, main_v29, main_v30, main_v31, main_v32, main_cst_7, main_v33, main_v34, main_v35, main_cst_8, main_v36, main_v37, main_cst_9, main_v38, main_v39, main_v40, main_v41]
/-- The buffers the operations of stretch `hostOps2_1` write. -/
abbrev wr2_1 : List (Ref sig .tc) := [main_call1_v0, main_v42]
/-- The buffers the operations of stretch `hostOps2_2` write. -/
abbrev wr2_2 : List (Ref sig .tc) := [main_v43, main_v44, main_v45]
/-- The buffers the operations of stretch `hostOps2_3` write. -/
abbrev wr2_3 : List (Ref sig .tc) := [main_call2_cst, main_call2_v0, main_v46]
/-- The buffers the operations of stretch `hostOps2_4` write. -/
abbrev wr2_4 : List (Ref sig .tc) := [main_cst_10, main_v47, main_v48, main_v49, main_cst_11, main_v50, main_cst_12, main_v51, main_v52, main_v53, main_cst_13, main_v54, main_v55, main_v56, main_v57, main_v58, main_v59, main_v60, main_v61, main_v62, main_v63, main_v64]

/-- A buffer that no operation of `hostOps0` writes holds after the stretch what it held before. -/
theorem keep0 (Wp : Valuation τ sig (Elt F)) (b : Ref sig .tc) (hb : ∀ y ∈ wr0, b ≠ y) :
    StableHlo.after (hostOps0 (F := F)) Wp (Proc.devRef .tc b) = Wp (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps1` writes holds after the stretch what it held before. -/
theorem keep1 (Wp : Valuation τ sig (Elt F)) (b : Ref sig .tc) (hb : ∀ y ∈ wr1, b ≠ y) :
    StableHlo.after (hostOps1 (F := F)) Wp (Proc.devRef .tc b) = Wp (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps1_1` writes holds after the stretch what it held before. -/
theorem keep1_1 (Wp : Valuation τ sig (Elt F)) (b : Ref sig .tc) (hb : ∀ y ∈ wr1_1, b ≠ y) :
    StableHlo.after (hostOps1_1 (F := F)) Wp (Proc.devRef .tc b) = Wp (Proc.devRef .tc b) :=
  StableHlo.after_of_forall_not_mem (b := Proc.devRef .tc b) _ _ (List.forall_iff_forall_mem.mp (by
    simp only [hostOps1_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps1_2` writes holds after the stretch what it held before. -/
theorem keep1_2 (Wp : Valuation τ sig (Elt F)) (b : Ref sig .tc) (hb : ∀ y ∈ wr1_2, b ≠ y) :
    StableHlo.after (hostOps1_2 (F := F)) Wp (Proc.devRef .tc b) = Wp (Proc.devRef .tc b) :=
  StableHlo.after_of_forall_not_mem (b := Proc.devRef .tc b) _ _ (List.forall_iff_forall_mem.mp (by
    simp only [hostOps1_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps2` writes holds after the stretch what it held before. -/
theorem keep2 (Wp : Valuation τ sig (Elt F)) (b : Ref sig .tc) (hb : ∀ y ∈ wr2, b ≠ y) :
    StableHlo.after (hostOps2 (F := F)) Wp (Proc.devRef .tc b) = Wp (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps2_1` writes holds after the stretch what it held before. -/
theorem keep2_1 (Wp : Valuation τ sig (Elt F)) (b : Ref sig .tc) (hb : ∀ y ∈ wr2_1, b ≠ y) :
    StableHlo.after (hostOps2_1 (F := F)) Wp (Proc.devRef .tc b) = Wp (Proc.devRef .tc b) :=
  StableHlo.after_of_forall_not_mem (b := Proc.devRef .tc b) _ _ (List.forall_iff_forall_mem.mp (by
    simp only [hostOps2_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps2_2` writes holds after the stretch what it held before. -/
theorem keep2_2 (Wp : Valuation τ sig (Elt F)) (b : Ref sig .tc) (hb : ∀ y ∈ wr2_2, b ≠ y) :
    StableHlo.after (hostOps2_2 (F := F)) Wp (Proc.devRef .tc b) = Wp (Proc.devRef .tc b) :=
  StableHlo.after_of_forall_not_mem (b := Proc.devRef .tc b) _ _ (List.forall_iff_forall_mem.mp (by
    simp only [hostOps2_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps2_3` writes holds after the stretch what it held before. -/
theorem keep2_3 (Wp : Valuation τ sig (Elt F)) (b : Ref sig .tc) (hb : ∀ y ∈ wr2_3, b ≠ y) :
    StableHlo.after (hostOps2_3 (F := F)) Wp (Proc.devRef .tc b) = Wp (Proc.devRef .tc b) :=
  StableHlo.after_of_forall_not_mem (b := Proc.devRef .tc b) _ _ (List.forall_iff_forall_mem.mp (by
    simp only [hostOps2_3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer that no operation of `hostOps2_4` writes holds after the stretch what it held before. -/
theorem keep2_4 (Wp : Valuation τ sig (Elt F)) (b : Ref sig .tc) (hb : ∀ y ∈ wr2_4, b ≠ y) :
    StableHlo.after (hostOps2_4 (F := F)) Wp (Proc.devRef .tc b) = Wp (Proc.devRef .tc b) :=
  StableHlo.after_of_forall_not_mem (b := Proc.devRef .tc b) _ _ (List.forall_iff_forall_mem.mp (by
    simp only [hostOps2_4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

variable (m : (ℓ : Loc nD τ sig) → Buf (Elt F) ℓ) (ρ : Dev nD → PrngReg)

/-- A buffer that no stretch after the first writes and that is no array of the first two regions. -/
abbrev Quiet1 (b : Ref sig .tc) : Prop :=
  (∀ y ∈ wr1, b ≠ y) ∧
  (∀ y ∈ wr1_1, b ≠ y) ∧
  (∀ y ∈ wr1_2, b ≠ y) ∧
  (∀ y ∈ wr2, b ≠ y) ∧
  (∀ y ∈ wr2_1, b ≠ y) ∧
  (∀ y ∈ wr2_2, b ≠ y) ∧
  (∀ y ∈ wr2_3, b ≠ y) ∧
  (∀ y ∈ wr2_4, b ≠ y) ∧
  (∀ w, Pipeline.arrRef spec0 w ≠ b) ∧
  (∀ w, Pipeline.arrRef spec1 w ≠ b)

/-- After the first stretch a buffer it does not write holds what the launch memory holds. -/
theorem W1_launch (c : Dev nD) (b : Ref sig .tc) (h0 : ∀ y ∈ wr0, b ≠ y) :
    W1 m ρ c (Proc.devRef .tc b) = m ((c : Thread nD τ).loc b) :=
  (keep0 (W0 m ρ c) b h0).trans rfl

/-! A quiet buffer holds at every later boundary what it held after the first stretch. -/

theorem W2_first (c : Dev nD) (b : Ref sig .tc) (h : Quiet1 b) : W2 m ρ c (Proc.devRef .tc b) = W1 m ρ c (Proc.devRef .tc b) :=
  W2_of_ne m ρ c b h.2.2.2.2.2.2.2.2.1
theorem W3_first (c : Dev nD) (b : Ref sig .tc) (h : Quiet1 b) : W3 m ρ c (Proc.devRef .tc b) = W1 m ρ c (Proc.devRef .tc b) :=
  (keep1 (W2 m ρ c) b h.1).trans (W2_first m ρ c b h)
theorem W4_first (c : Dev nD) (b : Ref sig .tc) (h : Quiet1 b) : W4 m ρ c (Proc.devRef .tc b) = W1 m ρ c (Proc.devRef .tc b) :=
  (keep1_1 (W3 m ρ c) b h.2.1).trans (W3_first m ρ c b h)
theorem W5_first (c : Dev nD) (b : Ref sig .tc) (h : Quiet1 b) : W5 m ρ c (Proc.devRef .tc b) = W1 m ρ c (Proc.devRef .tc b) :=
  (keep1_2 (W4 m ρ c) b h.2.2.1).trans (W4_first m ρ c b h)
theorem W6_first (c : Dev nD) (b : Ref sig .tc) (h : Quiet1 b) : W6 m ρ c (Proc.devRef .tc b) = W1 m ρ c (Proc.devRef .tc b) :=
  (W6_of_ne m ρ c b h.2.2.2.2.2.2.2.2.2).trans (W5_first m ρ c b h)
theorem W7_first (c : Dev nD) (b : Ref sig .tc) (h : Quiet1 b) : W7 m ρ c (Proc.devRef .tc b) = W1 m ρ c (Proc.devRef .tc b) :=
  (keep2 (W6 m ρ c) b h.2.2.2.1).trans (W6_first m ρ c b h)
theorem W8_first (c : Dev nD) (b : Ref sig .tc) (h : Quiet1 b) : W8 m ρ c (Proc.devRef .tc b) = W1 m ρ c (Proc.devRef .tc b) :=
  (keep2_1 (W7 m ρ c) b h.2.2.2.2.1).trans (W7_first m ρ c b h)
theorem W9_first (c : Dev nD) (b : Ref sig .tc) (h : Quiet1 b) : W9 m ρ c (Proc.devRef .tc b) = W1 m ρ c (Proc.devRef .tc b) :=
  (keep2_2 (W8 m ρ c) b h.2.2.2.2.2.1).trans (W8_first m ρ c b h)
theorem W10_first (c : Dev nD) (b : Ref sig .tc) (h : Quiet1 b) : W10 m ρ c (Proc.devRef .tc b) = W1 m ρ c (Proc.devRef .tc b) :=
  (keep2_3 (W9 m ρ c) b h.2.2.2.2.2.2.1).trans (W9_first m ρ c b h)
theorem W11_first (c : Dev nD) (b : Ref sig .tc) (h : Quiet1 b) : W11 m ρ c (Proc.devRef .tc b) = W1 m ρ c (Proc.devRef .tc b) :=
  (keep2_4 (W10 m ρ c) b h.2.2.2.2.2.2.2.1).trans (W10_first m ρ c b h)

/-! A quiet buffer that the first stretch does not write either holds at every boundary what the launch memory holds. -/

theorem W2_launch (c : Dev nD) (b : Ref sig .tc) (h0 : ∀ y ∈ wr0, b ≠ y) (h : Quiet1 b) :
    W2 m ρ c (Proc.devRef .tc b) = m ((c : Thread nD τ).loc b) :=
  (W2_first m ρ c b h).trans (W1_launch m ρ c b h0)
theorem W3_launch (c : Dev nD) (b : Ref sig .tc) (h0 : ∀ y ∈ wr0, b ≠ y) (h : Quiet1 b) :
    W3 m ρ c (Proc.devRef .tc b) = m ((c : Thread nD τ).loc b) :=
  (W3_first m ρ c b h).trans (W1_launch m ρ c b h0)
theorem W4_launch (c : Dev nD) (b : Ref sig .tc) (h0 : ∀ y ∈ wr0, b ≠ y) (h : Quiet1 b) :
    W4 m ρ c (Proc.devRef .tc b) = m ((c : Thread nD τ).loc b) :=
  (W4_first m ρ c b h).trans (W1_launch m ρ c b h0)
theorem W5_launch (c : Dev nD) (b : Ref sig .tc) (h0 : ∀ y ∈ wr0, b ≠ y) (h : Quiet1 b) :
    W5 m ρ c (Proc.devRef .tc b) = m ((c : Thread nD τ).loc b) :=
  (W5_first m ρ c b h).trans (W1_launch m ρ c b h0)
theorem W6_launch (c : Dev nD) (b : Ref sig .tc) (h0 : ∀ y ∈ wr0, b ≠ y) (h : Quiet1 b) :
    W6 m ρ c (Proc.devRef .tc b) = m ((c : Thread nD τ).loc b) :=
  (W6_first m ρ c b h).trans (W1_launch m ρ c b h0)
theorem W7_launch (c : Dev nD) (b : Ref sig .tc) (h0 : ∀ y ∈ wr0, b ≠ y) (h : Quiet1 b) :
    W7 m ρ c (Proc.devRef .tc b) = m ((c : Thread nD τ).loc b) :=
  (W7_first m ρ c b h).trans (W1_launch m ρ c b h0)
theorem W8_launch (c : Dev nD) (b : Ref sig .tc) (h0 : ∀ y ∈ wr0, b ≠ y) (h : Quiet1 b) :
    W8 m ρ c (Proc.devRef .tc b) = m ((c : Thread nD τ).loc b) :=
  (W8_first m ρ c b h).trans (W1_launch m ρ c b h0)
theorem W9_launch (c : Dev nD) (b : Ref sig .tc) (h0 : ∀ y ∈ wr0, b ≠ y) (h : Quiet1 b) :
    W9 m ρ c (Proc.devRef .tc b) = m ((c : Thread nD τ).loc b) :=
  (W9_first m ρ c b h).trans (W1_launch m ρ c b h0)
theorem W10_launch (c : Dev nD) (b : Ref sig .tc) (h0 : ∀ y ∈ wr0, b ≠ y) (h : Quiet1 b) :
    W10 m ρ c (Proc.devRef .tc b) = m ((c : Thread nD τ).loc b) :=
  (W10_first m ρ c b h).trans (W1_launch m ρ c b h0)
theorem W11_launch (c : Dev nD) (b : Ref sig .tc) (h0 : ∀ y ∈ wr0, b ≠ y) (h : Quiet1 b) :
    W11 m ρ c (Proc.devRef .tc b) = m ((c : Thread nD τ).loc b) :=
  (W11_first m ρ c b h).trans (W1_launch m ρ c b h0)

end Cert.Bridge.Back

end
-- ==== Proof.KernelBack.lean ====
/-
  The arrays the first two regions find when they are entered, read back to the launch memory.

  The program's buffers are followed from the launch memory through each stretch of host operations and each region.
  A stretch's result buffers hold its operations' functions of what their operand buffers held before the stretch;
  every other buffer, and every buffer that is no array of a region, is carried along unchanged. Walking back from
  each region's entry: region 0 finds the node features as launched and the first weight matrix with its axes
  swapped; region 1 finds the mean aggregation of region 0's result over incoming edges, the first bias as a row and
  the second weight matrix with its axes swapped. The in-degree column is computed once, in the first stretch, and
  read again by the aggregation.
-/
import proofs.«143691_j84954453115059_2_alg».proof.Proof.Gen.KernelIdeal.Frame
import proofs.«143691_j84954453115059_2_alg».proof.Proof.KStages
import proofs.«143691_j84954453115059_2_alg».proof.Proof.KernelBackKeep
import Idealize.ShloMosaic.Lib.StableHlo.Run

set_option maxRecDepth 16384

noncomputable section

namespace Cert.Bridge.Back

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Bridge

variable {F : FTy → Type} [FloatOps F]

/-! ## What each stretch writes, from any contents before it -/

theorem ops0_v4 (Wp : Valuation τ sig (Elt F)) :
    StableHlo.after (hostOps0 (F := F)) Wp (Proc.devRef .tc main_v4) = kW1T (Wp (Proc.devRef .tc main_arg5)) := by
  after_results
  try rfl

theorem ops0_v3 (Wp : Valuation τ sig (Elt F)) :
    StableHlo.after (hostOps0 (F := F)) Wp (Proc.devRef .tc main_v3) = kDeg (Wp (Proc.devRef .tc main_arg3)) := by
  after_results
  try rfl

theorem ops1_v17 (Wp : Valuation τ sig (Elt F)) :
    StableHlo.after (hostOps1 (F := F)) Wp (Proc.devRef .tc main_v17)
      = cmpf .ogt (Wp (Proc.devRef .tc main_v3)) (broadcastInDim S100000x1 ![] bcast_S_S100000x1 (constant S_ .f32 0x00000000#32)) := by
  after_results
  try rfl

theorem ops1_v21 (Wp : Valuation τ sig (Elt F)) :
    StableHlo.after (hostOps1 (F := F)) Wp (Proc.devRef .tc main_v21)
      = Host.divf
          (Host.scatterAdd scatter_S100000x100_S1600000x1_S1600000x100_1_0_0_1
            (broadcastInDim S100000x100 ![] bcast_S_S100000x100 (constant S_ .f32 0x00000000#32))
            (broadcastInDim S1600000x1 ![0] bcast_S1600000_S1600000x1_0 (Wp (Proc.devRef .tc main_arg3)))
            (Host.gather gather_S100000x100_S1600000x1_S1600000x100_1_0_n_n_0_1_1100 (Wp (Proc.devRef .tc main_v5))
              (kSrcCol (Wp (Proc.devRef .tc main_arg2)))))
          (broadcastInDim S100000x100 ![0, 1] bcast_S100000x1_S100000x100_0_1
            (maximumf (Wp (Proc.devRef .tc main_v3)) (broadcastInDim S100000x1 ![] bcast_S_S100000x1 (constant S_ .f32 0x3F800000#32)))) := by
  after_results_simp
  try rfl

theorem ops1_1_v22 (Wp : Valuation τ sig (Elt F)) :
    StableHlo.after (hostOps1_1 (F := F)) Wp (Proc.devRef .tc main_v22)
      = select (broadcastInDim S100000x100 ![0, 1] bcast_S100000x1_S100000x100_0_1 (Wp (Proc.devRef .tc main_v17)))
          (Wp (Proc.devRef .tc main_v21)) (Wp (Proc.devRef .tc main_v5)) := by
  after_results
  try rfl

theorem ops1_2_v23 (Wp : Valuation τ sig (Elt F)) :
    StableHlo.after (hostOps1_2 (F := F)) Wp (Proc.devRef .tc main_v23) = kW2T (Wp (Proc.devRef .tc main_arg7)) := by
  after_results
  try rfl

theorem ops1_2_v24 (Wp : Valuation τ sig (Elt F)) :
    StableHlo.after (hostOps1_2 (F := F)) Wp (Proc.devRef .tc main_v24)
      = fun i => shapeCast S1x100 (Wp (Proc.devRef .tc main_arg6)) shapeCasts_S100_S1x100 i := by
  after_results
  try rfl

/-! ## The first aggregation, from any contents in which the in-degree column is the in-degree of the destination column -/

theorem agg1_of (Wp : Valuation τ sig (Elt F)) (hd : Wp (Proc.devRef .tc main_v3) = kDeg (Wp (Proc.devRef .tc main_arg3))) :
    StableHlo.after (hostOps1_1 (F := F)) (StableHlo.after (hostOps1 (F := F)) Wp) (Proc.devRef .tc main_v22)
      = kAgg1 (Wp (Proc.devRef .tc main_v5)) (Wp (Proc.devRef .tc main_arg2)) (Wp (Proc.devRef .tc main_arg3)) := by
  rw [ops1_1_v22, ops1_v17, ops1_v21, keep1 Wp main_v5 (by decide), hd]
  rfl

variable (m : (ℓ : Loc nD τ sig) → Buf (Elt F) ℓ) (ρ : Dev nD → PrngReg)

/-! ## Region 0's entry -/

theorem V1_arg0 (c : Dev nD) : V1 m ρ c main_arg0 = (m ((c : Thread nD τ).loc main_arg0)) :=
  W1_launch m ρ c main_arg0 (by decide)

theorem V1_v4 (c : Dev nD) : V1 m ρ c main_v4 = kW1T (m ((c : Thread nD τ).loc main_arg5)) :=
  ops0_v4 (W0 m ρ c)

/-- The in-degree column after the first stretch. -/
theorem W1_v3 (c : Dev nD) : W1 m ρ c (Proc.devRef .tc main_v3) = kDeg (m ((c : Thread nD τ).loc main_arg3)) :=
  ops0_v3 (W0 m ρ c)

/-! ## Region 1's entry -/

/-- The in-degree column at region 0's exit. -/
theorem W2_v3 (c : Dev nD) : W2 m ρ c (Proc.devRef .tc main_v3) = kDeg (m ((c : Thread nD τ).loc main_arg3)) :=
  (W2_first m ρ c main_v3 (by decide)).trans (W1_v3 m ρ c)

theorem V5_v22 (c : Dev nD) :
    V5 m ρ c main_v22 = kAgg1 (W2 m ρ c (Proc.devRef .tc main_v5)) (m ((c : Thread nD τ).loc main_arg2)) (m ((c : Thread nD τ).loc main_arg3)) := by
  have h2 : W2 m ρ c (Proc.devRef .tc main_arg2) = (m ((c : Thread nD τ).loc main_arg2)) := W2_launch m ρ c main_arg2 (by decide) (by decide)
  have h3 : W2 m ρ c (Proc.devRef .tc main_arg3) = (m ((c : Thread nD τ).loc main_arg3)) := W2_launch m ρ c main_arg3 (by decide) (by decide)
  have hd : W2 m ρ c (Proc.devRef .tc main_v3) = kDeg (W2 m ρ c (Proc.devRef .tc main_arg3)) := by rw [h3]; exact W2_v3 m ρ c
  have e := agg1_of (W2 m ρ c) hd
  rw [h2, h3] at e
  exact (keep1_2 (W4 m ρ c) main_v22 (by decide)).trans e

theorem V5_v24 (c : Dev nD) :
    V5 m ρ c main_v24 = fun i => shapeCast S1x100 (m ((c : Thread nD τ).loc main_arg6)) shapeCasts_S100_S1x100 i := by
  have e := ops1_2_v24 (W4 m ρ c)
  rw [W4_launch m ρ c main_arg6 (by decide) (by decide)] at e
  exact e

theorem V5_v23 (c : Dev nD) : V5 m ρ c main_v23 = kW2T (m ((c : Thread nD τ).loc main_arg7)) := by
  have e := ops1_2_v23 (W4 m ρ c)
  rw [W4_launch m ρ c main_arg7 (by decide) (by decide)] at e
  exact e

end Cert.Bridge.Back

end
-- ==== Proof.KernelBack2.lean ====
/-
  The arrays the third region finds when it is entered, read back to the launch memory.

  The program's buffers are followed from the launch memory through each stretch of host operations and each region.
  A stretch's result buffers hold its operations' functions of what their operand buffers held before the stretch;
  every other buffer, and every buffer that is no array of a region, is carried along unchanged. Walking back from
  the third region's entry: it finds the per-graph mean of the second layer's rectified, biased aggregation of the
  second region's result, five arguments as launched and seven argument vectors as rows. The in-degree column is
  computed once, in the first stretch, and read again by the second aggregation.
-/
import proofs.«143691_j84954453115059_2_alg».proof.Proof.Gen.KernelIdeal.Frame
import proofs.«143691_j84954453115059_2_alg».proof.Proof.KStages
import proofs.«143691_j84954453115059_2_alg».proof.Proof.KernelBackKeep
import Idealize.ShloMosaic.Lib.StableHlo.Run

set_option maxRecDepth 16384

noncomputable section

namespace Cert.Bridge.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge Idealize.ShloMosaic.StableHlo

variable {F : FTy → Type} [FloatOps F]

/-! ## What each stretch writes, from any contents before it -/

/-- The first stretch leaves, in the in-degree column's buffer, the in-degree of the target list it finds. -/
theorem r2_ops0_v3 (Wp : Valuation τ sig (Elt F)) :
    StableHlo.after (hostOps0 (F := F)) Wp (Proc.devRef .tc main_v3) = kDeg (Wp (Proc.devRef .tc main_arg3)) := by
  after_results
  try rfl

/-- The second aggregation's guard: the in-degree column compared with zero. -/
theorem r2_ops2_v37 (Wp : Valuation τ sig (Elt F)) :
    StableHlo.after (hostOps2 (F := F)) Wp (Proc.devRef .tc main_v37)
      = cmpf .ogt (Wp (Proc.devRef .tc main_v3)) (broadcastInDim S100000x1 ![] bcast_S_S100000x1 (constant S_ .f32 0x00000000#32)) := by
  after_results
  try rfl

/-- The second aggregation's quotient: the rows of region 1's result gathered by source, summed by target, divided by
    the in-degree floored at one. -/
theorem r2_ops2_v41 (Wp : Valuation τ sig (Elt F)) :
    StableHlo.after (hostOps2 (F := F)) Wp (Proc.devRef .tc main_v41)
      = Host.divf
          (Host.scatterAdd scatter_S100000x20_S1600000x1_S1600000x20_1_0_0_1
            (broadcastInDim S100000x20 ![] bcast_S_S100000x20 (constant S_ .f32 0x00000000#32))
            (broadcastInDim S1600000x1 ![0] bcast_S1600000_S1600000x1_0 (Wp (Proc.devRef .tc main_arg3)))
            (Host.gather gather_S100000x20_S1600000x1_S1600000x20_1_0_n_n_0_1_120 (Wp (Proc.devRef .tc main_v25))
              (kSrcCol (Wp (Proc.devRef .tc main_arg2)))))
          (broadcastInDim S100000x20 ![0, 1] bcast_S100000x1_S100000x20_0_1
            (maximumf (Wp (Proc.devRef .tc main_v3)) (broadcastInDim S100000x1 ![] bcast_S_S100000x1 (constant S_ .f32 0x3F800000#32)))) := by
  after_results_simp
  try rfl

/-- The second aggregation's choice between the quotient and the node's own row. -/
theorem r2_ops2_1_v42 (Wp : Valuation τ sig (Elt F)) :
    StableHlo.after (hostOps2_1 (F := F)) Wp (Proc.devRef .tc main_v42)
      = select (broadcastInDim S100000x20 ![0, 1] bcast_S100000x1_S100000x20_0_1 (Wp (Proc.devRef .tc main_v37)))
          (Wp (Proc.devRef .tc main_v41)) (Wp (Proc.devRef .tc main_v25)) := by
  after_results
  try rfl

/-- The second bias, added along the rows. -/
theorem r2_ops2_2_v45 (Wp : Valuation τ sig (Elt F)) :
    StableHlo.after (hostOps2_2 (F := F)) Wp (Proc.devRef .tc main_v45)
      = addf (Wp (Proc.devRef .tc main_v42))
          (broadcastInDim S100000x20 ![0, 1] bcast_S1x20_S100000x20_0_1
            (broadcastInDim S1x20 ![1] bcast_S20_S1x20_1 (Wp (Proc.devRef .tc main_arg8)))) := by
  after_results
  try rfl

/-- The maximum with zero. -/
theorem r2_ops2_3_v46 (Wp : Valuation τ sig (Elt F)) :
    StableHlo.after (hostOps2_3 (F := F)) Wp (Proc.devRef .tc main_v46)
      = maximumf (Wp (Proc.devRef .tc main_v45))
          (broadcastInDim S100000x20 ![] bcast_S_S100000x20 (constant S_ .f32 0x00000000#32)) := by
  after_results
  try rfl

/-- The per-graph mean of the rows the last stretch finds. -/
theorem r2_ops2_4_v57 (Wp : Valuation τ sig (Elt F)) :
    StableHlo.after (hostOps2_4 (F := F)) Wp (Proc.devRef .tc main_v57) = kHg (Wp (Proc.devRef .tc main_v46)) (Wp (Proc.devRef .tc main_arg4)) := by
  after_results_simp
  try rfl

theorem r2_ops2_4_v58 (Wp : Valuation τ sig (Elt F)) :
    StableHlo.after (hostOps2_4 (F := F)) Wp (Proc.devRef .tc main_v58)
      = fun i => shapeCast S1x32 (Wp (Proc.devRef .tc main_arg11)) shapeCasts_S32_S1x32 i := by
  after_results
  try rfl

theorem r2_ops2_4_v59 (Wp : Valuation τ sig (Elt F)) :
    StableHlo.after (hostOps2_4 (F := F)) Wp (Proc.devRef .tc main_v59)
      = fun i => shapeCast S1x8 (Wp (Proc.devRef .tc main_arg13)) shapeCasts_S8_S1x8 i := by
  after_results
  try rfl

theorem r2_ops2_4_v60 (Wp : Valuation τ sig (Elt F)) :
    StableHlo.after (hostOps2_4 (F := F)) Wp (Proc.devRef .tc main_v60)
      = fun i => shapeCast S1x1 (Wp (Proc.devRef .tc main_arg15)) shapeCasts_S1_S1x1 i := by
  after_results
  try rfl

theorem r2_ops2_4_v61 (Wp : Valuation τ sig (Elt F)) :
    StableHlo.after (hostOps2_4 (F := F)) Wp (Proc.devRef .tc main_v61)
      = fun i => shapeCast S1x32 (Wp (Proc.devRef .tc main_arg16)) shapeCasts_S32_S1x32 i := by
  after_results
  try rfl

theorem r2_ops2_4_v62 (Wp : Valuation τ sig (Elt F)) :
    StableHlo.after (hostOps2_4 (F := F)) Wp (Proc.devRef .tc main_v62)
      = fun i => shapeCast S1x32 (Wp (Proc.devRef .tc main_arg17)) shapeCasts_S32_S1x32 i := by
  after_results
  try rfl

theorem r2_ops2_4_v63 (Wp : Valuation τ sig (Elt F)) :
    StableHlo.after (hostOps2_4 (F := F)) Wp (Proc.devRef .tc main_v63)
      = fun i => shapeCast S1x8 (Wp (Proc.devRef .tc main_arg18)) shapeCasts_S8_S1x8 i := by
  after_results
  try rfl

theorem r2_ops2_4_v64 (Wp : Valuation τ sig (Elt F)) :
    StableHlo.after (hostOps2_4 (F := F)) Wp (Proc.devRef .tc main_v64)
      = fun i => shapeCast S1x8 (Wp (Proc.devRef .tc main_arg19)) shapeCasts_S8_S1x8 i := by
  after_results
  try rfl

/-! ## The second aggregation -/

/-- The second aggregation, from any contents in which the in-degree column is the in-degree of the target list. -/
theorem r2_agg2_of (Wp : Valuation τ sig (Elt F)) (hd : Wp (Proc.devRef .tc main_v3) = kDeg (Wp (Proc.devRef .tc main_arg3))) :
    StableHlo.after (hostOps2_1 (F := F)) (StableHlo.after (hostOps2 (F := F)) Wp) (Proc.devRef .tc main_v42)
      = kAgg2 (Wp (Proc.devRef .tc main_v25)) (Wp (Proc.devRef .tc main_arg2)) (Wp (Proc.devRef .tc main_arg3)) := by
  rw [r2_ops2_1_v42, r2_ops2_v37, r2_ops2_v41, keep2 Wp main_v25 (by decide), hd]
  rfl

variable (m : (ℓ : Loc nD τ sig) → Buf (Elt F) ℓ) (ρ : Dev nD → PrngReg)

/-! ## The third region's entry -/

/-- The in-degree column after the first stretch. -/
theorem r2_W1_v3 (c : Dev nD) : W1 m ρ c (Proc.devRef .tc main_v3) = kDeg (m ((c : Thread nD τ).loc main_arg3)) :=
  r2_ops0_v3 (W0 m ρ c)

/-- The in-degree column at the second region's exit: no later stretch and no region writes it. -/
theorem r2_v3 (c : Dev nD) : W6 m ρ c (Proc.devRef .tc main_v3) = kDeg (m ((c : Thread nD τ).loc main_arg3)) :=
  (W6_first m ρ c main_v3 (by decide)).trans (r2_W1_v3 m ρ c)

/-- The second aggregation, of region 1's result. -/
theorem r2_W8_v42 (c : Dev nD) :
    W8 m ρ c (Proc.devRef .tc main_v42) = kAgg2 (W6 m ρ c (Proc.devRef .tc main_v25)) (m ((c : Thread nD τ).loc main_arg2)) (m ((c : Thread nD τ).loc main_arg3)) := by
  have h2 : W6 m ρ c (Proc.devRef .tc main_arg2) = (m ((c : Thread nD τ).loc main_arg2)) := W6_launch m ρ c main_arg2 (by decide) (by decide)
  have h3 : W6 m ρ c (Proc.devRef .tc main_arg3) = (m ((c : Thread nD τ).loc main_arg3)) := W6_launch m ρ c main_arg3 (by decide) (by decide)
  have hd : W6 m ρ c (Proc.devRef .tc main_v3) = kDeg (W6 m ρ c (Proc.devRef .tc main_arg3)) := by rw [h3]; exact r2_v3 m ρ c
  have e := r2_agg2_of (W6 m ρ c) hd
  rw [h2, h3] at e
  exact e

/-- The second layer's rectified, biased aggregation. -/
theorem r2_W10_v46 (c : Dev nD) :
    W10 m ρ c (Proc.devRef .tc main_v46) = kH2 (kAgg2 (W6 m ρ c (Proc.devRef .tc main_v25)) (m ((c : Thread nD τ).loc main_arg2)) (m ((c : Thread nD τ).loc main_arg3))) (m ((c : Thread nD τ).loc main_arg8)) := by
  have e45 := r2_ops2_2_v45 (W8 m ρ c)
  rw [r2_W8_v42 m ρ c, W8_launch m ρ c main_arg8 (by decide) (by decide)] at e45
  have e := r2_ops2_3_v46 (W9 m ρ c)
  rw [show W9 m ρ c (Proc.devRef .tc main_v45) = _ from e45] at e
  exact e

/-- Region 2's first input: the per-graph mean of the second layer. -/
theorem V11_v57 (c : Dev nD) :
    V11 m ρ c main_v57
      = kHg (kH2 (kAgg2 (W6 m ρ c (Proc.devRef .tc main_v25)) (m ((c : Thread nD τ).loc main_arg2)) (m ((c : Thread nD τ).loc main_arg3))) (m ((c : Thread nD τ).loc main_arg8))) (m ((c : Thread nD τ).loc main_arg4)) := by
  have e := r2_ops2_4_v57 (W10 m ρ c)
  rw [r2_W10_v46 m ρ c, W10_launch m ρ c main_arg4 (by decide) (by decide)] at e
  exact e

theorem V11_arg1 (c : Dev nD) : V11 m ρ c main_arg1 = (m ((c : Thread nD τ).loc main_arg1)) :=
  W11_launch m ρ c main_arg1 (by decide) (by decide)

theorem V11_arg9 (c : Dev nD) : V11 m ρ c main_arg9 = (m ((c : Thread nD τ).loc main_arg9)) :=
  W11_launch m ρ c main_arg9 (by decide) (by decide)

theorem V11_arg10 (c : Dev nD) : V11 m ρ c main_arg10 = (m ((c : Thread nD τ).loc main_arg10)) :=
  W11_launch m ρ c main_arg10 (by decide) (by decide)

theorem V11_arg12 (c : Dev nD) : V11 m ρ c main_arg12 = (m ((c : Thread nD τ).loc main_arg12)) :=
  W11_launch m ρ c main_arg12 (by decide) (by decide)

theorem V11_arg14 (c : Dev nD) : V11 m ρ c main_arg14 = (m ((c : Thread nD τ).loc main_arg14)) :=
  W11_launch m ρ c main_arg14 (by decide) (by decide)

theorem V11_v58 (c : Dev nD) :
    V11 m ρ c main_v58 = fun i => shapeCast S1x32 (m ((c : Thread nD τ).loc main_arg11)) shapeCasts_S32_S1x32 i := by
  have e := r2_ops2_4_v58 (W10 m ρ c)
  rw [W10_launch m ρ c main_arg11 (by decide) (by decide)] at e
  exact e

theorem V11_v59 (c : Dev nD) :
    V11 m ρ c main_v59 = fun i => shapeCast S1x8 (m ((c : Thread nD τ).loc main_arg13)) shapeCasts_S8_S1x8 i := by
  have e := r2_ops2_4_v59 (W10 m ρ c)
  rw [W10_launch m ρ c main_arg13 (by decide) (by decide)] at e
  exact e

theorem V11_v60 (c : Dev nD) :
    V11 m ρ c main_v60 = fun i => shapeCast S1x1 (m ((c : Thread nD τ).loc main_arg15)) shapeCasts_S1_S1x1 i := by
  have e := r2_ops2_4_v60 (W10 m ρ c)
  rw [W10_launch m ρ c main_arg15 (by decide) (by decide)] at e
  exact e

theorem V11_v61 (c : Dev nD) :
    V11 m ρ c main_v61 = fun i => shapeCast S1x32 (m ((c : Thread nD τ).loc main_arg16)) shapeCasts_S32_S1x32 i := by
  have e := r2_ops2_4_v61 (W10 m ρ c)
  rw [W10_launch m ρ c main_arg16 (by decide) (by decide)] at e
  exact e

theorem V11_v62 (c : Dev nD) :
    V11 m ρ c main_v62 = fun i => shapeCast S1x32 (m ((c : Thread nD τ).loc main_arg17)) shapeCasts_S32_S1x32 i := by
  have e := r2_ops2_4_v62 (W10 m ρ c)
  rw [W10_launch m ρ c main_arg17 (by decide) (by decide)] at e
  exact e

theorem V11_v63 (c : Dev nD) :
    V11 m ρ c main_v63 = fun i => shapeCast S1x8 (m ((c : Thread nD τ).loc main_arg18)) shapeCasts_S8_S1x8 i := by
  have e := r2_ops2_4_v63 (W10 m ρ c)
  rw [W10_launch m ρ c main_arg18 (by decide) (by decide)] at e
  exact e

theorem V11_v64 (c : Dev nD) :
    V11 m ρ c main_v64 = fun i => shapeCast S1x8 (m ((c : Thread nD τ).loc main_arg19)) shapeCasts_S8_S1x8 i := by
  have e := r2_ops2_4_v64 (W10 m ρ c)
  rw [W10_launch m ρ c main_arg19 (by decide) (by decide)] at e
  exact e

end Cert.Bridge.Back

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.Payload01.lean ====
/-
  The bodies of the first two kernels, read at an index, over the extended reals.

  Each body loads its whole blocks, computes one value and stores it over its whole output block, so what the body leaves
  in the output block is that value. On the extended reals rounding to a narrower format is the identity, and so is a
  reshape to the same shape.

  Region 0: a 5000×128 block of rows times the 128×100 matrix, accumulated into zero: entry (p, q) is
  Σ_c x0(p, c) · x1(c, q).

  Region 1: the 1×100 bias row is copied down the 5000 rows and added to the block, the sum is rectified against zero,
  and the result is multiplied by the 100×20 matrix: entry (p, q) is Σ_c max(x0(p, c) + x1(0, c), 0) · x2(c, q).
-/
import proofs.«143691_j84954453115059_2_alg».proof.Proof.Gen.KernelIdeal.Frame
import proofs.«143691_j84954453115059_2_alg».proof.Proof.LibPlainMatmul
import proofs.«143691_j84954453115059_2_alg».proof.Proof.LibRowLayout

noncomputable section

namespace Cert.Bridge.Payload

open Idealize.ShloMosaic Idealize.ShloMosaic.ValueIdx
open Cert.KernelIdeal

/-- The zero offsets of a whole-block access, as the constant function. -/
theorem offsets_zero : (![0, 0] : Fin 2 → Nat) = fun _ => 0 := funext fun a => by fin_cases a <;> rfl

/-! ## Region 0 -/

/-- The one stored value of region 0 at (p, q): the product's sum over the shared axis. -/
theorem k0_pay1_apply (x0 : Vec Ideal S5000x128 .f32) (x1 : Vec Ideal S128x100 .f32) (p : Fin 5000) (q : Fin 100) :
    Gen.k0_pay1 (F := Ideal) x0 x1 (ix2 p q) = ∑ c : Fin 128, x0 (ix2 p c) * x1 (ix2 c q) := by
  unfold Gen.k0_pay1
  refine (Cert.PointConv.plainMatmul_zero_apply (R := 5000) (n := 128) (k := 100) _ none _ _ p q).trans ?_
  refine Finset.sum_congr rfl fun c _ => ?_
  rw [shapeCast_self]
  rfl

/-- What region 0's body leaves in its output block is its one stored value, computed from the input blocks. -/
theorem out0_2_eq (x0 : Vec Ideal S5000x128 .f32) (x1 : Vec Ideal S128x100 .f32) :
    Gen.out0_2 (F := Ideal) x0 x1 = Gen.k0_pay1 (F := Ideal) x0 x1 := by
  unfold Gen.out0_2
  rw [View.canon_unit_zero offsets_zero, View.ld_unit_zero (S := S5000x128) offsets_zero,
    View.ld_unit_zero (S := S128x100) offsets_zero]

/-- Region 0's output block at (p, q). -/
theorem out0_2_apply (x0 : Vec Ideal S5000x128 .f32) (x1 : Vec Ideal S128x100 .f32) (p : Fin 5000) (q : Fin 100) :
    Gen.out0_2 (F := Ideal) x0 x1 (ix2 p q) = ∑ c : Fin 128, x0 (ix2 p c) * x1 (ix2 c q) := by
  rw [out0_2_eq]
  exact k0_pay1_apply x0 x1 p q

/-! ## Region 1 -/

/-- The one stored value of region 1 at (p, q): the rectified biased block times the matrix. -/
theorem k1_pay1_apply (x0 : Vec Ideal S5000x100 .f32) (x1 : Vec Ideal S1x100 .f32) (x2 : Vec Ideal S100x20 .f32)
    (p : Fin 5000) (q : Fin 20) :
    Gen.k1_pay1 (F := Ideal) x0 x1 x2 (ix2 p q)
      = ∑ c : Fin 100, max (x0 (ix2 p c) + x1 (ix2 0 c)) 0 * x2 (ix2 c q) := by
  unfold Gen.k1_pay1
  refine (Cert.PointConv.plainMatmul_zero_apply (R := 5000) (n := 100) (k := 20) _ none _ _ p q).trans ?_
  refine Finset.sum_congr rfl fun c _ => ?_
  rw [shapeCast_self, shapeCast_self, shapeCast_self]
  show max (x0 (ix2 p c) + broadcastTo S5000x100 x1 _ (ix2 p c)) (Ideal.ofBits .f32 0x00000000#32) * x2 (ix2 c q) = _
  rw [RowLayout.rowBroadcast_apply, Ideal.ofBits_zero_f32]

/-- What region 1's body leaves in its output block is its one stored value, computed from the input blocks. -/
theorem out1_3_eq (x0 : Vec Ideal S5000x100 .f32) (x1 : Vec Ideal S1x100 .f32) (x2 : Vec Ideal S100x20 .f32) :
    Gen.out1_3 (F := Ideal) x0 x1 x2 = Gen.k1_pay1 (F := Ideal) x0 x1 x2 := by
  unfold Gen.out1_3
  rw [View.canon_unit_zero offsets_zero, View.ld_unit_zero (S := S5000x100) offsets_zero,
    View.ld_unit_zero (S := S1x100) offsets_zero, View.ld_unit_zero (S := S100x20) offsets_zero]

/-- Region 1's output block at (p, q). -/
theorem out1_3_apply (x0 : Vec Ideal S5000x100 .f32) (x1 : Vec Ideal S1x100 .f32) (x2 : Vec Ideal S100x20 .f32)
    (p : Fin 5000) (q : Fin 20) :
    Gen.out1_3 (F := Ideal) x0 x1 x2 (ix2 p q)
      = ∑ c : Fin 100, max (x0 (ix2 p c) + x1 (ix2 0 c)) 0 * x2 (ix2 c q) := by
  rw [out1_3_eq]
  exact k1_pay1_apply x0 x1 x2 p q

end Cert.Bridge.Payload

end
-- ==== Proof.RegionZero.lean ====
/-
  The first region's result array.

  Twenty grid points each take a block of 5000 rows of the left array and the whole right array, and write back the
  block's rows contracted with the right array. A row of a block is a row of the array, so the block written at a point
  is that point's block of the whole product, and the twenty blocks tile the result array.
-/
import proofs.«143691_j84954453115059_2_alg».proof.Proof.Gen.KernelIdeal.Frame
import proofs.«143691_j84954453115059_2_alg».proof.Proof.KStages
import proofs.«143691_j84954453115059_2_alg».proof.Proof.Payload01
import Idealize.ShloMosaic.Lib.Pipeline.Value
import Idealize.ShloMosaic.Lib.ValueIdx

set_option maxRecDepth 16384

noncomputable section

namespace Cert.Bridge.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The first region's index maps over its twenty grid points: the row block of the left operand is the output's, the
    right operand and the column blocks stay at block 0. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block of the output is some grid point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What grid point `t` writes back is block `t` of the whole product: a row of the block is a row of the left
    array, contracted with the whole right array. -/
theorem flushed0_eq (c : Dev nD) (t : Fin cfg0.N) :
    (dat0 V c).flushed 2 t = ((cfg0.win 2).blk t).view.read (Elt Ideal) (reg0 (V c main_arg0) (V c main_v4)) := by
  show (cfg0.win 2).cut (grid0.coords t) ((dat0 V c).after 2 t) = _
  rw [after0_2]
  obtain ⟨e0, e1, e2, e3, e4, e5⟩ := idx_facts0 t
  funext j
  obtain ⟨p, q, rfl⟩ : ∃ (p : Fin 5000) (q : Fin 100), j = ix2 p q := ⟨j 0, j 1, eq_ix2 j⟩
  show out0_2 (iblk0 V c 0 t) (iblk0 V c 1 t) (ix2 p q)
    = reg0 (V c main_arg0) (V c main_v4) (((cfg0.win 2).blk t).view.emb (ix2 p q))
  refine (Cert.Bridge.Payload.out0_2_apply _ _ p q).trans ?_
  unfold reg0
  refine Finset.sum_congr rfl fun k _ => ?_
  have hA : iblk0 V c 0 t (ix2 p k)
      = V c main_arg0 (ix2 (n0 := 100000) ((((cfg0.win 2).blk t).view.emb (ix2 p q)) 0) k) := by
    show V c main_arg0 (((cfg0.win 0).blk t).view.emb (ix2 p k)) = _
    refine congrArg _ ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hB : iblk0 V c 1 t (ix2 k q)
      = V c main_v4 (ix2 (n1 := 100) k ((((cfg0.win 2).blk t).view.emb (ix2 p q)) 1)) := by
    show V c main_v4 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 100 + 1 * q.val = win0_2.index t (1 : Fin 2) * 100 + 1 * q.val; omega
  rw [hA, hB]

/-- An index of the output array is in point `t`'s block iff each coordinate is in the block's range. -/
theorem mem_blk0 (t : Fin cfg0.N) (i : S100000x100.Idx) :
    i ∈ ((cfg0.win 2).blk t).view.set ↔ ∀ a : Fin 2, win0_2.index t a * S5000x100.size a ≤ (i a).val ∧ (i a).val < win0_2.index t a * S5000x100.size a + S5000x100.size a := by
  show i ∈ ((View.whole main_v5).slice (win0_2.rect t)).set ↔ _
  rw [View.set_slice_whole, Rect.mem_set_unit]
  exact Iff.rfl

/-- The twenty row blocks tile the output array. -/
theorem cover0 (i : S100000x100.Idx) :
    ∃ t : Fin cfg0.N, (cfg0.win 2).flush t = true ∧ i ∈ ((cfg0.win 2).blk t).view.set := by
  have hi0 : (i 0).val < 100000 := (i 0).isLt
  have hi1 : (i 1).val < 100 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 100 ≤ (i 1).val ∧ (i 1).val < win0_2.index t (1 : Fin 2) * 100 + 100; omega

/-- After the first region its output array holds the whole product of the two arrays the region found. -/
theorem arr0 (c : Dev nD) : (dat0 V c).arrAt 2 cfg0.N = reg0 (V c main_arg0) (V c main_v4) :=
  (dat0 V c).arrAt_eq_of_cover 2 (reg0 (V c main_arg0) (V c main_v4)) (fun t _ => flushed0_eq V c t) (cover0)

end Cert.Bridge.Regions

end
-- ==== Proof.RegionOne.lean ====
/-
  The second region's result array.

  Twenty grid points each take a block of 5000 rows of the left array, the bias row and the whole right array, and write
  back the block's rows, after the bias and a maximum with zero, contracted with the right array. The block written at a
  point is that point's block of the whole array `max (x + b) 0 · w`, and the twenty blocks tile the result array.
-/
import proofs.«143691_j84954453115059_2_alg».proof.Proof.Gen.KernelIdeal.Frame
import proofs.«143691_j84954453115059_2_alg».proof.Proof.KStages
import proofs.«143691_j84954453115059_2_alg».proof.Proof.Payload01
import Idealize.ShloMosaic.Lib.Pipeline.Value
import Idealize.ShloMosaic.Lib.ValueIdx

set_option maxRecDepth 16384

noncomputable section

namespace Cert.Bridge.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The second region's index maps over its twenty grid points: the row block of the left operand is the output's,
    the bias row, the right operand and the column blocks stay at block 0. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every row block of the output is some grid point's. -/
theorem idx_onto1 : ∀ q0 : Fin 20, ∃ t : Fin cfg1.N, win1_3.index t = ![q0.val, 0] :=
  (by decide +kernel : ∀ q0 : Fin 20, ∃ t : Fin grid1.N, win1_3.index t = ![q0.val, 0])

/-- What grid point `t` writes back is block `t` of the whole array `max (x + b) 0 · w`. -/
theorem flushed1_eq (c : Dev nD) (t : Fin cfg1.N) :
    (dat1 V c).flushed 3 t
      = ((cfg1.win 3).blk t).view.read (Elt Ideal) (reg1 (V c main_v22) (V c main_v24) (V c main_v23)) := by
  show (cfg1.win 3).cut (grid1.coords t) ((dat1 V c).after 3 t) = _
  rw [after1_3]
  obtain ⟨e0, e1, e2, e3, e4, e5, e6, e7⟩ := idx_facts1 t
  funext j
  obtain ⟨p, q, rfl⟩ : ∃ (p : Fin 5000) (q : Fin 20), j = ix2 p q := ⟨j 0, j 1, eq_ix2 j⟩
  show out1_3 (iblk1 V c 0 t) (iblk1 V c 1 t) (iblk1 V c 2 t) (ix2 p q)
    = reg1 (V c main_v22) (V c main_v24) (V c main_v23) (((cfg1.win 3).blk t).view.emb (ix2 p q))
  refine (Cert.Bridge.Payload.out1_3_apply _ _ _ p q).trans ?_
  unfold reg1
  refine Finset.sum_congr rfl fun k _ => ?_
  have hA : iblk1 V c 0 t (ix2 p k)
      = V c main_v22 (ix2 (n0 := 100000) ((((cfg1.win 3).blk t).view.emb (ix2 p q)) 0) k) := by
    show V c main_v22 (((cfg1.win 0).blk t).view.emb (ix2 p k)) = _
    refine congrArg _ ?_
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 100 + 1 * k.val = k.val; omega
  have hb : iblk1 V c 1 t (ix2 0 k) = V c main_v24 (ix2 (0 : Fin 1) k) := by
    show V c main_v24 (((cfg1.win 1).blk t).view.emb (ix2 0 k)) = _
    refine congrArg _ ?_
    funext a; apply Fin.ext
    match a with
    | ⟨0, _⟩ => show win1_1.index t (0 : Fin 2) * 1 + 1 * 0 = 0; omega
    | ⟨1, _⟩ => show win1_1.index t (1 : Fin 2) * 100 + 1 * k.val = k.val; omega
  have hB : iblk1 V c 2 t (ix2 k q)
      = V c main_v23 (ix2 (n1 := 20) k ((((cfg1.win 3).blk t).view.emb (ix2 p q)) 1)) := by
    show V c main_v23 (((cfg1.win 2).blk t).view.emb (ix2 k q)) = _
    refine congrArg _ ?_
    funext a; apply Fin.ext
    match a with
    | ⟨0, _⟩ => show win1_2.index t (0 : Fin 2) * 100 + 1 * k.val = k.val; omega
    | ⟨1, _⟩ => show win1_2.index t (1 : Fin 2) * 20 + 1 * q.val = win1_3.index t (1 : Fin 2) * 20 + 1 * q.val; omega
  rw [hA, hb, hB]

/-- An index of the output array is in point `t`'s block iff each coordinate is in the block's range. -/
theorem mem_blk1 (t : Fin cfg1.N) (i : S100000x20.Idx) :
    i ∈ ((cfg1.win 3).blk t).view.set ↔ ∀ a : Fin 2, win1_3.index t a * S5000x20.size a ≤ (i a).val ∧ (i a).val < win1_3.index t a * S5000x20.size a + S5000x20.size a := by
  show i ∈ ((View.whole main_v25).slice (win1_3.rect t)).set ↔ _
  rw [View.set_slice_whole, Rect.mem_set_unit]
  exact Iff.rfl

/-- The twenty row blocks tile the output array. -/
theorem cover1 (i : S100000x20.Idx) :
    ∃ t : Fin cfg1.N, (cfg1.win 3).flush t = true ∧ i ∈ ((cfg1.win 3).blk t).view.set := by
  have hi0 : (i 0).val < 100000 := (i 0).isLt
  have hi1 : (i 1).val < 20 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 20 ≤ (i 1).val ∧ (i 1).val < win1_3.index t (1 : Fin 2) * 20 + 20; omega

/-- After the second region its output array holds `max (x + b) 0 · w` of the three arrays the region found. -/
theorem arr1 (c : Dev nD) :
    (dat1 V c).arrAt 3 cfg1.N = reg1 (V c main_v22) (V c main_v24) (V c main_v23) :=
  (dat1 V c).arrAt_eq_of_cover 3 (reg1 (V c main_v22) (V c main_v24) (V c main_v23)) (fun t _ => flushed1_eq V c t) (cover1)

end Cert.Bridge.Regions

end
-- ==== Proof.RegionTwo.lean ====
/-
  The third region's result array.

  The region has a single grid point and every operand's block is its whole array, so the block the point writes back
  is the region's body applied to the arrays as the region finds them, and that block is the whole result array.
-/
import proofs.«143691_j84954453115059_2_alg».proof.Proof.Gen.KernelIdeal.Frame

import Idealize.ShloMosaic.Lib.Pipeline.Value
import Idealize.ShloMosaic.Lib.ValueIdx

set_option maxRecDepth 16384

noncomputable section

namespace Cert.Bridge.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! The third region has one grid point, and every window's block index is zero on both axes: each block is its whole
    array. One statement per window. -/

theorem idx2_0 : ∀ t : Fin cfg2.N, win2_0.index t (0 : Fin 2) = 0 ∧ win2_0.index t (1 : Fin 2) = 0 :=
  (by decide +kernel : ∀ t : Fin grid2.N, _)

theorem blk2_0 (c : Dev nD) (t : Fin cfg2.N) :
    (iblk2 V c 0 t : Vec Ideal S256x20 .f32) = (V c main_v57 : Vec Ideal S256x20 .f32) := by
  obtain ⟨a0, a1⟩ := idx2_0 t
  funext y
  show V c main_v57 (((cfg2.win 0).blk t).view.emb y) = V c main_v57 y
  refine congrArg _ ?_
  funext a; apply Fin.ext
  match a with
  | ⟨0, _⟩ => show win2_0.index t (0 : Fin 2) * 256 + 1 * (y 0).val = (y 0).val; omega
  | ⟨1, _⟩ => show win2_0.index t (1 : Fin 2) * 20 + 1 * (y 1).val = (y 1).val; omega

theorem idx2_1 : ∀ t : Fin cfg2.N, win2_1.index t (0 : Fin 2) = 0 ∧ win2_1.index t (1 : Fin 2) = 0 :=
  (by decide +kernel : ∀ t : Fin grid2.N, _)

theorem blk2_1 (c : Dev nD) (t : Fin cfg2.N) :
    (iblk2 V c 1 t : Vec Ideal S256x64 .f32) = (V c main_arg1 : Vec Ideal S256x64 .f32) := by
  obtain ⟨a0, a1⟩ := idx2_1 t
  funext y
  show V c main_arg1 (((cfg2.win 1).blk t).view.emb y) = V c main_arg1 y
  refine congrArg _ ?_
  funext a; apply Fin.ext
  match a with
  | ⟨0, _⟩ => show win2_1.index t (0 : Fin 2) * 256 + 1 * (y 0).val = (y 0).val; omega
  | ⟨1, _⟩ => show win2_1.index t (1 : Fin 2) * 64 + 1 * (y 1).val = (y 1).val; omega

theorem idx2_2 : ∀ t : Fin cfg2.N, win2_2.index t (0 : Fin 2) = 0 ∧ win2_2.index t (1 : Fin 2) = 0 :=
  (by decide +kernel : ∀ t : Fin grid2.N, _)

theorem blk2_2 (c : Dev nD) (t : Fin cfg2.N) :
    (iblk2 V c 2 t : Vec Ideal S20x64 .f32) = (V c main_arg9 : Vec Ideal S20x64 .f32) := by
  obtain ⟨a0, a1⟩ := idx2_2 t
  funext y
  show V c main_arg9 (((cfg2.win 2).blk t).view.emb y) = V c main_arg9 y
  refine congrArg _ ?_
  funext a; apply Fin.ext
  match a with
  | ⟨0, _⟩ => show win2_2.index t (0 : Fin 2) * 20 + 1 * (y 0).val = (y 0).val; omega
  | ⟨1, _⟩ => show win2_2.index t (1 : Fin 2) * 64 + 1 * (y 1).val = (y 1).val; omega

theorem idx2_3 : ∀ t : Fin cfg2.N, win2_3.index t (0 : Fin 2) = 0 ∧ win2_3.index t (1 : Fin 2) = 0 :=
  (by decide +kernel : ∀ t : Fin grid2.N, _)

theorem blk2_3 (c : Dev nD) (t : Fin cfg2.N) :
    (iblk2 V c 3 t : Vec Ideal S32x64 .f32) = (V c main_arg10 : Vec Ideal S32x64 .f32) := by
  obtain ⟨a0, a1⟩ := idx2_3 t
  funext y
  show V c main_arg10 (((cfg2.win 3).blk t).view.emb y) = V c main_arg10 y
  refine congrArg _ ?_
  funext a; apply Fin.ext
  match a with
  | ⟨0, _⟩ => show win2_3.index t (0 : Fin 2) * 32 + 1 * (y 0).val = (y 0).val; omega
  | ⟨1, _⟩ => show win2_3.index t (1 : Fin 2) * 64 + 1 * (y 1).val = (y 1).val; omega

theorem idx2_4 : ∀ t : Fin cfg2.N, win2_4.index t (0 : Fin 2) = 0 ∧ win2_4.index t (1 : Fin 2) = 0 :=
  (by decide +kernel : ∀ t : Fin grid2.N, _)

theorem blk2_4 (c : Dev nD) (t : Fin cfg2.N) :
    (iblk2 V c 4 t : Vec Ideal S1x32 .f32) = (V c main_v58 : Vec Ideal S1x32 .f32) := by
  obtain ⟨a0, a1⟩ := idx2_4 t
  funext y
  show V c main_v58 (((cfg2.win 4).blk t).view.emb y) = V c main_v58 y
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 32 + 1 * (y 1).val = (y 1).val; omega

theorem idx2_5 : ∀ t : Fin cfg2.N, win2_5.index t (0 : Fin 2) = 0 ∧ win2_5.index t (1 : Fin 2) = 0 :=
  (by decide +kernel : ∀ t : Fin grid2.N, _)

theorem blk2_5 (c : Dev nD) (t : Fin cfg2.N) :
    (iblk2 V c 5 t : Vec Ideal S8x32 .f32) = (V c main_arg12 : Vec Ideal S8x32 .f32) := by
  obtain ⟨a0, a1⟩ := idx2_5 t
  funext y
  show V c main_arg12 (((cfg2.win 5).blk t).view.emb y) = V c main_arg12 y
  refine congrArg _ ?_
  funext a; apply Fin.ext
  match a with
  | ⟨0, _⟩ => show win2_5.index t (0 : Fin 2) * 8 + 1 * (y 0).val = (y 0).val; omega
  | ⟨1, _⟩ => show win2_5.index t (1 : Fin 2) * 32 + 1 * (y 1).val = (y 1).val; omega

theorem idx2_6 : ∀ t : Fin cfg2.N, win2_6.index t (0 : Fin 2) = 0 ∧ win2_6.index t (1 : Fin 2) = 0 :=
  (by decide +kernel : ∀ t : Fin grid2.N, _)

theorem blk2_6 (c : Dev nD) (t : Fin cfg2.N) :
    (iblk2 V c 6 t : Vec Ideal S1x8 .f32) = (V c main_v59 : Vec Ideal S1x8 .f32) := by
  obtain ⟨a0, a1⟩ := idx2_6 t
  funext y
  show V c main_v59 (((cfg2.win 6).blk t).view.emb y) = V c main_v59 y
  refine congrArg _ ?_
  funext a; apply Fin.ext
  match a with
  | ⟨0, _⟩ => show win2_6.index t (0 : Fin 2) * 1 + 1 * (y 0).val = (y 0).val; omega
  | ⟨1, _⟩ => show win2_6.index t (1 : Fin 2) * 8 + 1 * (y 1).val = (y 1).val; omega

theorem idx2_7 : ∀ t : Fin cfg2.N, win2_7.index t (0 : Fin 2) = 0 ∧ win2_7.index t (1 : Fin 2) = 0 :=
  (by decide +kernel : ∀ t : Fin grid2.N, _)

theorem blk2_7 (c : Dev nD) (t : Fin cfg2.N) :
    (iblk2 V c 7 t : Vec Ideal S1x8 .f32) = (V c main_arg14 : Vec Ideal S1x8 .f32) := by
  obtain ⟨a0, a1⟩ := idx2_7 t
  funext y
  show V c main_arg14 (((cfg2.win 7).blk t).view.emb y) = V c main_arg14 y
  refine congrArg _ ?_
  funext a; apply Fin.ext
  match a with
  | ⟨0, _⟩ => show win2_7.index t (0 : Fin 2) * 1 + 1 * (y 0).val = (y 0).val; omega
  | ⟨1, _⟩ => show win2_7.index t (1 : Fin 2) * 8 + 1 * (y 1).val = (y 1).val; omega

theorem idx2_8 : ∀ t : Fin cfg2.N, win2_8.index t (0 : Fin 2) = 0 ∧ win2_8.index t (1 : Fin 2) = 0 :=
  (by decide +kernel : ∀ t : Fin grid2.N, _)

theorem blk2_8 (c : Dev nD) (t : Fin cfg2.N) :
    (iblk2 V c 8 t : Vec Ideal S1x1 .f32) = (V c main_v60 : Vec Ideal S1x1 .f32) := by
  obtain ⟨a0, a1⟩ := idx2_8 t
  funext y
  show V c main_v60 (((cfg2.win 8).blk t).view.emb y) = V c main_v60 y
  refine congrArg _ ?_
  funext a; apply Fin.ext
  match a with
  | ⟨0, _⟩ => show win2_8.index t (0 : Fin 2) * 1 + 1 * (y 0).val = (y 0).val; omega
  | ⟨1, _⟩ => show win2_8.index t (1 : Fin 2) * 1 + 1 * (y 1).val = (y 1).val; omega

theorem idx2_9 : ∀ t : Fin cfg2.N, win2_9.index t (0 : Fin 2) = 0 ∧ win2_9.index t (1 : Fin 2) = 0 :=
  (by decide +kernel : ∀ t : Fin grid2.N, _)

theorem blk2_9 (c : Dev nD) (t : Fin cfg2.N) :
    (iblk2 V c 9 t : Vec Ideal S1x32 .f32) = (V c main_v61 : Vec Ideal S1x32 .f32) := by
  obtain ⟨a0, a1⟩ := idx2_9 t
  funext y
  show V c main_v61 (((cfg2.win 9).blk t).view.emb y) = V c main_v61 y
  refine congrArg _ ?_
  funext a; apply Fin.ext
  match a with
  | ⟨0, _⟩ => show win2_9.index t (0 : Fin 2) * 1 + 1 * (y 0).val = (y 0).val; omega
  | ⟨1, _⟩ => show win2_9.index t (1 : Fin 2) * 32 + 1 * (y 1).val = (y 1).val; omega

theorem idx2_10 : ∀ t : Fin cfg2.N, win2_10.index t (0 : Fin 2) = 0 ∧ win2_10.index t (1 : Fin 2) = 0 :=
  (by decide +kernel : ∀ t : Fin grid2.N, _)

theorem blk2_10 (c : Dev nD) (t : Fin cfg2.N) :
    (iblk2 V c 10 t : Vec Ideal S1x32 .f32) = (V c main_v62 : Vec Ideal S1x32 .f32) := by
  obtain ⟨a0, a1⟩ := idx2_10 t
  funext y
  show V c main_v62 (((cfg2.win 10).blk t).view.emb y) = V c main_v62 y
  refine congrArg _ ?_
  funext a; apply Fin.ext
  match a with
  | ⟨0, _⟩ => show win2_10.index t (0 : Fin 2) * 1 + 1 * (y 0).val = (y 0).val; omega
  | ⟨1, _⟩ => show win2_10.index t (1 : Fin 2) * 32 + 1 * (y 1).val = (y 1).val; omega

theorem idx2_11 : ∀ t : Fin cfg2.N, win2_11.index t (0 : Fin 2) = 0 ∧ win2_11.index t (1 : Fin 2) = 0 :=
  (by decide +kernel : ∀ t : Fin grid2.N, _)

theorem blk2_11 (c : Dev nD) (t : Fin cfg2.N) :
    (iblk2 V c 11 t : Vec Ideal S1x8 .f32) = (V c main_v63 : Vec Ideal S1x8 .f32) := by
  obtain ⟨a0, a1⟩ := idx2_11 t
  funext y
  show V c main_v63 (((cfg2.win 11).blk t).view.emb y) = V c main_v63 y
  refine congrArg _ ?_
  funext a; apply Fin.ext
  match a with
  | ⟨0, _⟩ => show win2_11.index t (0 : Fin 2) * 1 + 1 * (y 0).val = (y 0).val; omega
  | ⟨1, _⟩ => show win2_11.index t (1 : Fin 2) * 8 + 1 * (y 1).val = (y 1).val; omega

theorem idx2_12 : ∀ t : Fin cfg2.N, win2_12.index t (0 : Fin 2) = 0 ∧ win2_12.index t (1 : Fin 2) = 0 :=
  (by decide +kernel : ∀ t : Fin grid2.N, _)

theorem blk2_12 (c : Dev nD) (t : Fin cfg2.N) :
    (iblk2 V c 12 t : Vec Ideal S1x8 .f32) = (V c main_v64 : Vec Ideal S1x8 .f32) := by
  obtain ⟨a0, a1⟩ := idx2_12 t
  funext y
  show V c main_v64 (((cfg2.win 12).blk t).view.emb y) = V c main_v64 y
  refine congrArg _ ?_
  funext a; apply Fin.ext
  match a with
  | ⟨0, _⟩ => show win2_12.index t (0 : Fin 2) * 1 + 1 * (y 0).val = (y 0).val; omega
  | ⟨1, _⟩ => show win2_12.index t (1 : Fin 2) * 8 + 1 * (y 1).val = (y 1).val; omega

theorem idx2_13 : ∀ t : Fin cfg2.N, win2_13.index t (0 : Fin 2) = 0 ∧ win2_13.index t (1 : Fin 2) = 0 :=
  (by decide +kernel : ∀ t : Fin grid2.N, _)

/-- The third region's result as the region's body applied to the whole arrays it found. -/
abbrev tailOf (c : Dev nD) : Vec Ideal S256x1 .f32 :=
  out2_13 (F := Ideal) (V c main_v57) (V c main_arg1) (V c main_arg9) (V c main_arg10) (V c main_v58) (V c main_arg12) (V c main_v59) (V c main_arg14) (V c main_v60) (V c main_v61) (V c main_v62) (V c main_v63) (V c main_v64)

theorem emb2_13 (t : Fin cfg2.N) (j : S256x1.Idx) : ((cfg2.win 13).blk t).view.emb j = j := by
  obtain ⟨a0, a1⟩ := idx2_13 t
  funext a; apply Fin.ext
  match a with
  | ⟨0, _⟩ => show win2_13.index t (0 : Fin 2) * 256 + 1 * (j 0).val = (j 0).val; omega
  | ⟨1, _⟩ => show win2_13.index t (1 : Fin 2) * 1 + 1 * (j 1).val = (j 1).val; omega

/-- What the one grid point writes back is the body's result on the whole arrays. -/
theorem flushed2_eq (c : Dev nD) (t : Fin cfg2.N) :
    (dat2 V c).flushed 13 t = ((cfg2.win 13).blk t).view.read (Elt Ideal) (tailOf V c) := by
  show (cfg2.win 13).cut (grid2.coords t) ((dat2 V c).after 13 t) = _
  rw [after2_13]
  funext j
  show out2_13 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) j = tailOf V c (((cfg2.win 13).blk t).view.emb j)
  rw [emb2_13 t j, blk2_0 V c t, blk2_1 V c t, blk2_2 V c t, blk2_3 V c t, blk2_4 V c t, blk2_5 V c t, blk2_6 V c t, blk2_7 V c t, blk2_8 V c t, blk2_9 V c t, blk2_10 V c t, blk2_11 V c t, blk2_12 V c t]

/-- An index of the result array is in the one point's block iff each coordinate is in the block's range. -/
theorem mem_blk2 (t : Fin cfg2.N) (i : S256x1.Idx) :
    i ∈ ((cfg2.win 13).blk t).view.set ↔ ∀ a : Fin 2, win2_13.index t a * S256x1.size a ≤ (i a).val ∧ (i a).val < win2_13.index t a * S256x1.size a + S256x1.size a := by
  show i ∈ ((View.whole main_v65).slice (win2_13.rect t)).set ↔ _
  rw [View.set_slice_whole, Rect.mem_set_unit]
  exact Iff.rfl

/-- The one block is the whole result array. -/
theorem cover2 (i : S256x1.Idx) :
    ∃ t : Fin cfg2.N, (cfg2.win 13).flush t = true ∧ i ∈ ((cfg2.win 13).blk t).view.set := by
  have hi0 : (i 0).val < 256 := (i 0).isLt
  have hi1 : (i 1).val < 1 := (i 1).isLt
  have hN : 0 < cfg2.N := by decide
  refine ⟨⟨0, hN⟩, flush2_13 _, ?_⟩
  obtain ⟨a0, a1⟩ := idx2_13 ⟨0, hN⟩
  rw [mem_blk2]
  intro a
  match a with
  | ⟨0, _⟩ => show win2_13.index ⟨0, hN⟩ (0 : Fin 2) * 256 ≤ (i 0).val ∧ (i 0).val < win2_13.index ⟨0, hN⟩ (0 : Fin 2) * 256 + 256; omega
  | ⟨1, _⟩ => show win2_13.index ⟨0, hN⟩ (1 : Fin 2) * 1 ≤ (i 1).val ∧ (i 1).val < win2_13.index ⟨0, hN⟩ (1 : Fin 2) * 1 + 1; omega

/-- After the third region the result array holds the body's result on the whole arrays the region found. -/
theorem arr2 (c : Dev nD) : (dat2 V c).arrAt 13 cfg2.N = tailOf V c :=
  (dat2 V c).arrAt_eq_of_cover 13 (tailOf V c) (fun t _ => flushed2_eq V c t) (cover2)

end Cert.Bridge.Regions

end
-- ==== Proof.KernelValue.lean ====
/-
  The idealized kernel's result as one term of the arguments.

  The boundary fold gives the result buffer at what the third region's write-back leaves; that is the region's body on
  the arrays the region found (one grid point, whole arrays); those arrays are the host stretch before it applied to the
  second region's result, which is `max (x + b) 0 · w` of the arrays that region found, and so on back to the launch
  memory. Composed: the result is the third region's body applied to the per-graph mean of the second layer's rows and
  to the arguments, the two layers being a projection, a mean aggregation, and (between them) a bias and a maximum.
-/
import proofs.«143691_j84954453115059_2_alg».proof.Proof.KernelRun
import proofs.«143691_j84954453115059_2_alg».proof.Proof.KernelBack
import proofs.«143691_j84954453115059_2_alg».proof.Proof.KernelBack2
import proofs.«143691_j84954453115059_2_alg».proof.Proof.RegionZero
import proofs.«143691_j84954453115059_2_alg».proof.Proof.RegionOne
import proofs.«143691_j84954453115059_2_alg».proof.Proof.RegionTwo

set_option maxRecDepth 16384

noncomputable section

namespace Cert.Bridge.Value

open Cert.KernelIdeal Cert.Bridge
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first projection: every node's feature row contracted with the first weight matrix. -/
def z1 (c : Dev nD) : S100000x100.Idx → EReal := reg0 (m ((c : Thread nD τ).loc main_arg0)) (kW1T (m ((c : Thread nD τ).loc main_arg5)))

/-- The second projection, of the aggregated first layer after its bias and maximum with zero. -/
def z2 (c : Dev nD) : S100000x20.Idx → EReal :=
  reg1 (kAgg1 (z1 m c) (m ((c : Thread nD τ).loc main_arg2)) (m ((c : Thread nD τ).loc main_arg3))) (fun i => shapeCast S1x100 (m ((c : Thread nD τ).loc main_arg6)) Cert.KernelIdeal.Gen.shapeCasts_S100_S1x100 i) (kW2T (m ((c : Thread nD τ).loc main_arg7)))

/-- The per-graph mean of the second layer's rows. -/
def hg (c : Dev nD) : S256x20.Idx → EReal :=
  kHg (kH2 (kAgg2 (z2 m c) (m ((c : Thread nD τ).loc main_arg2)) (m ((c : Thread nD τ).loc main_arg3))) (m ((c : Thread nD τ).loc main_arg8))) (m ((c : Thread nD τ).loc main_arg4))

/-- After the first region its result buffer holds the first projection. -/
theorem after_region0 (c : Dev nD) : Cert.KernelIdeal.Gen.W2 m ρ c (Proc.devRef .tc main_v5) = z1 m c :=
  (Cert.KernelIdeal.Gen.W2_arr m ρ c 2).trans ((Regions.arr0 (Cert.KernelIdeal.Gen.V1 m ρ) c).trans (by rw [Back.V1_arg0, Back.V1_v4]; rfl))

/-- After the second region its result buffer holds the second projection. -/
theorem after_region1 (c : Dev nD) : Cert.KernelIdeal.Gen.W6 m ρ c (Proc.devRef .tc main_v25) = z2 m c :=
  (Cert.KernelIdeal.Gen.W6_arr m ρ c 3).trans ((Regions.arr1 (Cert.KernelIdeal.Gen.V5 m ρ) c).trans (by
    rw [Back.V5_v22, Back.V5_v24, Back.V5_v23, after_region0]; rfl))

set_option maxHeartbeats 2000000 in
/-- The result buffer's final contents: the third region's body on the per-graph mean and the arguments. -/
theorem result (c : Dev nD) :
    Cert.KernelIdeal.Gen.W12 m ρ c (Proc.devRef .tc main_v65)
      = Cert.KernelIdeal.Gen.out2_13 (F := Ideal) (hg m c) (m ((c : Thread nD τ).loc main_arg1)) (m ((c : Thread nD τ).loc main_arg9)) (m ((c : Thread nD τ).loc main_arg10))
          (fun i => shapeCast S1x32 (m ((c : Thread nD τ).loc main_arg11)) Cert.KernelIdeal.Gen.shapeCasts_S32_S1x32 i) (m ((c : Thread nD τ).loc main_arg12))
          (fun i => shapeCast S1x8 (m ((c : Thread nD τ).loc main_arg13)) Cert.KernelIdeal.Gen.shapeCasts_S8_S1x8 i) (m ((c : Thread nD τ).loc main_arg14))
          (fun i => shapeCast S1x1 (m ((c : Thread nD τ).loc main_arg15)) Cert.KernelIdeal.Gen.shapeCasts_S1_S1x1 i)
          (fun i => shapeCast S1x32 (m ((c : Thread nD τ).loc main_arg16)) Cert.KernelIdeal.Gen.shapeCasts_S32_S1x32 i)
          (fun i => shapeCast S1x32 (m ((c : Thread nD τ).loc main_arg17)) Cert.KernelIdeal.Gen.shapeCasts_S32_S1x32 i)
          (fun i => shapeCast S1x8 (m ((c : Thread nD τ).loc main_arg18)) Cert.KernelIdeal.Gen.shapeCasts_S8_S1x8 i)
          (fun i => shapeCast S1x8 (m ((c : Thread nD τ).loc main_arg19)) Cert.KernelIdeal.Gen.shapeCasts_S8_S1x8 i) :=
  (Cert.KernelIdeal.Gen.W12_arr m ρ c 13).trans ((Regions.arr2 (Cert.KernelIdeal.Gen.V11 m ρ) c).trans (by
    unfold Regions.tailOf
    rw [Back.V11_v57, Back.V11_arg1, Back.V11_arg9, Back.V11_arg10, Back.V11_v58, Back.V11_arg12, Back.V11_v59,
      Back.V11_arg14, Back.V11_v60, Back.V11_v61, Back.V11_v62, Back.V11_v63, Back.V11_v64, after_region1]
    rfl))

end Cert.Bridge.Value

end
-- ==== Proof.LibRealEntries.lean ====
/-
  Real entries. An extended real is REAL when it is neither infinity (`IsReal v : ∃ r : ℝ, v = r`). The exact
  operations on the extended reals keep real entries real: sums, differences, products, maxima and minima; a finite
  sum; the exact quotient by a nonzero real; the square root of a nonnegative real and the reciprocal square root of
  a positive real; a contraction (a matrix product onto a real accumulator); a sum along axes from a real initial
  value; and an accumulating scatter (each entry of the operand plus the sum of the update entries that land on it,
  whatever the indices are). With these a chain of linear layers, rectifications, segment sums and normalisations of
  finite inputs has real entries throughout — which is what distributivity and cancellation on the extended reals
  need.
-/
import Idealize.ShloMosaic.PureOps.Ideal

noncomputable section

namespace Cert.LibRealEntries

open Idealize.ShloMosaic

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {v : EReal} (h : IsReal v) : v ≠ ⊤ := by obtain ⟨r, rfl⟩ := h; exact EReal.coe_ne_top r
theorem IsReal.ne_bot {v : EReal} (h : IsReal v) : v ≠ ⊥ := by obtain ⟨r, rfl⟩ := h; exact EReal.coe_ne_bot r

/-- Real exactly when neither infinity. -/
theorem isReal_iff (v : EReal) : IsReal v ↔ v ≠ ⊤ ∧ v ≠ ⊥ :=
  ⟨fun h => ⟨h.ne_top, h.ne_bot⟩, fun h => ⟨v.toReal, (EReal.coe_toReal h.1 h.2).symm⟩⟩

/-- A real entry is the coercion of its own real part. -/
theorem IsReal.eq_coe_toReal {v : EReal} (h : IsReal v) : v = ((v.toReal : ℝ) : EReal) := by
  obtain ⟨r, rfl⟩ := h; rw [EReal.toReal_coe]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.max {a b : EReal} (ha : IsReal a) (hb : IsReal b) : IsReal (max a b) := by
  rcases max_cases a b with h | h <;> rw [h.1] <;> assumption
theorem IsReal.min {a b : EReal} (ha : IsReal a) (hb : IsReal b) : IsReal (min a b) := by
  rcases min_cases a b with h | h <;> rw [h.1] <;> assumption

/-- A finite sum of real entries is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real entry by a nonzero real is real. -/
theorem IsReal.div_coe {a : EReal} (ha : IsReal a) {n : ℝ} (hn : n ≠ 0) : IsReal (Ideal.div a (n : EReal)) := by
  rw [Ideal.div_coe hn]; exact ha.mul (isReal_coe _)

/-- The square root of a nonnegative real is real. -/
theorem isReal_sqrt {r : ℝ} (hr : 0 ≤ r) : IsReal (Ideal.sqrt (r : EReal)) := by
  rw [Ideal.sqrt_coe, if_neg (not_lt.mpr hr)]; exact isReal_coe _

/-- The reciprocal square root of a positive real is real. -/
theorem isReal_rsqrt {r : ℝ} (hr : 0 < r) : IsReal (Ideal.rsqrt (r : EReal)) := by
  rw [Ideal.rsqrt_coe, if_neg (not_lt.mpr hr.le), if_neg hr.ne']; exact isReal_coe _

/-- A contraction of real operands onto a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  (ha j).add (isReal_sum _ _ fun k _ => (hl _).mul (hr _))

/-- A host sum along axes of real entries from a real initial value has real entries. -/
theorem isReal_hostReduceAdd {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) :=
  hi.add (isReal_sum _ _ fun i _ => hx i)

/-- A lane sum along axes of real entries has real entries. -/
theorem isReal_reduceAdd {s : Shape} {axes : List (Fin s.rank)} {t : Shape} (h : s.Reduces axes t) (x : s.Idx → EReal)
    (hx : ∀ i, IsReal (x i)) (j : t.Idx) : IsReal (Ideal.reduceAdd h x j) :=
  isReal_sum _ _ fun i _ => hx i

/-- An accumulating scatter of real updates into a real operand has real entries, whatever the indices. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

end Cert.LibRealEntries

end
-- ==== Proof.FiniteArgs.lean ====
/-
  Finiteness of the arguments. The precondition takes, for each float argument, the test |x| < +∞ at every entry,
  reduces it by "and" over the whole array, and takes the "and" of the seventeen results; it says the outcome is 1.
  An "and" that is 1 had both its operands 1; a reduction by "and" over all axes that is 1 met a 1 at every entry; and an
  extended real x with max(x, −x) < +∞ is neither infinity, that is, a real number. So every entry of every float
  argument is real.
-/
import proofs.«143691_j84954453115059_2_alg».proof.Pre_finite_inputs
import proofs.«143691_j84954453115059_2_alg».proof.Proof.LibRealEntries
import Idealize.ShloMosaic.Lib.ReduceAll
import Idealize.ShloMosaic.Lib.ValueIdx

noncomputable section

namespace Cert.Bridge.Finite

open Idealize.ShloMosaic Idealize.ShloMosaic.ValueIdx
open Cert.LibRealEntries
open Cert.Pre_finite_inputs

/-- A rank-0 array has one index. -/
instance : Subsingleton (⟨0, ![]⟩ : Shape).Idx := ⟨fun a b => funext fun d => d.elim0⟩

/-- An extended real whose absolute value max(x, −x) is below +∞ is a real number. -/
theorem real_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- An array whose test "|x| < +∞ at every entry", reduced by "and" over all its axes from 1, is 1 has real entries. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf a) (broadcastInDim s ![] hb (constant (F := Ideal) ⟨0, ![]⟩ .f32 0x7F800000#32)))
        (constantI ⟨0, ![]⟩ 1 1#1) hr hu ix0 = 1#1) (i : s.Idx) : IsReal (a i) :=
  real_of_abs_lt_inf (a i) (Host.reduce_andi_all _ _ hr hu ix0 h i)

variable [Cert.Pre_finite_inputs.Facts]

/-- The precondition decoded: every entry of each of the seventeen float arguments is a real number. -/
theorem real_of_pre (a0 : FVec Ideal S100000x128 .f32) (a1 : FVec Ideal S256x64 .f32) (a2 : IVec S1600000 32) (a3 : IVec S1600000 32) (a4 : IVec S100000 32) (a5 : FVec Ideal S100x128 .f32) (a6 : FVec Ideal S100 .f32) (a7 : FVec Ideal S20x100 .f32) (a8 : FVec Ideal S20 .f32) (a9 : FVec Ideal S20x64 .f32) (a10 : FVec Ideal S32x64 .f32) (a11 : FVec Ideal S32 .f32) (a12 : FVec Ideal S8x32 .f32) (a13 : FVec Ideal S8 .f32) (a14 : FVec Ideal S1x8 .f32) (a15 : FVec Ideal S1 .f32) (a16 : FVec Ideal S32 .f32) (a17 : FVec Ideal S32 .f32) (a18 : FVec Ideal S8 .f32) (a19 : FVec Ideal S8 .f32)
    (h : Cert.Pre_finite_inputs.fn (F := Ideal) a0 a1 a2 a3 a4 a5 a6 a7 a8 a9 a10 a11 a12 a13 a14 a15 a16 a17 a18 a19 = fun _ => 1#1) :
    (∀ i, IsReal (a0 i)) ∧ (∀ i, IsReal (a1 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) := by
  have e := congrFun h ix0
  simp only [fn, fn_part1, fn_part2, fn_part3, fn_part4, andi, IntOp.andi_eq_one] at e
  obtain ⟨⟨⟨⟨⟨⟨⟨⟨⟨⟨⟨⟨⟨⟨⟨⟨h0, h1⟩, h5⟩, h6⟩, h7⟩, h8⟩, h9⟩, h10⟩, h11⟩, h12⟩, h13⟩, h14⟩, h15⟩, h16⟩, h17⟩, h18⟩, h19⟩ := e
  exact ⟨fun i => real_of_all a0 _ _ _ h0 i,
    fun i => real_of_all a1 _ _ _ h1 i,
    fun i => real_of_all a5 _ _ _ h5 i,
    fun i => real_of_all a6 _ _ _ h6 i,
    fun i => real_of_all a7 _ _ _ h7 i,
    fun i => real_of_all a8 _ _ _ h8 i,
    fun i => real_of_all a9 _ _ _ h9 i,
    fun i => real_of_all a10 _ _ _ h10 i,
    fun i => real_of_all a11 _ _ _ h11 i,
    fun i => real_of_all a12 _ _ _ h12 i,
    fun i => real_of_all a13 _ _ _ h13 i,
    fun i => real_of_all a14 _ _ _ h14 i,
    fun i => real_of_all a15 _ _ _ h15 i,
    fun i => real_of_all a16 _ _ _ h16 i,
    fun i => real_of_all a17 _ _ _ h17 i,
    fun i => real_of_all a18 _ _ _ h18 i,
    fun i => real_of_all a19 _ _ _ h19 i⟩

end Cert.Bridge.Finite

end
-- ==== Proof.FiniteArgsAt.lean ====
/-
  Finiteness of the arguments, at a memory. When the precondition holds of the memory a program is launched from, every
  entry of each of the seventeen float arguments it holds, on every device, is a real number: the precondition is the
  finiteness test of those arrays, and the test decoded says so.
-/
import proofs.«143691_j84954453115059_2_alg».proof.Defs
import proofs.«143691_j84954453115059_2_alg».proof.Proof.FiniteArgs

noncomputable section

namespace Cert.Bridge.Finite

open Idealize.ShloMosaic Idealize.SL.Sem
open Cert.LibRealEntries

variable [Cert.Pre_finite_inputs.Facts]

/-- Under the precondition every entry of every float argument array, on every device, is a real number. -/
theorem real_of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg1)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i))
      ∧ (∀ i, IsReal ((m ((c.tc : Thread Cert.KernelIdeal.nD Cert.KernelIdeal.τ).loc Cert.KernelIdeal.main_arg13)) i))
      ∧ (∀ i, IsReal ((m ((c.tc : Thread Cert.KernelIdeal.nD Cert.KernelIdeal.τ).loc Cert.KernelIdeal.main_arg14)) i))
      ∧ (∀ i, IsReal ((m ((c.tc : Thread Cert.KernelIdeal.nD Cert.KernelIdeal.τ).loc Cert.KernelIdeal.main_arg15)) i))
      ∧ (∀ i, IsReal ((m ((c.tc : Thread Cert.KernelIdeal.nD Cert.KernelIdeal.τ).loc Cert.KernelIdeal.main_arg16)) i))
      ∧ (∀ i, IsReal ((m ((c.tc : Thread Cert.KernelIdeal.nD Cert.KernelIdeal.τ).loc Cert.KernelIdeal.main_arg17)) i))
      ∧ (∀ i, IsReal ((m ((c.tc : Thread Cert.KernelIdeal.nD Cert.KernelIdeal.τ).loc Cert.KernelIdeal.main_arg18)) i))
      ∧ (∀ i, IsReal ((m ((c.tc : Thread Cert.KernelIdeal.nD Cert.KernelIdeal.τ).loc Cert.KernelIdeal.main_arg19)) i)) :=
  real_of_pre _ _ _ _ _ _ _ _ _ _ _ _ _ _ _ _ _ _ _ _ (h c)

end Cert.Bridge.Finite

end
-- ==== Proof.LibSegmentRows.lean ====
/-
  Rows gathered and rows scatter-added, read at an entry; and the law that a linear map applied to every row commutes
  with a weighted segment sum of rows.

  A graph layer aggregates over edges: for every edge e it takes row src(e) of a node table x : [N, C]
  (stablehlo.gather with offset_dims [1], collapsed_slice_dims [0], start_index_map [0], index_vector_dim 1 and slice
  sizes [1, C], the start indices an [E, 1] integer array), scales the row by the edge's weight, and adds it into row
  tgt(e) of a zero [N, C] table (stablehlo.scatter with an add body, update_window_dims [1], inserted_window_dims [0],
  scatter_dims_to_operand_dims [0], index_vector_dim 1, the scatter indices again an [E, 1] integer array).

  Read at the extended reals:
    * the gathered array at (e, c) is x at (row e, c), where row e is the start index of edge e read as a signed
      integer and clamped into [0, N − 1]: it depends neither on the column c nor on the width C;
    * the scatter-add at (n, c) is the operand's entry plus the sum over the edges e whose scatter index, read as a
      signed integer, IS n, of the update's entry (e, c); an edge whose index is negative or ≥ N is equal to no n and
      contributes nowhere. Again the condition depends neither on c nor on C.
  Hence a linear map of the rows (y ↦ y · Wᵀ) may be applied before the gather or after the scatter-add, as long as
  every entry involved is a REAL number: the two sides are the two ways of bracketing
      Σ_{e : tgt e = n} Σ_k x(row e, k) · w(e) · W(o, k),
  equal by distributivity over the reals. Over arbitrary extended reals distributivity fails (∞ − ∞), so realness
  of the entries is a hypothesis.
-/
import Idealize.ShloMosaic.Lib.ValueIdx
import Idealize.ShloMosaic.PureOps.Ideal.Laws

noncomputable section

open scoped BigOperators

namespace Idealize.ShloMosaic.SegmentRows

open Idealize.ShloMosaic Idealize.ShloMosaic.ValueIdx

/-- Of the two axes of a matrix, the one that is not axis 0 is axis 1. -/
theorem kept_zero {N C : Nat} : (⟨2, ![N, C]⟩ : Shape).kept [0] = [1] := rfl
/-- The same with an empty list of further axes appended. -/
theorem kept_zero_nil {N C : Nat} : (⟨2, ![N, C]⟩ : Shape).kept ([0] ++ []) = [1] := rfl

/-! ## The row gather read at an entry -/

section Gather
variable {α : Type}

/-- The dimension numbers of "take rows": operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge e reads: its start index as a signed integer, clamped into [0, N − 1]. -/
def rowOf {N E w : Nat} (hN : 0 < N) (idx : IVec ⟨2, ![E, 1]⟩ w) (e : Fin E) : Fin N :=
  ⟨min (idx (ix2 e 0)).toInt.toNat (N - 1), by omega⟩

variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (c : Fin C)

/-- On the row axis the operand index is the clamped start index … -/
theorem operandIdx_row :
    ((rowGatherDims N E C wf).operandIdx (ix2 e c) idx 0).val = min (idx (ix2 e 0)).toInt.toNat (N - 1) := by
  show (rowGatherDims N E C wf).start (ix2 e c) idx 0 + (rowGatherDims N E C wf).batchCoord (ix2 e c) 0
      + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and on the column axis it is the result's column. -/
theorem operandIdx_col :
    ((rowGatherDims N E C wf).operandIdx (ix2 e c) idx 1).val = c.val := by
  show (rowGatherDims N E C wf).start (ix2 e c) idx 1 + (rowGatherDims N E C wf).batchCoord (ix2 e c) 1
      + (rowGatherDims N E C wf).offCoord (ix2 e c) 1 = _
  rw [GatherDims.batchCoord_eq_zero _ _ _ List.not_mem_nil]
  unfold GatherDims.start
  rw [dif_neg (by decide : ¬ (1 : Fin 2) ∈ ([0] : List (Fin 2)))]
  unfold GatherDims.offCoord
  rw [dif_pos (by rw [GatherDims.sKept, kept_zero_nil]; exact List.mem_singleton.mpr rfl)]
  simp only [Nat.zero_add]
  rfl

/-- THE ROW GATHER AT (e, c): the operand at (row e, c). -/
theorem gather_rows_apply (hN : 0 < N) (x : (⟨2, ![N, C]⟩ : Shape).Idx → α) :
    Host.gather (rowGatherDims N E C wf) x idx (ix2 e c) = x (ix2 (rowOf hN idx e) c) := by
  unfold Host.gather
  congr 1
  funext a
  refine Fin.ext ?_
  match a with
  | ⟨0, _⟩ => exact operandIdx_row wf idx e c
  | ⟨1, _⟩ => exact operandIdx_col wf idx e c

end Gather

/-! ## The row scatter-add read at an entry -/

section Scatter

/-- The dimension numbers of "add rows into rows": operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update (e, c) starts, on the row axis, at edge e's scatter index read signed … -/
theorem start_row : (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis; -/
theorem start_col : (rowScatterDims N E C wf).start (ix2 e c) idx 1 = 0 := by
  unfold ScatterDims.start
  rw [dif_neg (by decide : ¬ (1 : Fin 2) ∈ ([0] : List (Fin 2)))]

/-- its window coordinate is 0 on the row axis (an inserted axis) … -/
theorem window_row : (rowScatterDims N E C wf).window (ix2 e c) 0 = 0 := by
  unfold ScatterDims.window
  rw [dif_neg (by rw [ScatterDims.sKept, kept_zero]; exact fun h => absurd (List.mem_singleton.mp h) (by decide : (0 : Fin 2) ≠ 1))]

/-- … and the update's column on the column axis. -/
theorem window_col : (rowScatterDims N E C wf).window (ix2 e c) 1 = c.val := by
  unfold ScatterDims.window
  rw [dif_pos (by rw [ScatterDims.sKept, kept_zero]; exact List.mem_singleton.mpr rfl)]
  rfl

/-- WHERE UPDATE (e, c) LANDS: at (n, c') exactly when edge e's scatter index, read signed, is n, and c' = c. An index
    that is negative or at least N is no n: that update is dropped. -/
theorem resultIdx?_eq_some_iff (n : Fin N) (c' : Fin C) :
    (rowScatterDims N E C wf).resultIdx? (ix2 e c) idx = some (ix2 n c')
      ↔ (idx (ix2 e 0)).toInt = (n.val : Int) ∧ c = c' := by
  unfold ScatterDims.resultIdx?
  constructor
  · intro h
    split at h
    · rename_i hr
      have hf := Option.some.inj h
      have h0 := congrArg (fun f => (f 0).val) hf
      have h1 := congrArg (fun f => (f 1).val) hf
      simp only [start_row, start_col, window_row, window_col] at h0 h1
      have hr0 := hr 0
      rw [start_row, window_row] at hr0
      refine ⟨?_, Fin.ext ?_⟩
      · have : ((ix2 n c' : (⟨2, ![N, C]⟩ : Shape).Idx) 0).val = n.val := rfl
        omega
      · have : ((ix2 n c' : (⟨2, ![N, C]⟩ : Shape).Idx) 1).val = c'.val := rfl
        omega
    · exact absurd h (by simp)
  · rintro ⟨ht, rfl⟩
    have hr : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        show 0 ≤ (rowScatterDims N E C wf).start (ix2 e c) idx 0 + (rowScatterDims N E C wf).window (ix2 e c) 0
          ∧ (rowScatterDims N E C wf).start (ix2 e c) idx 0 + (rowScatterDims N E C wf).window (ix2 e c) 0 < (N : Int)
        rw [start_row, window_row, ht]
        have := n.isLt
        omega
      | ⟨1, _⟩ =>
        show 0 ≤ (rowScatterDims N E C wf).start (ix2 e c) idx 1 + (rowScatterDims N E C wf).window (ix2 e c) 1
          ∧ (rowScatterDims N E C wf).start (ix2 e c) idx 1 + (rowScatterDims N E C wf).window (ix2 e c) 1 < (C : Int)
        rw [start_col, window_col]
        have := c.isLt
        omega
    rw [dif_pos hr]
    congr 1
    funext a
    refine Fin.ext ?_
    match a with
    | ⟨0, _⟩ =>
      show ((rowScatterDims N E C wf).start (ix2 e c) idx 0 + (rowScatterDims N E C wf).window (ix2 e c) 0).toNat = n.val
      rw [start_row, window_row, ht]; simp
    | ⟨1, _⟩ =>
      show ((rowScatterDims N E C wf).start (ix2 e c) idx 1 + (rowScatterDims N E C wf).window (ix2 e c) 1).toNat = c.val
      rw [start_col, window_col]; simp

/-- THE ROW SCATTER-ADD AT (n, c): the operand's entry plus the update's entries (e, c) over the edges e whose scatter
    index is n. -/
theorem hostScatterAdd_rows_apply (x : (⟨2, ![N, C]⟩ : Shape).Idx → EReal) (upd : (⟨2, ![E, C]⟩ : Shape).Idx → EReal)
    (n : Fin N) :
    Ideal.hostScatterAdd (rowScatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx?_eq_some_iff]
  by_cases ht : (idx (ix2 e 0)).toInt = (n.val : Int)
  · simp only [ht, true_and, if_true]
    rw [Finset.sum_ite_eq' Finset.univ c (fun c'' => upd (ix2 e c''))]
    simp
  · simp [ht]

end Scatter

/-! ## A linear map commutes with a weighted segment sum, over real entries -/

section Algebra

open Finset

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a choice between a real and zero. -/
theorem ite_coe (P : Prop) [Decidable P] (r : ℝ) :
    (if P then ((r : ℝ) : EReal) else 0) = (((if P then r else 0) : ℝ) : EReal) := by
  split <;> simp

/-- Over the reals: contracting the segment sum of the weighted rows a(e, ·) · v(e) with W equals the segment sum of the
    weighted contractions (Σ_k a(e, k) · W(k)) · v(e): each side is Σ_{e : P e} Σ_k a(e, k) · v(e) · W(k). -/
theorem segment_commute_real {ι κ : Type*} [Fintype ι] [Fintype κ] (P : ι → Prop) [DecidablePred P]
    (a : ι → κ → ℝ) (v : ι → ℝ) (W : κ → ℝ) :
    ∑ k, (∑ e, if P e then a e k * v e else 0) * W k = ∑ e, if P e then (∑ k, a e k * W k) * v e else 0 := by
  have hl : ∀ k, (∑ e, if P e then a e k * v e else 0) * W k = ∑ e, if P e then a e k * W k * v e else 0 := by
    intro k
    rw [Finset.sum_mul]
    refine Finset.sum_congr rfl fun e _ => ?_
    split
    · ring
    · simp
  rw [Finset.sum_congr rfl fun k _ => hl k, Finset.sum_comm]
  refine Finset.sum_congr rfl fun e _ => ?_
  split
  · rw [Finset.sum_mul]
  · simp

/-- The same over the extended reals, for families whose entries are all real numbers; the segment sums start from
    the zero a scatter-add's zero operand contributes. -/
theorem segment_commute_ereal {ι κ : Type*} [Fintype ι] [Fintype κ] (P : ι → Prop) [DecidablePred P]
    (a : ι → κ → EReal) (v : ι → EReal) (W : κ → EReal)
    (ha : ∀ e k, ∃ r : ℝ, a e k = (r : EReal)) (hv : ∀ e, ∃ r : ℝ, v e = (r : EReal))
    (hW : ∀ k, ∃ r : ℝ, W k = (r : EReal)) :
    ∑ k, (0 + ∑ e, if P e then a e k * v e else 0) * W k
      = 0 + ∑ e, if P e then (∑ k, a e k * W k) * v e else 0 := by
  choose A hA using ha
  choose V hV using hv
  choose W' hW' using hW
  have ea : a = fun e k => ((A e k : ℝ) : EReal) := funext fun e => funext fun k => hA e k
  have ev : v = fun e => ((V e : ℝ) : EReal) := funext fun e => hV e
  have ew : W = fun k => ((W' k : ℝ) : EReal) := funext fun k => hW' k
  subst ea ev ew
  simp only [zero_add, ← EReal.coe_mul, ite_coe, ← coe_finset_sum]
  exact congrArg _ (segment_commute_real P A V W')

end Algebra

end Idealize.ShloMosaic.SegmentRows

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibRealHostOps.lean ====
/-
  Real entries through the host's operations, in the spelling of printed host programs.

  Every entry of a concatenation is an entry of one of its pieces, so a property of all the pieces' entries holds of
  the whole; a gather copies entries and an accumulating scatter adds finitely many, so both keep real entries
  real, whatever the indices; the guarded inverse square root `select (a > 0) (rsqrt a) z` of a real `a` is real
  when `z` is; the words of zero and one denote reals; and a finite sum of nonnegative reals is a nonnegative real.
  The statements about operations hold for arrays of any shape and any indices.
-/
import Idealize.ShloMosaic.PureOps.Ideal
import Idealize.ShloMosaic.PureOps.Ideal.Laws
import proofs.«143691_j84954453115059_2_alg».proof.Proof.LibRealEntries

noncomputable section

namespace Cert.LibRealHostOps

open Cert.LibRealEntries Idealize.ShloMosaic

/-- The pattern of `1.0` denotes the real one. -/
theorem ofBits_one_f32 : Ideal.ofBits .f32 0x3F800000#32 = ((1 : ℝ) : EReal) := by
  simp [Ideal.ofBits, Ideal.ieee, -EReal.coe_mul]; norm_num

/-- Every entry of a concatenation is an entry of one of the pieces. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

theorem real_zero_word : IsReal (Ideal.ofBits .f32 0x00000000#32) := by
  rw [Ideal.ofBits_zero_f32]; exact isReal_zero
theorem real_one_word : IsReal (Ideal.ofBits .f32 0x3F800000#32) := by
  rw [ofBits_one_f32]; exact isReal_coe _

/-- The inverse square root of a real where it is positive, a real elsewhere: real. -/
theorem real_guarded_rsqrt {a z : EReal} (ha : IsReal a) (hz : IsReal z) :
    IsReal (Scalar.select (Ideal.cmp .ogt a (Ideal.ofBits .f32 0x00000000#32)) (Ideal.rsqrt a) z) := by
  obtain ⟨r, rfl⟩ := ha
  rw [Ideal.ofBits_zero_f32]
  by_cases h : (0 : EReal) < (r : EReal)
  · have hc : Ideal.cmp .ogt (r : EReal) 0 = 1#1 := by simp [Ideal.cmp, h]
    rw [hc]
    exact isReal_rsqrt (by exact_mod_cast h)
  · have hc : Ideal.cmp .ogt (r : EReal) 0 = 0#1 := by simp [Ideal.cmp, h]
    rw [hc]
    exact hz

/-- The same in the spelling of the printed host operations. -/
theorem real_guarded_rsqrt_host {a z : Ideal .f32} (ha : IsReal a) (hz : IsReal z) :
    IsReal (Scalar.select (FloatOps.cmpf .ogt a (FloatOps.ofBits (F := Ideal) .f32 0x00000000#32))
      (FloatOps.hostUnary .rsqrt a) z) :=
  real_guarded_rsqrt ha hz

/-- A host accumulating scatter of real updates into a real operand has real entries. -/
theorem isReal_scatterAdd {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) :=
  isReal_hostScatterAdd d x idx upd hx hu i

/-- A host gather of an array with real entries has real entries. -/
theorem isReal_gather {s si t : Shape} (d : GatherDims s si t) {w : Nat} (x : FVec Ideal s .f32) (idx : IVec si w)
    (hx : ∀ i, IsReal (x i)) (j : t.Idx) : IsReal (Host.gather d x idx j) :=
  hx _

theorem isReal_mulf {a b : Ideal .f32} (ha : IsReal a) (hb : IsReal b) : IsReal (FloatOps.mulf a b) := ha.mul hb
theorem isReal_addf {a b : Ideal .f32} (ha : IsReal a) (hb : IsReal b) : IsReal (FloatOps.addf a b) := ha.add hb
theorem isReal_subf {a b : Ideal .f32} (ha : IsReal a) (hb : IsReal b) : IsReal (FloatOps.subf a b) := ha.sub hb
theorem real_zero_bits : IsReal (FloatOps.ofBits (F := Ideal) .f32 0x00000000#32) := real_zero_word
theorem real_one_bits : IsReal (FloatOps.ofBits (F := Ideal) .f32 0x3F800000#32) := real_one_word

/-- A finite sum of nonnegative reals is a nonnegative real. -/
theorem nonneg_real_sum {ι : Type*} (s : Finset ι) (f : ι → EReal) (h : ∀ i ∈ s, ∃ r : ℝ, 0 ≤ r ∧ f i = (r : EReal)) :
    ∃ R : ℝ, 0 ≤ R ∧ ∑ i ∈ s, f i = (R : EReal) := by
  classical
  induction s using Finset.induction_on with
  | empty => exact ⟨0, le_refl _, by simp⟩
  | insert a s ha ih =>
    obtain ⟨r, hr, er⟩ := h a (Finset.mem_insert_self a s)
    obtain ⟨R, hR, eR⟩ := ih fun i hi => h i (Finset.mem_insert_of_mem hi)
    exact ⟨r + R, add_nonneg hr hR, by rw [Finset.sum_insert ha, er, eR, EReal.coe_add]⟩

end Cert.LibRealHostOps

end
-- ==== Proof.LibMeanCommute.lean ====
/-
  A linear map of the rows commutes with the degree-normalised neighbour mean of a graph layer, over real entries.

  A graph layer replaces the row of node n, where n has an in-neighbour, by the mean of its in-neighbours' rows:
  the segment sum over the edges e whose target is n of the row of e's source, divided by the (nonzero) number of
  such edges; a node without in-neighbours keeps its own row. Whether the layer's linear map y ↦ y · W is applied
  to every row before the aggregation or to the aggregated rows afterwards makes no difference as long as every
  entry involved is a REAL number: under the guard the two sides are the two ways of bracketing
      (Σ_{e : tgt e = n} Σ_k x(src e, k) · W(k)) / m,
  equal by distributivity over the reals; elsewhere both are Σ_k x(n, k) · W(k). Over arbitrary extended reals
  distributivity fails (∞ − ∞), so realness of the entries is a hypothesis.
-/
import Idealize.ShloMosaic.Lib.ValueIdx
import Idealize.ShloMosaic.PureOps.Ideal.Laws
import proofs.«143691_j84954453115059_2_alg».proof.Proof.LibSegmentRows

noncomputable section

open scoped BigOperators

namespace Cert.Bridge.Layers

open Idealize.ShloMosaic Idealize.ShloMosaic.SegmentRows

section Real

variable {ι κ : Type*} [Fintype ι] [Fintype κ]

/-- Over the reals: scaling the segment sum of the rows a(e, ·) by r and contracting with W equals the segment sum of
    the contractions Σ_k a(e, k) · W(k), scaled by r: each side is Σ_{e : P e} Σ_k a(e, k) · r · W(k). -/
theorem mean_commute_real (P : ι → Prop) [DecidablePred P] (a : ι → κ → ℝ) (W : κ → ℝ) (r : ℝ) :
    ∑ k, ((∑ e, if P e then a e k else 0) * r) * W k = (∑ e, if P e then ∑ k, a e k * W k else 0) * r := by
  have hl : ∀ k, ((∑ e, if P e then a e k else 0) * r) * W k = ∑ e, if P e then a e k * W k * r else 0 := by
    intro k
    rw [Finset.sum_mul, Finset.sum_mul]
    refine Finset.sum_congr rfl fun e _ => ?_
    split
    · ring
    · simp
  rw [Finset.sum_congr rfl fun k _ => hl k, Finset.sum_comm, Finset.sum_mul]
  refine Finset.sum_congr rfl fun e _ => ?_
  split
  · rw [Finset.sum_mul]
  · simp

/-- The same over the extended reals, as the exact quotient by a nonzero real m, for families whose entries are all
    real numbers; the segment sums start from the zero a scatter-add's zero operand contributes. -/
theorem mean_commute_ereal (P : ι → Prop) [DecidablePred P] (a : ι → κ → EReal) (W : κ → EReal) {m : ℝ} (hm : m ≠ 0)
    (ha : ∀ e k, ∃ r : ℝ, a e k = (r : EReal)) (hW : ∀ k, ∃ r : ℝ, W k = (r : EReal)) :
    ∑ k, Ideal.div (0 + ∑ e, if P e then a e k else 0) (m : EReal) * W k
      = Ideal.div (0 + ∑ e, if P e then ∑ k, a e k * W k else 0) (m : EReal) := by
  choose A hA using ha
  choose W' hW' using hW
  have ea : a = fun e k => ((A e k : ℝ) : EReal) := funext fun e => funext fun k => hA e k
  have ew : W = fun k => ((W' k : ℝ) : EReal) := funext fun k => hW' k
  subst ea ew
  simp only [Ideal.div_coe hm, zero_add, ← EReal.coe_mul, ← coe_finset_sum, ite_coe]
  exact congrArg _ (mean_commute_real P A W' (1 / m))

/-- THE LAYER LAW. Where the guard b holds a node takes the mean of its in-neighbours' rows (the segment sum over the
    edges e with P e, divided by the nonzero real m), elsewhere its own row t. Contracting the aggregated row with W
    equals aggregating the contracted rows: under the guard by the law above, elsewhere both sides are Σ_k t(k)·W(k). -/
theorem agg_commute (P : ι → Prop) [DecidablePred P] (b : BitVec 1) (a : ι → κ → EReal) (t : κ → EReal) (W : κ → EReal)
    (m : EReal) (hm : ∃ r : ℝ, r ≠ 0 ∧ m = (r : EReal))
    (ha : ∀ e k, ∃ r : ℝ, a e k = (r : EReal)) (hW : ∀ k, ∃ r : ℝ, W k = (r : EReal)) :
    Scalar.select b (Ideal.div (0 + ∑ e, if P e then ∑ k, a e k * W k else 0) m) (∑ k, t k * W k)
      = ∑ k, Scalar.select b (Ideal.div (0 + ∑ e, if P e then a e k else 0) m) (t k) * W k := by
  obtain ⟨r, hr, rfl⟩ := hm
  by_cases hb : b = 1#1
  · subst hb
    simp only [ValueIdx.select_one]
    exact (mean_commute_ereal P a W hr ha hW).symm
  · have h0 := ValueIdx.eq_zero_of_ne_one hb
    subst h0
    simp only [ValueIdx.select_zero]

end Real

end Cert.Bridge.Layers

end
-- ==== Proof.LibAggStage.lean ====
/-
  The aggregation stage of a graph layer, as the host computes it, read at an entry.

  For a node table T : [N, C], a source column and a target column of E edge indices, a guard column and a
  denominator column over the nodes, the stage is
      select (guard broadcast along the row) ((scatter-add into zeros, by target, of (gather T by source))
                                              / (denominator broadcast along the row)) T.
  At (n, c) it is: where the guard holds at n, the segment sum over the edges e whose target is n of T(row e, c),
  divided by the denominator at n; elsewhere T(n, c). The guard, the denominator, the sources and the targets do
  not depend on the column c nor on the width C, so the layer law of LibMeanCommute applies across widths: the stage
  of the table T · W is the stage of T, contracted with W. The denominator the programs use is max(deg, 1) with
  deg the number of edges whose target is the node (a scatter-add of ones into zeros): a real number, at least 1.
-/
import Idealize.ShloMosaic.Lib.ValueIdx
import Idealize.ShloMosaic.PureOps.Ideal.Laws
import proofs.«143691_j84954453115059_2_alg».proof.Proof.LibSegmentRows
import proofs.«143691_j84954453115059_2_alg».proof.Proof.LibHostRowForms
import proofs.«143691_j84954453115059_2_alg».proof.Proof.LibRealEntries
import proofs.«143691_j84954453115059_2_alg».proof.Proof.LibRealHostOps
import proofs.«143691_j84954453115059_2_alg».proof.Proof.LibMeanCommute

noncomputable section

open scoped BigOperators

namespace Cert.Bridge.Layers

open Idealize.ShloMosaic Idealize.ShloMosaic.ValueIdx Idealize.ShloMosaic.SegmentRows
open Cert.LibRealEntries Cert.LibRealHostOps Cert.HostRowForms

/-- An index of a matrix is a pair of coordinates of the literal extents. -/
theorem exists_ix2 {n0 n1 : Nat} (i : (⟨2, ![n0, n1]⟩ : Shape).Idx) : ∃ (a : Fin n0) (b : Fin n1), i = ix2 a b :=
  ⟨i 0, i 1, eq_ix2 i⟩

section Stage

variable {N E C : Nat}
  (wfg : GatherDims.WF ⟨2, ![N, C]⟩ ⟨2, ![E, 1]⟩ ⟨2, ![E, C]⟩ [1] [0] [] [0] [] 1 ![1, C])
  (wfs : ScatterDims.WF ⟨2, ![N, C]⟩ ⟨2, ![E, 1]⟩ ⟨2, ![E, C]⟩ [1] [0] [0] 1)
  (dims : Fin 2 → Fin 2)
  (hb : (⟨2, ![N, 1]⟩ : Shape).BroadcastsInDim ⟨2, ![N, C]⟩ dims)
  (cnd : IVec ⟨2, ![N, 1]⟩ 1) (den : FVec Ideal ⟨2, ![N, 1]⟩ .f32)
  (Z : FVec Ideal ⟨2, ![N, C]⟩ .f32) (src dst : IVec ⟨2, ![E, 1]⟩ 32) (T : FVec Ideal ⟨2, ![N, C]⟩ .f32)

/-- The aggregation stage as a whole array. -/
def aggStage : FVec Ideal ⟨2, ![N, C]⟩ .f32 :=
  select (broadcastInDim ⟨2, ![N, C]⟩ dims hb cnd)
    (Host.divf (Host.scatterAdd (rowScatterDims N E C wfs) Z dst (Host.gather (rowGatherDims N E C wfg) T src))
      (broadcastInDim ⟨2, ![N, C]⟩ dims hb den)) T

/-- THE STAGE AT (n, c). -/
theorem aggStage_apply (hN : 0 < N) (h0 : dims 0 = 0) (hZ : ∀ i, Z i = 0) (n : Fin N) (c : Fin C) :
    aggStage wfg wfs dims hb cnd den Z src dst T (ix2 n c)
      = Scalar.select (cnd (ix2 n (0 : Fin 1)))
          (Ideal.div (0 + ∑ e : Fin E, if (dst (ix2 e 0)).toInt = (n.val : Int) then T (ix2 (rowOf hN src e) c) else 0)
            (den (ix2 n (0 : Fin 1))))
          (T (ix2 n c)) := by
  unfold aggStage
  rw [select_apply, bcast_a1_ab_apply cnd dims h0 hb n c]
  show Scalar.select _ (Ideal.div
      (Ideal.hostScatterAdd (rowScatterDims N E C wfs) Z dst (Host.gather (rowGatherDims N E C wfg) T src) (ix2 n c))
      (broadcastInDim ⟨2, ![N, C]⟩ dims hb den (ix2 n c))) _ = _
  rw [bcast_a1_ab_apply den dims h0 hb n c, hostScatterAdd_rows_apply, hZ]
  simp only [gather_rows_apply wfg src _ c hN T]

/-- The stage of a table with real entries, over a nonzero real denominator, has real entries. -/
theorem aggStage_real (hN : 0 < N) (h0 : dims 0 = 0) (hZ : ∀ i, Z i = 0) (hT : ∀ i, IsReal (T i))
    (hden : ∀ n : Fin N, ∃ r : ℝ, r ≠ 0 ∧ den (ix2 n (0 : Fin 1)) = (r : EReal)) (i : (⟨2, ![N, C]⟩ : Shape).Idx) :
    IsReal (aggStage wfg wfs dims hb cnd den Z src dst T i) := by
  obtain ⟨n, c, rfl⟩ := exists_ix2 i
  rw [aggStage_apply wfg wfs dims hb cnd den Z src dst T hN h0 hZ]
  obtain ⟨r, hr, er⟩ := hden n
  rw [er]
  have hq : IsReal (Ideal.div (0 + ∑ e : Fin E,
      if (dst (ix2 e 0)).toInt = (n.val : Int) then T (ix2 (rowOf hN src e) c) else 0) (r : EReal)) := by
    refine IsReal.div_coe (isReal_zero.add (isReal_sum _ _ fun e _ => ?_)) hr
    split
    · exact hT _
    · exact isReal_zero
  by_cases hc : cnd (ix2 n (0 : Fin 1)) = 1#1
  · rw [hc, select_one]; exact hq
  · rw [eq_zero_of_ne_one hc, select_zero]; exact hT _

end Stage

section Contract

variable {N E K O : Nat}
  (wfgK : GatherDims.WF ⟨2, ![N, K]⟩ ⟨2, ![E, 1]⟩ ⟨2, ![E, K]⟩ [1] [0] [] [0] [] 1 ![1, K])
  (wfsK : ScatterDims.WF ⟨2, ![N, K]⟩ ⟨2, ![E, 1]⟩ ⟨2, ![E, K]⟩ [1] [0] [0] 1)
  (wfgO : GatherDims.WF ⟨2, ![N, O]⟩ ⟨2, ![E, 1]⟩ ⟨2, ![E, O]⟩ [1] [0] [] [0] [] 1 ![1, O])
  (wfsO : ScatterDims.WF ⟨2, ![N, O]⟩ ⟨2, ![E, 1]⟩ ⟨2, ![E, O]⟩ [1] [0] [0] 1)
  (dimsK dimsO : Fin 2 → Fin 2)
  (hbK : (⟨2, ![N, 1]⟩ : Shape).BroadcastsInDim ⟨2, ![N, K]⟩ dimsK)
  (hbO : (⟨2, ![N, 1]⟩ : Shape).BroadcastsInDim ⟨2, ![N, O]⟩ dimsO)
  (cnd : IVec ⟨2, ![N, 1]⟩ 1) (den : FVec Ideal ⟨2, ![N, 1]⟩ .f32)
  (ZK : FVec Ideal ⟨2, ![N, K]⟩ .f32) (ZO : FVec Ideal ⟨2, ![N, O]⟩ .f32) (src dst : IVec ⟨2, ![E, 1]⟩ 32)
  (T : FVec Ideal ⟨2, ![N, K]⟩ .f32) (W : FVec Ideal ⟨2, ![K, O]⟩ .f32) (TW : FVec Ideal ⟨2, ![N, O]⟩ .f32)

/-- PROJECT-THEN-AGGREGATE IS AGGREGATE-THEN-PROJECT. If TW is the table T · W (row by row), the stage of TW at (n, o)
    is the stage of T, contracted with column o of W: for real entries of T and W and a nonzero real denominator. -/
theorem aggStage_contract (hN : 0 < N) (hK0 : dimsK 0 = 0) (hO0 : dimsO 0 = 0)
    (hZK : ∀ i, ZK i = 0) (hZO : ∀ i, ZO i = 0)
    (hT : ∀ i, IsReal (T i)) (hW : ∀ i, IsReal (W i))
    (hden : ∀ n : Fin N, ∃ r : ℝ, r ≠ 0 ∧ den (ix2 n (0 : Fin 1)) = (r : EReal))
    (hTW : ∀ (n : Fin N) (o : Fin O), TW (ix2 n o) = ∑ k : Fin K, T (ix2 n k) * W (ix2 k o))
    (n : Fin N) (o : Fin O) :
    aggStage wfgO wfsO dimsO hbO cnd den ZO src dst TW (ix2 n o)
      = ∑ k : Fin K, aggStage wfgK wfsK dimsK hbK cnd den ZK src dst T (ix2 n k) * W (ix2 k o) := by
  rw [aggStage_apply wfgO wfsO dimsO hbO cnd den ZO src dst TW hN hO0 hZO]
  simp only [aggStage_apply wfgK wfsK dimsK hbK cnd den ZK src dst T hN hK0 hZK, hTW]
  exact agg_commute (fun e : Fin E => (dst (ix2 e 0)).toInt = (n.val : Int)) (cnd (ix2 n (0 : Fin 1)))
    (fun e k => T (ix2 (rowOf hN src e) k)) (fun k => T (ix2 n k)) (fun k => W (ix2 k o)) (den (ix2 n (0 : Fin 1)))
    (hden n) (fun e k => hT _) (fun k => hW _)

end Contract

section Degree

variable {N E : Nat}
  (wfs : ScatterDims.WF ⟨2, ![N, 1]⟩ ⟨2, ![E, 1]⟩ ⟨2, ![E, 1]⟩ [1] [0] [0] 1)
  (Z : FVec Ideal ⟨2, ![N, 1]⟩ .f32) (idx : IVec ⟨2, ![E, 1]⟩ 32)
  (ones : FVec Ideal ⟨2, ![E, 1]⟩ .f32) (onesN : FVec Ideal ⟨2, ![N, 1]⟩ .f32)

/-- The number of edges whose index is n, as the host computes it (a scatter-add of ones into zeros): a nonnegative
    real. -/
theorem count_nonneg_real (hZ : ∀ i, Z i = 0) (hO : ∀ i, ones i = 1) (n : Fin N) :
    ∃ R : ℝ, 0 ≤ R ∧ Host.scatterAdd (rowScatterDims N E 1 wfs) Z idx ones (ix2 n (0 : Fin 1)) = (R : EReal) := by
  show ∃ R : ℝ, 0 ≤ R ∧ Ideal.hostScatterAdd (rowScatterDims N E 1 wfs) Z idx ones (ix2 n (0 : Fin 1)) = (R : EReal)
  rw [hostScatterAdd_rows_apply, hZ]
  obtain ⟨R, hR, eR⟩ := nonneg_real_sum Finset.univ
    (fun e : Fin E => if (idx (ix2 e 0)).toInt = (n.val : Int) then ones (ix2 e (0 : Fin 1)) else 0) (fun e _ => by
      show ∃ r : ℝ, 0 ≤ r ∧ (if (idx (ix2 e 0)).toInt = (n.val : Int) then ones (ix2 e (0 : Fin 1)) else 0) = (r : EReal)
      split
      · exact ⟨1, zero_le_one, by rw [hO]; rfl⟩
      · exact ⟨0, le_refl _, rfl⟩)
  exact ⟨R, hR, by rw [eR, zero_add]⟩

/-- The denominator max(count, 1) is a nonzero real. -/
theorem countDen_real (hZ : ∀ i, Z i = 0) (hO : ∀ i, ones i = 1) (hON : ∀ i, onesN i = 1) (n : Fin N) :
    ∃ r : ℝ, r ≠ 0 ∧ maximumf (Host.scatterAdd (rowScatterDims N E 1 wfs) Z idx ones) onesN (ix2 n (0 : Fin 1)) = (r : EReal) := by
  obtain ⟨R, hR, eR⟩ := count_nonneg_real wfs Z idx ones hZ hO n
  show ∃ r : ℝ, r ≠ 0 ∧ max (Host.scatterAdd (rowScatterDims N E 1 wfs) Z idx ones (ix2 n (0 : Fin 1)))
    (onesN (ix2 n (0 : Fin 1))) = (r : EReal)
  rw [eR, hON]
  refine ⟨max R 1, ne_of_gt (lt_of_lt_of_le zero_lt_one (le_max_right R 1)), ?_⟩
  rcases le_total R 1 with h | h
  · rw [max_eq_right h, max_eq_right (by exact_mod_cast h)]; rfl
  · rw [max_eq_left h, max_eq_left (by exact_mod_cast h)]

end Degree

end Cert.Bridge.Layers

end
-- ==== Proof.LayersRef.lean ====
/-
  The reference's two graph layers and its graph mean, read at an entry, with real entries throughout.

  The reference aggregates first and projects after: its first layer is the aggregation stage of the node features
  (width 128) contracted with W1ᵀ, plus the bias, rectified; its second layer the aggregation stage of that (width
  100) contracted with W2ᵀ, plus the bias, rectified; the graph mean is the rows summed by graph and divided by the
  graph's node count floored at one. Both aggregation stages use the same guard column (in-degree > 0), the same
  denominator column (max(in-degree, 1)), the same source column and the same target column. Hence the
  aggregation stage (at width 100, resp. 20) of any table that is, row by row, the features (resp. the first
  layer's output) contracted with W1ᵀ (resp. W2ᵀ) equals the reference's contraction: the layer law.
-/
import proofs.«143691_j84954453115059_2_alg».proof.Proof.RefRead
import proofs.«143691_j84954453115059_2_alg».proof.Proof.LibAggStage

noncomputable section

open scoped BigOperators

namespace Cert.Bridge.Layers

open Idealize.ShloMosaic Idealize.ShloMosaic.ValueIdx Idealize.ShloMosaic.SegmentRows
open Cert.LibRealEntries Cert.LibRealHostOps
open Cert.ReferenceIdeal Cert.ReferenceIdeal.ReadP Cert.ReferenceIdeal.Gen

/-! ## The shapes' side conditions -/

theorem wfg128 : GatherDims.WF ⟨2, ![100000, 128]⟩ ⟨2, ![1600000, 1]⟩ ⟨2, ![1600000, 128]⟩ [1] [0] [] [0] [] 1 ![1, 128] := by decide
theorem wfs128 : ScatterDims.WF ⟨2, ![100000, 128]⟩ ⟨2, ![1600000, 1]⟩ ⟨2, ![1600000, 128]⟩ [1] [0] [0] 1 := by decide
theorem wfg100 : GatherDims.WF ⟨2, ![100000, 100]⟩ ⟨2, ![1600000, 1]⟩ ⟨2, ![1600000, 100]⟩ [1] [0] [] [0] [] 1 ![1, 100] := by decide
theorem wfs100 : ScatterDims.WF ⟨2, ![100000, 100]⟩ ⟨2, ![1600000, 1]⟩ ⟨2, ![1600000, 100]⟩ [1] [0] [0] 1 := by decide
theorem wfsDeg : ScatterDims.WF ⟨2, ![100000, 1]⟩ ⟨2, ![1600000, 1]⟩ ⟨2, ![1600000, 1]⟩ [1] [0] [0] 1 := by decide
theorem wfsCnt : ScatterDims.WF ⟨2, ![256, 1]⟩ ⟨2, ![100000, 1]⟩ ⟨2, ![100000, 1]⟩ [1] [0] [0] 1 := by decide
theorem hb128 : (⟨2, ![100000, 1]⟩ : Shape).BroadcastsInDim ⟨2, ![100000, 128]⟩ (![0, 1] : Fin 2 → Fin 2) := by decide
theorem hb100 : (⟨2, ![100000, 1]⟩ : Shape).BroadcastsInDim ⟨2, ![100000, 100]⟩ (![0, 1] : Fin 2 → Fin 2) := by decide
theorem wfg20 : GatherDims.WF ⟨2, ![100000, 20]⟩ ⟨2, ![1600000, 1]⟩ ⟨2, ![1600000, 20]⟩ [1] [0] [] [0] [] 1 ![1, 20] := by decide
theorem wfs20 : ScatterDims.WF ⟨2, ![100000, 20]⟩ ⟨2, ![1600000, 1]⟩ ⟨2, ![1600000, 20]⟩ [1] [0] [0] 1 := by decide
theorem hb20 : (⟨2, ![100000, 1]⟩ : Shape).BroadcastsInDim ⟨2, ![100000, 20]⟩ (![0, 1] : Fin 2 → Fin 2) := by decide
theorem nodes_pos : 0 < 100000 := by decide

/-! ## The shared columns and the constant arrays -/

section Columns

variable (x3 : (⟨S1600000, .i32⟩ : BufTy).Contents (Elt Ideal))

theorem v7_zero (i : S100000x128.Idx) : val_main_v7 (F := Ideal) i = 0 := Ideal.ofBits_zero_f32
theorem v34_zero (i : S100000x100.Idx) : val_main_v34 (F := Ideal) i = 0 := Ideal.ofBits_zero_f32
theorem v11_zero (i : S100000x1.Idx) : val_main_v11 (F := Ideal) i = 0 := Ideal.ofBits_zero_f32
theorem v10_one (i : S1600000x1.Idx) : val_main_v10 (F := Ideal) i = 1 := by
  show Ideal.ofBits .f32 0x3F800000#32 = 1
  rw [ofBits_one_f32]; rfl
theorem v16_one (i : S100000x1.Idx) : val_main_v16 (F := Ideal) i = 1 := by
  show Ideal.ofBits .f32 0x3F800000#32 = 1
  rw [ofBits_one_f32]; rfl

theorem z20_zero (i : S100000x20.Idx) : val_main_call3_v0 (F := Ideal) i = 0 := Ideal.ofBits_zero_f32
theorem v58_zero (i : S256x1.Idx) : val_main_v58 (F := Ideal) i = 0 := Ideal.ofBits_zero_f32
theorem v57_one (i : S100000x1.Idx) : val_main_v57 (F := Ideal) i = 1 := by
  show Ideal.ofBits .f32 0x3F800000#32 = 1
  rw [ofBits_one_f32]; rfl
theorem v61_one (i : S256x1.Idx) : val_main_v61 (F := Ideal) i = 1 := by
  show Ideal.ofBits .f32 0x3F800000#32 = 1
  rw [ofBits_one_f32]; rfl

/-- The denominator column max(in-degree, 1) is a nonzero real at every node. -/
theorem den_real (n : Fin 100000) :
    ∃ r : ℝ, r ≠ 0 ∧ val_main_v17 (F := Ideal) x3 (ix2 n (0 : Fin 1)) = (r : EReal) :=
  countDen_real wfsDeg (val_main_v11 (F := Ideal)) (val_main_v12 (F := Ideal) x3) (val_main_v10 (F := Ideal))
    (val_main_v16 (F := Ideal)) v11_zero v10_one v16_one n

end Columns

/-! ## The first layer -/

section Layer1

variable (x0 : (⟨S100000x128, .f32⟩ : BufTy).Contents (Elt Ideal)) (x2 x3 : (⟨S1600000, .i32⟩ : BufTy).Contents (Elt Ideal))
  (x5 : (⟨S100x128, .f32⟩ : BufTy).Contents (Elt Ideal)) (x6 : (⟨S100, .f32⟩ : BufTy).Contents (Elt Ideal))

/-- The aggregated features are the aggregation stage of the features. -/
theorem v20_eq : val_main_v20 (F := Ideal) x0 x2 x3
    = aggStage wfg128 wfs128 ![0, 1] hb128 (val_main_v15 (F := Ideal) x3) (val_main_v17 (F := Ideal) x3)
        (val_main_v7 (F := Ideal)) (val_main_v5 (F := Ideal) x2) (val_main_v8 (F := Ideal) x3) x0 := rfl

theorem v20_real (h0 : ∀ i, IsReal (x0 i)) (i : S100000x128.Idx) : IsReal (val_main_v20 (F := Ideal) x0 x2 x3 i) := by
  rw [v20_eq]
  exact aggStage_real wfg128 wfs128 ![0, 1] hb128 _ _ _ _ _ x0 nodes_pos rfl v7_zero h0 (den_real x3) i

theorem v21_real (h5 : ∀ i, IsReal (x5 i)) (i : S128x100.Idx) : IsReal (val_main_v21 (F := Ideal) x5 i) := by
  rw [val_main_v21_apply]; exact h5 _

/-- The first contraction at (n, o). -/
theorem v22_at (n : Fin 100000) (o : Fin 100) :
    val_main_v22 (F := Ideal) x0 x2 x3 x5 (ix2 n o)
      = ∑ k : Fin 128, val_main_v20 (F := Ideal) x0 x2 x3 (ix2 n k) * val_main_v21 (F := Ideal) x5 (ix2 k o) := by
  rw [val_main_v22_apply]
  refine Finset.sum_congr rfl fun k _ => ?_
  have hl : lidx_main_v22 (ix2 n o) k = ix2 n k := by
    funext a
    match a with
    | ⟨0, _⟩ => rfl
    | ⟨1, _⟩ => rfl
  have hr : ridx_main_v22 (ix2 n o) k = ix2 k o := by
    funext a
    match a with
    | ⟨0, _⟩ => rfl
    | ⟨1, _⟩ => rfl
  rw [hl, hr]

theorem v22_real (h0 : ∀ i, IsReal (x0 i)) (h5 : ∀ i, IsReal (x5 i)) (i : S100000x100.Idx) :
    IsReal (val_main_v22 (F := Ideal) x0 x2 x3 x5 i) := by
  rw [val_main_v22_apply]
  exact isReal_sum _ _ fun k _ => (v20_real x0 x2 x3 h0 _).mul (v21_real x5 h5 _)

/-- PROJECT-THEN-AGGREGATE, FIRST LAYER: the aggregation stage (width 100) of a table that is, row by row, the
    features contracted with W1ᵀ is the reference's first contraction. -/
theorem v22_of_projected (h0 : ∀ i, IsReal (x0 i)) (h5 : ∀ i, IsReal (x5 i))
    (z : (⟨S100000x100, .f32⟩ : BufTy).Contents (Elt Ideal))
    (hz : ∀ (n : Fin 100000) (o : Fin 100), z (ix2 n o) = ∑ k : Fin 128, x0 (ix2 n k) * val_main_v21 (F := Ideal) x5 (ix2 k o)) :
    aggStage wfg100 wfs100 ![0, 1] hb100 (val_main_v15 (F := Ideal) x3) (val_main_v17 (F := Ideal) x3)
        (val_main_v34 (F := Ideal)) (val_main_v5 (F := Ideal) x2) (val_main_v8 (F := Ideal) x3) z
      = val_main_v22 (F := Ideal) x0 x2 x3 x5 := by
  funext i
  obtain ⟨n, o, rfl⟩ := exists_ix2 i
  rw [v22_at, v20_eq]
  exact aggStage_contract wfg128 wfs128 wfg100 wfs100 ![0, 1] ![0, 1] hb128 hb100 _ _ _ _ _ _ x0
    (val_main_v21 (F := Ideal) x5) z nodes_pos rfl rfl v7_zero v34_zero h0 (v21_real x5 h5) (den_real x3) hz n o

/-- The first layer's output at (n, c): the contraction plus the bias, rectified. -/
theorem v26_at (n : Fin 100000) (c : Fin 100) :
    val_main_v26 (F := Ideal) x0 x2 x3 x5 x6 (ix2 n c)
      = max (val_main_v22 (F := Ideal) x0 x2 x3 x5 (ix2 n c) + x6 (ix1 c)) 0 := by
  rw [val_main_v26_apply, val_main_v25_apply, val_main_call1_v0_apply, val_main_call1_cst_apply, val_main_v24_apply,
    val_main_v23_apply, Ideal.maximumf_def, Ideal.addf_def, Ideal.ofBits_def, Ideal.ofBits_zero_f32]
  have hi : idx_main_v23 (idx_main_v24 (ix2 n c)) = ix1 c := by
    funext a
    match a with
    | ⟨0, _⟩ => rfl
  rw [hi]

theorem v26_real (h0 : ∀ i, IsReal (x0 i)) (h5 : ∀ i, IsReal (x5 i)) (h6 : ∀ i, IsReal (x6 i)) (i : S100000x100.Idx) :
    IsReal (val_main_v26 (F := Ideal) x0 x2 x3 x5 x6 i) := by
  obtain ⟨n, c, rfl⟩ := exists_ix2 i
  rw [v26_at]
  exact ((v22_real x0 x2 x3 x5 h0 h5 _).add (h6 _)).max isReal_zero

end Layer1

/-! ## The second layer and the graph mean -/

section Layer2

variable (x0 : (⟨S100000x128, .f32⟩ : BufTy).Contents (Elt Ideal)) (x2 x3 : (⟨S1600000, .i32⟩ : BufTy).Contents (Elt Ideal))
  (x4 : (⟨S100000, .i32⟩ : BufTy).Contents (Elt Ideal))
  (x5 : (⟨S100x128, .f32⟩ : BufTy).Contents (Elt Ideal)) (x6 : (⟨S100, .f32⟩ : BufTy).Contents (Elt Ideal))
  (x7 : (⟨S20x100, .f32⟩ : BufTy).Contents (Elt Ideal)) (x8 : (⟨S20, .f32⟩ : BufTy).Contents (Elt Ideal))

/-- The second aggregation is the aggregation stage of the first layer's output, over the same columns. -/
theorem v47_eq : val_main_v47 (F := Ideal) x0 x2 x3 x5 x6
    = aggStage wfg100 wfs100 ![0, 1] hb100 (val_main_v15 (F := Ideal) x3) (val_main_v17 (F := Ideal) x3)
        (val_main_v34 (F := Ideal)) (val_main_v5 (F := Ideal) x2) (val_main_v8 (F := Ideal) x3)
        (val_main_v26 (F := Ideal) x0 x2 x3 x5 x6) := rfl

theorem v47_real (h0 : ∀ i, IsReal (x0 i)) (h5 : ∀ i, IsReal (x5 i)) (h6 : ∀ i, IsReal (x6 i)) (i : S100000x100.Idx) :
    IsReal (val_main_v47 (F := Ideal) x0 x2 x3 x5 x6 i) := by
  rw [v47_eq]
  exact aggStage_real wfg100 wfs100 ![0, 1] hb100 _ _ _ _ _ _ nodes_pos rfl v34_zero (v26_real x0 x2 x3 x5 x6 h0 h5 h6)
    (den_real x3) i

theorem v48_real (h7 : ∀ i, IsReal (x7 i)) (i : S100x20.Idx) : IsReal (val_main_v48 (F := Ideal) x7 i) := by
  rw [val_main_v48_apply]; exact h7 _

/-- The second contraction at (n, o). -/
theorem v49_at (n : Fin 100000) (o : Fin 20) :
    val_main_v49 (F := Ideal) x0 x2 x3 x5 x6 x7 (ix2 n o)
      = ∑ k : Fin 100, val_main_v47 (F := Ideal) x0 x2 x3 x5 x6 (ix2 n k) * val_main_v48 (F := Ideal) x7 (ix2 k o) := by
  rw [val_main_v49_apply]
  refine Finset.sum_congr rfl fun k _ => ?_
  have hl : lidx_main_v49 (ix2 n o) k = ix2 n k := by
    funext a
    match a with
    | ⟨0, _⟩ => rfl
    | ⟨1, _⟩ => rfl
  have hr : ridx_main_v49 (ix2 n o) k = ix2 k o := by
    funext a
    match a with
    | ⟨0, _⟩ => rfl
    | ⟨1, _⟩ => rfl
  rw [hl, hr]

theorem v49_real (h0 : ∀ i, IsReal (x0 i)) (h5 : ∀ i, IsReal (x5 i)) (h6 : ∀ i, IsReal (x6 i)) (h7 : ∀ i, IsReal (x7 i))
    (i : S100000x20.Idx) : IsReal (val_main_v49 (F := Ideal) x0 x2 x3 x5 x6 x7 i) := by
  rw [val_main_v49_apply]
  exact isReal_sum _ _ fun k _ => (v47_real x0 x2 x3 x5 x6 h0 h5 h6 _).mul (v48_real x7 h7 _)

/-- PROJECT-THEN-AGGREGATE, SECOND LAYER: the aggregation stage (width 20) of a table that is, row by row, the first
    layer's output contracted with W2ᵀ is the reference's second contraction. -/
theorem v49_of_projected (h0 : ∀ i, IsReal (x0 i)) (h5 : ∀ i, IsReal (x5 i)) (h6 : ∀ i, IsReal (x6 i)) (h7 : ∀ i, IsReal (x7 i))
    (z : (⟨S100000x20, .f32⟩ : BufTy).Contents (Elt Ideal))
    (hz : ∀ (n : Fin 100000) (o : Fin 20), z (ix2 n o)
      = ∑ k : Fin 100, val_main_v26 (F := Ideal) x0 x2 x3 x5 x6 (ix2 n k) * val_main_v48 (F := Ideal) x7 (ix2 k o)) :
    aggStage wfg20 wfs20 ![0, 1] hb20 (val_main_v15 (F := Ideal) x3) (val_main_v17 (F := Ideal) x3)
        (val_main_call3_v0 (F := Ideal)) (val_main_v5 (F := Ideal) x2) (val_main_v8 (F := Ideal) x3) z
      = val_main_v49 (F := Ideal) x0 x2 x3 x5 x6 x7 := by
  funext i
  obtain ⟨n, o, rfl⟩ := exists_ix2 i
  rw [v49_at, v47_eq]
  exact aggStage_contract wfg100 wfs100 wfg20 wfs20 ![0, 1] ![0, 1] hb100 hb20 _ _ _ _ _ _
    (val_main_v26 (F := Ideal) x0 x2 x3 x5 x6) (val_main_v48 (F := Ideal) x7) z nodes_pos rfl rfl v34_zero z20_zero
    (v26_real x0 x2 x3 x5 x6 h0 h5 h6) (v48_real x7 h7) (den_real x3) hz n o

/-- The second layer's output has real entries. -/
theorem v53_real (h0 : ∀ i, IsReal (x0 i)) (h5 : ∀ i, IsReal (x5 i)) (h6 : ∀ i, IsReal (x6 i)) (h7 : ∀ i, IsReal (x7 i))
    (h8 : ∀ i, IsReal (x8 i)) (i : S100000x20.Idx) : IsReal (val_main_v53 (F := Ideal) x0 x2 x3 x5 x6 x7 x8 i) := by
  rw [val_main_v53_apply, val_main_v52_apply, val_main_call3_v0_apply, val_main_call3_cst_apply, val_main_v51_apply,
    val_main_v50_apply, Ideal.maximumf_def, Ideal.addf_def, Ideal.ofBits_def]
  exact ((v49_real x0 x2 x3 x5 x6 x7 h0 h5 h6 h7 i).add (h8 _)).max real_zero_word

/-- The graph mean has real entries: real rows summed by graph, divided by max(count, 1), a nonzero real. -/
theorem v64_real (h0 : ∀ i, IsReal (x0 i)) (h5 : ∀ i, IsReal (x5 i)) (h6 : ∀ i, IsReal (x6 i)) (h7 : ∀ i, IsReal (x7 i))
    (h8 : ∀ i, IsReal (x8 i)) (i : S256x20.Idx) : IsReal (val_main_v64 (F := Ideal) x0 x2 x3 x4 x5 x6 x7 x8 i) := by
  obtain ⟨g, c, rfl⟩ := exists_ix2 i
  rw [val_main_v64_apply, Ideal.hostDivf_def, val_main_v63_apply]
  have hi : idx_main_v63 (ix2 g c) = ix2 g (0 : Fin 1) := by
    funext a
    match a with
    | ⟨0, _⟩ => rfl
    | ⟨1, _⟩ => rfl
  rw [hi]
  obtain ⟨r, hr, er⟩ := countDen_real wfsCnt (val_main_v58 (F := Ideal)) (val_main_v59 (F := Ideal) x4)
    (val_main_v57 (F := Ideal)) (val_main_v61 (F := Ideal)) v58_zero v57_one v61_one g
  have er' : val_main_v62 (F := Ideal) x4 (ix2 g (0 : Fin 1)) = (r : EReal) := er
  rw [er']
  refine IsReal.div_coe ?_ hr
  exact isReal_scatterAdd _ (val_main_v54 (F := Ideal)) (val_main_v55 (F := Ideal) x4)
    (val_main_v53 (F := Ideal) x0 x2 x3 x5 x6 x7 x8) (fun _ => real_zero_word)
    (v53_real x0 x2 x3 x5 x6 x7 x8 h0 h5 h6 h7 h8) _

end Layer2

end Cert.Bridge.Layers

end
-- ==== Proof.LayersKernel.lean ====
/-
  The kernel's host stretches as the reference's operations.

  Between its regions the kernel runs, on the host, the same aggregation stage as the reference — the same guard,
  denominator, source and target columns, built by the same operations from the same edge lists — at the widths of
  the projected tables (100 and 20), and from the second layer's aggregate on, operation for operation the
  reference's own bias, rectification and graph mean. Its weight transposes are the reference's.
-/
import proofs.«143691_j84954453115059_2_alg».proof.Proof.KStages
import proofs.«143691_j84954453115059_2_alg».proof.Proof.Gen.KernelIdeal
import proofs.«143691_j84954453115059_2_alg».proof.Proof.LayersRef

noncomputable section

open scoped BigOperators

namespace Cert.Bridge.Layers

open Idealize.ShloMosaic Idealize.ShloMosaic.ValueIdx Idealize.ShloMosaic.SegmentRows
open Cert.LibRealEntries
open Cert.ReferenceIdeal Cert.ReferenceIdeal.ReadP

variable (x0 : (⟨S100000x128, .f32⟩ : BufTy).Contents (Elt Ideal)) (x2 x3 : (⟨S1600000, .i32⟩ : BufTy).Contents (Elt Ideal))
  (x4 : (⟨S100000, .i32⟩ : BufTy).Contents (Elt Ideal))
  (x5 : (⟨S100x128, .f32⟩ : BufTy).Contents (Elt Ideal)) (x6 : (⟨S100, .f32⟩ : BufTy).Contents (Elt Ideal))
  (x7 : (⟨S20x100, .f32⟩ : BufTy).Contents (Elt Ideal)) (x8 : (⟨S20, .f32⟩ : BufTy).Contents (Elt Ideal))

/-- The kernel's in-degree column is the reference's. -/
theorem kDeg_eq : kDeg (F := Ideal) x3 = val_main_v13 (F := Ideal) x3 := rfl

/-- The kernel's source column is the reference's. -/
theorem kSrcCol_eq : kSrcCol (F := Ideal) x2 = val_main_v5 (F := Ideal) x2 := rfl

theorem kW1T_eq : kW1T (F := Ideal) x5 = val_main_v21 (F := Ideal) x5 := rfl
theorem kW2T_eq : kW2T (F := Ideal) x7 = val_main_v48 (F := Ideal) x7 := rfl

/-- The kernel's first aggregation is the aggregation stage at width 100 over the reference's columns. -/
theorem kAgg1_eq (z : (⟨S100000x100, .f32⟩ : BufTy).Contents (Elt Ideal)) :
    kAgg1 (F := Ideal) z x2 x3
      = aggStage wfg100 wfs100 ![0, 1] hb100 (val_main_v15 (F := Ideal) x3) (val_main_v17 (F := Ideal) x3)
          (val_main_v34 (F := Ideal)) (val_main_v5 (F := Ideal) x2) (val_main_v8 (F := Ideal) x3) z := rfl

/-- The kernel's second aggregation is the aggregation stage at width 20 over the same columns. -/
theorem kAgg2_eq (z : (⟨S100000x20, .f32⟩ : BufTy).Contents (Elt Ideal)) :
    kAgg2 (F := Ideal) z x2 x3
      = aggStage wfg20 wfs20 ![0, 1] hb20 (val_main_v15 (F := Ideal) x3) (val_main_v17 (F := Ideal) x3)
          (val_main_call3_v0 (F := Ideal)) (val_main_v5 (F := Ideal) x2) (val_main_v8 (F := Ideal) x3) z := rfl

/-- The kernel's second bias and rectification, applied to the reference's second contraction, is the reference's
    second layer. -/
theorem kH2_eq : kH2 (F := Ideal) (val_main_v49 (F := Ideal) x0 x2 x3 x5 x6 x7) x8
    = val_main_v53 (F := Ideal) x0 x2 x3 x5 x6 x7 x8 := rfl

/-- The kernel's graph mean of the reference's second layer is the reference's graph mean. -/
theorem kHg_eq : kHg (F := Ideal) (val_main_v53 (F := Ideal) x0 x2 x3 x5 x6 x7 x8) x4
    = val_main_v64 (F := Ideal) x0 x2 x3 x4 x5 x6 x7 x8 := rfl

end Cert.Bridge.Layers

end
-- ==== Proof.Layers.lean ====
/-
  The two graph layers and the graph mean: the kernel projects every node row first and aggregates the projected
  rows, the reference aggregates the rows and projects the aggregate. For real inputs the two agree.

  Layer 1: the kernel's first region contracts every feature row with W1ᵀ; its host stretch then takes, for a node
  with in-neighbours, the mean of the projected rows of its in-neighbours, else the node's own projected row. The
  reference takes the same mean of the feature rows and contracts it with W1ᵀ. By the layer law (a linear map of the
  rows commutes with the guarded mean, over real entries) the two tables are equal. Layer 2: the kernel's second
  region adds the bias, rectifies and contracts with W2ᵀ, which is the reference's first-layer output contracted
  with W2ᵀ row by row; the same law at widths 100 → 20 gives the reference's second contraction. From there on the
  kernel's host operations are the reference's own: bias, rectification, graph mean.
-/
import proofs.«143691_j84954453115059_2_alg».proof.Proof.LayersKernel

noncomputable section

open scoped BigOperators

namespace Cert.Bridge.Layers

open Idealize.ShloMosaic Idealize.ShloMosaic.ValueIdx
open Cert.LibRealEntries
open Cert.ReferenceIdeal Cert.ReferenceIdeal.ReadP

/-- THE LAYERS. The kernel's graph mean — of its second layer, over its two regions read as whole-array contractions —
    is the reference's, and has real entries. -/
theorem layers_eq
    (x0 : (⟨S100000x128, .f32⟩ : BufTy).Contents (Elt Ideal)) (x2 x3 : (⟨S1600000, .i32⟩ : BufTy).Contents (Elt Ideal))
    (x4 : (⟨S100000, .i32⟩ : BufTy).Contents (Elt Ideal))
    (x5 : (⟨S100x128, .f32⟩ : BufTy).Contents (Elt Ideal)) (x6 : (⟨S100, .f32⟩ : BufTy).Contents (Elt Ideal))
    (x7 : (⟨S20x100, .f32⟩ : BufTy).Contents (Elt Ideal)) (x8 : (⟨S20, .f32⟩ : BufTy).Contents (Elt Ideal))
    (b1row : (⟨2, ![1, 100]⟩ : Shape).Idx → EReal) (hb1 : ∀ k : Fin 100, b1row (ix2 (0 : Fin 1) k) = x6 (ix1 k))
    (h0 : ∀ i, IsReal (x0 i)) (h5 : ∀ i, IsReal (x5 i)) (h6 : ∀ i, IsReal (x6 i)) (h7 : ∀ i, IsReal (x7 i))
    (h8 : ∀ i, IsReal (x8 i)) :
    kHg (F := Ideal) (kH2 (F := Ideal) (kAgg2 (F := Ideal)
        (reg1 (kAgg1 (F := Ideal) (reg0 x0 (kW1T (F := Ideal) x5)) x2 x3) b1row (kW2T (F := Ideal) x7)) x2 x3) x8) x4
      = val_main_v64 (F := Ideal) x0 x2 x3 x4 x5 x6 x7 x8
    ∧ ∀ i, IsReal (val_main_v64 (F := Ideal) x0 x2 x3 x4 x5 x6 x7 x8 i) := by
  have e1 : kAgg1 (F := Ideal) (reg0 x0 (kW1T (F := Ideal) x5)) x2 x3 = val_main_v22 (F := Ideal) x0 x2 x3 x5 := by
    rw [kAgg1_eq, kW1T_eq]
    exact v22_of_projected x0 x2 x3 x5 h0 h5 _ fun n o => rfl
  have e2 : kAgg2 (F := Ideal) (reg1 (val_main_v22 (F := Ideal) x0 x2 x3 x5) b1row (kW2T (F := Ideal) x7)) x2 x3
      = val_main_v49 (F := Ideal) x0 x2 x3 x5 x6 x7 := by
    rw [kAgg2_eq, kW2T_eq]
    refine v49_of_projected x0 x2 x3 x5 x6 x7 h0 h5 h6 h7 _ fun n o => ?_
    rw [reg1_apply]
    refine Finset.sum_congr rfl fun c _ => ?_
    rw [v26_at, hb1]
  refine ⟨?_, v64_real x0 x2 x3 x4 x5 x6 x7 x8 h0 h5 h6 h7 h8⟩
  rw [e1, e2, kH2_eq, kHg_eq]

end Cert.Bridge.Layers

end
-- ==== Proof.TailAlgebra.lean ====
/-
  The last stage of the network, entry by entry, and the one law its two arrangements differ by.

  A graph embedding `hg` (256 graphs, 20 features each) goes through a bilinear form with a per-graph feature table,
  two linear layers each followed by a batch normalisation over the 256 graphs and a rectification, and a last linear
  layer onto one output per graph. Every number is an extended real and every operation is exact, so each entry of the
  result is a closed expression in the entries of the inputs: `tailSpec`.

  A batch normalisation of a column subtracts the column's mean, scales by the learned gain, and divides by the square
  root of (the column's variance plus a small positive constant). One arrangement DIVIDES by the square root, the other
  MULTIPLIES by the reciprocal square root. The variance is a sum of squares divided by 256: a square of an extended
  real is never negative (the square of either infinity is plus infinity), a sum of such is never negative, nor is its
  quotient by 256, and adding the positive constant makes it positive — a positive real or plus infinity. At a positive
  real `v`, `a / √v = a · (√v)⁻¹` is how division by a nonzero real is defined; at plus infinity both sides are
  `a · 0`. So the two arrangements agree at EVERY extended real entry, finite or not (`div_sqrt_eq_mul_rsqrt`,
  `normR_eq_normK`).
-/
import Idealize.ShloMosaic.PureOps.Ideal
import Idealize.ShloMosaic.PureOps.Ideal.Laws
import Idealize.ShloMosaic.Lib.ValueIdx

noncomputable section

open scoped BigOperators

namespace Cert.Bridge.Tail

open Idealize.ShloMosaic

/-- The word of `256.0`, the number of graphs, as an extended real. -/
abbrev w256 : EReal := Ideal.ofBits .f32 0x43800000#32
/-- The word of the single-precision number nearest `1e-5`, the constant added to a variance. -/
abbrev wEps : EReal := Ideal.ofBits .f32 0x3727C5AC#32
/-- The zero word. -/
abbrev wZero : EReal := Ideal.ofBits .f32 0x00000000#32

/-! ## The constants -/

/-- `256.0` is a positive real. -/
theorem w256_pos : ∃ c : ℝ, 0 < c ∧ w256 = (c : EReal) := by
  refine ⟨256, by norm_num, ?_⟩
  simp [w256, Ideal.ofBits, Ideal.ieee, -EReal.coe_mul]
  norm_num

/-- The constant added to a variance is a positive real. -/
theorem wEps_pos : ∃ c : ℝ, 0 < c ∧ wEps = (c : EReal) := by
  refine ⟨10995116 * (2 : ℝ) ^ (-40 : ℤ), by positivity, ?_⟩
  simp [wEps, Ideal.ofBits, Ideal.ieee, -EReal.coe_mul]

/-! ## Squares, sums and quotients that are never negative -/

/-- A square of an extended real is not negative. -/
theorem mul_self_nonneg (x : EReal) : 0 ≤ x * x := by
  induction x using EReal.rec with
  | bot => exact le_of_lt (by rw [EReal.bot_mul_bot]; exact EReal.zero_lt_top)
  | top => exact le_of_lt (by rw [EReal.top_mul_top]; exact EReal.zero_lt_top)
  | coe r => rw [← EReal.coe_mul]; exact EReal.coe_nonneg.mpr (_root_.mul_self_nonneg r)

/-- The quotient of a nonnegative extended real by `256.0` is not negative. -/
theorem div_w256_nonneg {s : EReal} (hs : 0 ≤ s) : 0 ≤ Ideal.div s w256 := by
  obtain ⟨c, hc, e⟩ := w256_pos
  rw [e, Ideal.div_coe hc.ne']
  exact EReal.mul_nonneg hs (EReal.coe_nonneg.mpr (by positivity))

/-- A nonnegative extended real plus the constant is positive. -/
theorem add_wEps_pos {s : EReal} (hs : 0 ≤ s) : 0 < s + wEps := by
  obtain ⟨c, hc, e⟩ := wEps_pos
  rw [e]
  exact lt_of_lt_of_le (EReal.coe_pos.mpr hc) (le_add_of_nonneg_left hs)

/-! ## The law -/

/-- Dividing by the square root of a positive extended real is multiplying by its reciprocal square root: at a
    positive real by the definition of the quotient by a nonzero real, at plus infinity because both are `a · 0`. -/
theorem div_sqrt_eq_mul_rsqrt (a v : EReal) (hv : 0 < v) : Ideal.div a (Ideal.sqrt v) = a * Ideal.rsqrt v := by
  induction v using EReal.rec with
  | bot => exact absurd hv (not_lt.mpr bot_le)
  | top =>
    rw [Ideal.sqrt_top, Ideal.rsqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.sqrt_coe, if_neg (not_lt.mpr hr.le), Ideal.rsqrt_coe, if_neg (not_lt.mpr hr.le), if_neg hr.ne',
      Ideal.div_coe hs, one_div]

/-! ## One normalisation, entry by entry -/

section Norm
variable {R n : ℕ}

/-- The mean of column `o`: the column's sum over `256.0`. -/
def colMean (h : Fin R → Fin n → EReal) (o : Fin n) : EReal := Ideal.div (∑ r : Fin R, h r o) w256

/-- The variance of column `o`: the sum of the squared deviations from the mean over `256.0`. -/
def colVar (h : Fin R → Fin n → EReal) (o : Fin n) : EReal :=
  Ideal.div (∑ r : Fin R, (h r o - colMean h o) * (h r o - colMean h o)) w256

/-- The scaled, centred entry TIMES the reciprocal square root of (variance plus constant). -/
def normK (h : Fin R → Fin n → EReal) (g : Fin n → EReal) (q : Fin R) (o : Fin n) : EReal :=
  g o * (h q o - colMean h o) * Ideal.rsqrt (colVar h o + wEps)

/-- The scaled, centred entry OVER the square root of (variance plus constant). -/
def normR (h : Fin R → Fin n → EReal) (g : Fin n → EReal) (q : Fin R) (o : Fin n) : EReal :=
  Ideal.div (g o * (h q o - colMean h o)) (Ideal.sqrt (colVar h o + wEps))

/-- A variance is not negative, whatever the entries. -/
theorem colVar_nonneg (h : Fin R → Fin n → EReal) (o : Fin n) : 0 ≤ colVar h o :=
  div_w256_nonneg (Finset.sum_nonneg fun r _ => mul_self_nonneg _)

/-- The two arrangements of a normalisation agree at every entry. -/
theorem normR_eq_normK (h : Fin R → Fin n → EReal) (g : Fin n → EReal) (q : Fin R) (o : Fin n) :
    normR h g q o = normK h g q o :=
  div_sqrt_eq_mul_rsqrt _ _ (add_wEps_pos (colVar_nonneg h o))

end Norm

/-! ## The whole stage -/

/-- A linear layer with the weight stored [out, in]: row `q` of the input against row `o` of the weight, plus the bias. -/
def lin {R m k : ℕ} (x : Fin R → Fin m → EReal) (W : Fin k → Fin m → EReal) (b : Fin k → EReal) (q : Fin R) (o : Fin k) :
    EReal :=
  (∑ c : Fin m, x q c * W o c) + b o

/-- The bilinear form with the per-graph table: `(hg · Wbil) ⊙ sf`. -/
def bil (hg : Fin 256 → Fin 20 → EReal) (Wbil : Fin 20 → Fin 64 → EReal) (sf : Fin 256 → Fin 64 → EReal)
    (q : Fin 256) (c : Fin 64) : EReal :=
  (∑ k : Fin 20, hg q k * Wbil k c) * sf q c

/-- A normalised, shifted, rectified layer. -/
def act {R n : ℕ} (h : Fin R → Fin n → EReal) (g be : Fin n → EReal) (q : Fin R) (o : Fin n) : EReal :=
  max (normK h g q o + be o) wZero

/-- The stage's output for graph `q`. -/
def tailSpec (hg : Fin 256 → Fin 20 → EReal) (sf : Fin 256 → Fin 64 → EReal) (Wbil : Fin 20 → Fin 64 → EReal)
    (fc1w : Fin 32 → Fin 64 → EReal) (fc1b : Fin 32 → EReal) (fc2w : Fin 8 → Fin 32 → EReal) (fc2b : Fin 8 → EReal)
    (fc3w : Fin 8 → EReal) (fc3b : EReal) (g1 be1 : Fin 32 → EReal) (g2 be2 : Fin 8 → EReal) (q : Fin 256) : EReal :=
  (∑ k : Fin 8,
      act (lin (act (lin (bil hg Wbil sf) fc1w fc1b) g1 be1) fc2w fc2b) g2 be2 q k * fc3w k) + fc3b

end Cert.Bridge.Tail

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.TailOps.lean ====
/-
  The array operations of the two arrangements, each read at an entry.

  One arrangement (K) builds a linear layer from a matrix product with a transposed weight into the zero matrix plus a
  bias row copied down the rows; a column mean from a sum along the first axis laid out as a row and divided by the
  splat of 256.0; a normalisation from those rows copied down the rows and the reciprocal square root. The other (R)
  builds the same layer from a contraction with the transposed weight plus the bias vector broadcast twice; the mean
  from a sum along the first axis from the zero word divided by a broadcast 256.0; the normalisation with a quotient
  by the square root. Each combinator below is such a group of operations over arrays of any number of rows and
  columns, with the entry it computes in terms of the entrywise functions `lin`, `bil`, `colMean`, `normK`,
  `normR`, `act`. Nothing here needs an entry to be finite.
-/
import Idealize.ShloMosaic.PureOps.Ideal.Laws
import Idealize.ShloMosaic.Lib.Pipeline.Value
import Idealize.ShloMosaic.Lib.ValueIdx
import Idealize.ShloMosaic.Lib.ValueLayout
import proofs.«143691_j84954453115059_2_alg».proof.Proof.TailAlgebra
import proofs.«143691_j84954453115059_2_alg».proof.Proof.LibHostRowForms
import proofs.«143691_j84954453115059_2_alg».proof.Proof.LibPlainProduct

noncomputable section

open scoped BigOperators

namespace Cert.Bridge.Tail

open Idealize.ShloMosaic Idealize.ShloMosaic.ValueIdx

/-- A reciprocal square root at an entry is the reciprocal square root of the entry. -/
theorem rsqrt_apply {s : Shape} {φ : FTy} (a : FVec Ideal s φ) (i : s.Idx) : rsqrt a i = Ideal.rsqrt (a i) := rfl
/-- A host square root at an entry is the square root of the entry. -/
theorem hostSqrt_apply {s : Shape} {φ : FTy} (a : FVec Ideal s φ) (i : s.Idx) : Host.sqrt a i = Ideal.sqrt (a i) := rfl
/-- A host quotient at an entry is the quotient of the entries. -/
theorem hostDivf_apply {s : Shape} {φ : FTy} (a b : FVec Ideal s φ) (i : s.Idx) :
    Host.divf a b i = Ideal.div (a i) (b i) := rfl

/-! ## Arrangement K -/

section K
variable {R m n k : ℕ}

/-- A sum along the first axis from the zero word, at column `o`: the sum of the column. -/
theorem colSum_apply (x : FVec Ideal ⟨2, ![R, n]⟩ .f32) (h : (⟨2, ![R, n]⟩ : Shape).Reduces [0] ⟨1, ![n]⟩)
    (hφ : FKind.Formats .f32) (hacc : (0x00000000#32 : BitVec 32) = FKind.add.neutral .f32 hφ) (o : Fin n) :
    multiReduction .add [0] ⟨1, ![n]⟩ x 0x00000000#32 h hφ hacc (ix1 o) = ∑ r : Fin R, x (ix2 r o) :=
  (Ideal.multiReduction_add_single x _ h hφ hacc (ix1 o)).trans
    (Finset.sum_congr rfl fun r _ => congrArg x (Cert.HostRowForms.lift_axis0 h o r))

/-- The row of column means: the column sums laid out as one row, over the splat of 256.0. -/
def meanRowK (h : (⟨2, ![R, n]⟩ : Shape).Reduces [0] ⟨1, ![n]⟩) (hφ : FKind.Formats .f32)
    (hacc : (0x00000000#32 : BitVec 32) = FKind.add.neutral .f32 hφ)
    (hsc : (⟨1, ![n]⟩ : Shape).ShapeCasts ⟨2, ![1, n]⟩) (x : FVec Ideal ⟨2, ![R, n]⟩ .f32) : FVec Ideal ⟨2, ![1, n]⟩ .f32 :=
  divf (shapeCast ⟨2, ![1, n]⟩ (multiReduction .add [0] ⟨1, ![n]⟩ x 0x00000000#32 h hφ hacc) hsc)
    (broadcast ⟨2, ![1, n]⟩ (Scalar.ofBits (F := Ideal) .f32 0x43800000#32))

theorem meanRowK_apply (h : (⟨2, ![R, n]⟩ : Shape).Reduces [0] ⟨1, ![n]⟩) (hφ : FKind.Formats .f32)
    (hacc : (0x00000000#32 : BitVec 32) = FKind.add.neutral .f32 hφ)
    (hsc : (⟨1, ![n]⟩ : Shape).ShapeCasts ⟨2, ![1, n]⟩) (x : FVec Ideal ⟨2, ![R, n]⟩ .f32) (u : Fin 1) (o : Fin n) :
    meanRowK h hφ hacc hsc x (ix2 u o) = colMean (fun r c => x (ix2 r c)) o := by
  unfold meanRowK colMean
  rw [divf_apply, broadcast_apply, shapeCast_a_1a_apply, colSum_apply]
  rfl

/-- The normalisation: gain row times centred entries, times the row of reciprocal square roots of (variance plus
    constant), every row copied down the rows. -/
def bnK (h : (⟨2, ![R, n]⟩ : Shape).Reduces [0] ⟨1, ![n]⟩) (hφ : FKind.Formats .f32)
    (hacc : (0x00000000#32 : BitVec 32) = FKind.add.neutral .f32 hφ)
    (hsc : (⟨1, ![n]⟩ : Shape).ShapeCasts ⟨2, ![1, n]⟩) (hsc1 : (⟨2, ![1, n]⟩ : Shape).ShapeCasts ⟨2, ![1, n]⟩)
    (hbc : (⟨2, ![1, n]⟩ : Shape).Broadcasts ⟨2, ![R, n]⟩)
    (x : FVec Ideal ⟨2, ![R, n]⟩ .f32) (g : FVec Ideal ⟨2, ![1, n]⟩ .f32) : FVec Ideal ⟨2, ![R, n]⟩ .f32 :=
  mulf
    (mulf (broadcastTo ⟨2, ![R, n]⟩ (shapeCast ⟨2, ![1, n]⟩ g hsc1) hbc)
      (subf x (broadcastTo ⟨2, ![R, n]⟩ (meanRowK h hφ hacc hsc x) hbc)))
    (broadcastTo ⟨2, ![R, n]⟩
      (rsqrt (addf
        (meanRowK h hφ hacc hsc
          (mulf (subf x (broadcastTo ⟨2, ![R, n]⟩ (meanRowK h hφ hacc hsc x) hbc))
            (subf x (broadcastTo ⟨2, ![R, n]⟩ (meanRowK h hφ hacc hsc x) hbc))))
        (broadcast ⟨2, ![1, n]⟩ (Scalar.ofBits (F := Ideal) .f32 0x3727C5AC#32)))) hbc)

theorem bnK_apply (h : (⟨2, ![R, n]⟩ : Shape).Reduces [0] ⟨1, ![n]⟩) (hφ : FKind.Formats .f32)
    (hacc : (0x00000000#32 : BitVec 32) = FKind.add.neutral .f32 hφ)
    (hsc : (⟨1, ![n]⟩ : Shape).ShapeCasts ⟨2, ![1, n]⟩) (hsc1 : (⟨2, ![1, n]⟩ : Shape).ShapeCasts ⟨2, ![1, n]⟩)
    (hbc : (⟨2, ![1, n]⟩ : Shape).Broadcasts ⟨2, ![R, n]⟩)
    (x : FVec Ideal ⟨2, ![R, n]⟩ .f32) (g : FVec Ideal ⟨2, ![1, n]⟩ .f32) (q : Fin R) (o : Fin n) :
    bnK h hφ hacc hsc hsc1 hbc x g (ix2 q o)
      = normK (fun r c => x (ix2 r c)) (fun c => g (ix2 (0 : Fin 1) c)) q o := by
  unfold bnK normK colVar
  simp only [mulf_apply, subf_apply, addf_apply, rsqrt_apply, broadcast_apply, broadcastTo_1b_ab_apply, shapeCast_self,
    meanRowK_apply]
  rfl

/-- Shift by a row copied down the rows, then rectify against the zero splat. -/
def actK (hsc1 : (⟨2, ![1, n]⟩ : Shape).ShapeCasts ⟨2, ![1, n]⟩) (hbc : (⟨2, ![1, n]⟩ : Shape).Broadcasts ⟨2, ![R, n]⟩)
    (y : FVec Ideal ⟨2, ![R, n]⟩ .f32) (be : FVec Ideal ⟨2, ![1, n]⟩ .f32) : FVec Ideal ⟨2, ![R, n]⟩ .f32 :=
  maximumf (addf y (broadcastTo ⟨2, ![R, n]⟩ (shapeCast ⟨2, ![1, n]⟩ be hsc1) hbc))
    (broadcast ⟨2, ![R, n]⟩ (Scalar.ofBits (F := Ideal) .f32 0x00000000#32))

theorem actK_apply (hsc1 : (⟨2, ![1, n]⟩ : Shape).ShapeCasts ⟨2, ![1, n]⟩) (hbc : (⟨2, ![1, n]⟩ : Shape).Broadcasts ⟨2, ![R, n]⟩)
    (y : FVec Ideal ⟨2, ![R, n]⟩ .f32) (be : FVec Ideal ⟨2, ![1, n]⟩ .f32) (q : Fin R) (o : Fin n) :
    actK hsc1 hbc y be (ix2 q o) = max (y (ix2 q o) + be (ix2 (0 : Fin 1) o)) wZero := by
  unfold actK
  rw [maximumf_apply, addf_apply, broadcast_apply, broadcastTo_1b_ab_apply, shapeCast_self]
  rfl

/-- A linear layer with the weight stored [out, in]: the product with the transposed weight into the zero matrix, plus
    the bias row copied down the rows. -/
def linK (D : DotDims ⟨2, ![R, m]⟩ ⟨2, ![m, k]⟩ ⟨2, ![R, k]⟩) (ht : (⟨2, ![k, m]⟩ : Shape).Transposes [1, 0] ⟨2, ![m, k]⟩)
    (hsc1 : (⟨2, ![1, k]⟩ : Shape).ShapeCasts ⟨2, ![1, k]⟩) (hbc : (⟨2, ![1, k]⟩ : Shape).Broadcasts ⟨2, ![R, k]⟩)
    (hb : FTy.bf16.bits < FTy.f32.bits)
    (x : FVec Ideal ⟨2, ![R, m]⟩ .f32) (W : FVec Ideal ⟨2, ![k, m]⟩ .f32) (b : FVec Ideal ⟨2, ![1, k]⟩ .f32) :
    FVec Ideal ⟨2, ![R, k]⟩ .f32 :=
  addf
    (matmul D none (truncf .bf16 x hb) (transpose ⟨2, ![m, k]⟩ [1, 0] (truncf .bf16 W hb) ht)
      (constant ⟨2, ![R, k]⟩ .f32 0x00000000#32))
    (broadcastTo ⟨2, ![R, k]⟩ (shapeCast ⟨2, ![1, k]⟩ b hsc1) hbc)

theorem linK_apply (D : DotDims ⟨2, ![R, m]⟩ ⟨2, ![m, k]⟩ ⟨2, ![R, k]⟩) (hD : D = DotDims.plain R m k)
    (ht : (⟨2, ![k, m]⟩ : Shape).Transposes [1, 0] ⟨2, ![m, k]⟩)
    (hsc1 : (⟨2, ![1, k]⟩ : Shape).ShapeCasts ⟨2, ![1, k]⟩) (hbc : (⟨2, ![1, k]⟩ : Shape).Broadcasts ⟨2, ![R, k]⟩)
    (hb : FTy.bf16.bits < FTy.f32.bits)
    (x : FVec Ideal ⟨2, ![R, m]⟩ .f32) (W : FVec Ideal ⟨2, ![k, m]⟩ .f32) (b : FVec Ideal ⟨2, ![1, k]⟩ .f32)
    (q : Fin R) (o : Fin k) :
    linK D ht hsc1 hbc hb x W b (ix2 q o)
      = lin (fun r c => x (ix2 r c)) (fun j c => W (ix2 j c)) (fun j => b (ix2 (0 : Fin 1) j)) q o := by
  unfold linK lin
  rw [addf_apply, PlainProduct.matmul_transposed_apply D hD, broadcastTo_1b_ab_apply, shapeCast_self]
  rfl

/-- The bilinear form: the product of the embeddings with the form's matrix into the zero matrix, times the table. -/
def bilK (D : DotDims ⟨2, ![R, m]⟩ ⟨2, ![m, k]⟩ ⟨2, ![R, k]⟩) (hsc0 : (⟨2, ![R, m]⟩ : Shape).ShapeCasts ⟨2, ![R, m]⟩)
    (hb : FTy.bf16.bits < FTy.f32.bits)
    (hg : FVec Ideal ⟨2, ![R, m]⟩ .f32) (Wb : FVec Ideal ⟨2, ![m, k]⟩ .f32) (sf : FVec Ideal ⟨2, ![R, k]⟩ .f32) :
    FVec Ideal ⟨2, ![R, k]⟩ .f32 :=
  mulf
    (matmul D none (truncf .bf16 (shapeCast ⟨2, ![R, m]⟩ hg hsc0) hb) (truncf .bf16 Wb hb)
      (constant ⟨2, ![R, k]⟩ .f32 0x00000000#32))
    sf

theorem bilK_apply (D : DotDims ⟨2, ![R, m]⟩ ⟨2, ![m, k]⟩ ⟨2, ![R, k]⟩) (hD : D = DotDims.plain R m k)
    (hsc0 : (⟨2, ![R, m]⟩ : Shape).ShapeCasts ⟨2, ![R, m]⟩) (hb : FTy.bf16.bits < FTy.f32.bits)
    (hg : FVec Ideal ⟨2, ![R, m]⟩ .f32) (Wb : FVec Ideal ⟨2, ![m, k]⟩ .f32) (sf : FVec Ideal ⟨2, ![R, k]⟩ .f32)
    (q : Fin R) (c : Fin k) :
    bilK D hsc0 hb hg Wb sf (ix2 q c) = (∑ j : Fin m, hg (ix2 q j) * Wb (ix2 j c)) * sf (ix2 q c) := by
  unfold bilK
  rw [mulf_apply, PlainProduct.matmul_of_plain D hD, shapeCast_self]
  rfl

end K

/-! ## Arrangement R -/

section R
variable {R m n k : ℕ}

/-- A vector broadcast to one row and the row broadcast down the rows: at (q, o) the vector at `o`. -/
def rowsR {α : Type} (hb1 : (⟨1, ![n]⟩ : Shape).BroadcastsInDim ⟨2, ![1, n]⟩ ![1])
    (hb2 : (⟨2, ![1, n]⟩ : Shape).BroadcastsInDim ⟨2, ![R, n]⟩ ![0, 1]) (v : (⟨1, ![n]⟩ : Shape).Idx → α) :
    (⟨2, ![R, n]⟩ : Shape).Idx → α :=
  broadcastInDim ⟨2, ![R, n]⟩ ![0, 1] hb2 (broadcastInDim ⟨2, ![1, n]⟩ ![1] hb1 v)

theorem rowsR_apply {α : Type} (hb1 : (⟨1, ![n]⟩ : Shape).BroadcastsInDim ⟨2, ![1, n]⟩ ![1])
    (hb2 : (⟨2, ![1, n]⟩ : Shape).BroadcastsInDim ⟨2, ![R, n]⟩ ![0, 1]) (v : (⟨1, ![n]⟩ : Shape).Idx → α)
    (q : Fin R) (o : Fin n) : rowsR hb1 hb2 v (ix2 q o) = v (ix1 o) := by
  unfold rowsR
  rw [Cert.HostRowForms.bcast_1b_ab_apply _ _ rfl, Cert.HostRowForms.bcast_b_1b_apply _ _ rfl]

/-- The vector of column means: the sum along the first axis from the zero word, over the broadcast 256.0. -/
def meanVecR (h' : (⟨2, ![R, n]⟩ : Shape).ReducesTo [0] ⟨1, ![n]⟩) (hu : 0 < (⟨0, ![]⟩ : Shape).numel)
    (hb0 : (⟨0, ![]⟩ : Shape).BroadcastsInDim ⟨1, ![n]⟩ ![]) (x : FVec Ideal ⟨2, ![R, n]⟩ .f32) : FVec Ideal ⟨1, ![n]⟩ .f32 :=
  Host.divf (Host.reduceAdd x (constant (F := Ideal) ⟨0, ![]⟩ .f32 0x00000000#32) h' hu)
    (broadcastInDim ⟨1, ![n]⟩ ![] hb0 (constant (F := Ideal) ⟨0, ![]⟩ .f32 0x43800000#32))

theorem meanVecR_apply (h' : (⟨2, ![R, n]⟩ : Shape).ReducesTo [0] ⟨1, ![n]⟩) (h : (⟨2, ![R, n]⟩ : Shape).Reduces [0] ⟨1, ![n]⟩)
    (hu : 0 < (⟨0, ![]⟩ : Shape).numel) (hb0 : (⟨0, ![]⟩ : Shape).BroadcastsInDim ⟨1, ![n]⟩ ![])
    (x : FVec Ideal ⟨2, ![R, n]⟩ .f32) (o : Fin n) :
    meanVecR h' hu hb0 x (ix1 o) = colMean (fun r c => x (ix2 r c)) o := by
  unfold meanVecR colMean
  rw [hostDivf_apply, Cert.HostRowForms.reduceAdd_cols x h' h hu, Cert.HostRowForms.bcast_scalar_apply]

/-- The normalisation: gain times centred entries over the square root of (variance plus constant), plus the shift;
    every vector broadcast to the rows. -/
def bnR (h' : (⟨2, ![R, n]⟩ : Shape).ReducesTo [0] ⟨1, ![n]⟩) (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![1, n]⟩ ![1])
    (hb2 : (⟨2, ![1, n]⟩ : Shape).BroadcastsInDim ⟨2, ![R, n]⟩ ![0, 1])
    (x : FVec Ideal ⟨2, ![R, n]⟩ .f32) (g be : FVec Ideal ⟨1, ![n]⟩ .f32) : FVec Ideal ⟨2, ![R, n]⟩ .f32 :=
  addf
    (Host.divf
      (mulf (rowsR hb1 hb2 g) (subf x (rowsR hb1 hb2 (meanVecR h' hu hb0 x))))
      (rowsR hb1 hb2
        (Host.sqrt (addf
          (meanVecR h' hu hb0
            (mulf (subf x (rowsR hb1 hb2 (meanVecR h' hu hb0 x))) (subf x (rowsR hb1 hb2 (meanVecR h' hu hb0 x)))))
          (broadcastInDim ⟨1, ![n]⟩ ![] hb0 (constant (F := Ideal) ⟨0, ![]⟩ .f32 0x3727C5AC#32))))))
    (rowsR hb1 hb2 be)

theorem bnR_apply (h' : (⟨2, ![R, n]⟩ : Shape).ReducesTo [0] ⟨1, ![n]⟩) (h : (⟨2, ![R, n]⟩ : Shape).Reduces [0] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![1, n]⟩ ![1])
    (hb2 : (⟨2, ![1, n]⟩ : Shape).BroadcastsInDim ⟨2, ![R, n]⟩ ![0, 1])
    (x : FVec Ideal ⟨2, ![R, n]⟩ .f32) (g be : FVec Ideal ⟨1, ![n]⟩ .f32) (q : Fin R) (o : Fin n) :
    bnR h' hu hb0 hb1 hb2 x g be (ix2 q o)
      = normK (fun r c => x (ix2 r c)) (fun c => g (ix1 c)) q o + be (ix1 o) := by
  rw [← normR_eq_normK]
  unfold bnR normR colVar
  simp only [addf_apply, mulf_apply, subf_apply, hostDivf_apply, hostSqrt_apply, rowsR_apply, meanVecR_apply h' h,
    Cert.HostRowForms.bcast_scalar_apply]
  rfl

/-- Rectify against the broadcast zero. -/
def reluR (hbz : (⟨0, ![]⟩ : Shape).BroadcastsInDim ⟨2, ![R, n]⟩ ![]) (y : FVec Ideal ⟨2, ![R, n]⟩ .f32) :
    FVec Ideal ⟨2, ![R, n]⟩ .f32 :=
  maximumf y (broadcastInDim ⟨2, ![R, n]⟩ ![] hbz (constant (F := Ideal) ⟨0, ![]⟩ .f32 0x00000000#32))

theorem reluR_apply (hbz : (⟨0, ![]⟩ : Shape).BroadcastsInDim ⟨2, ![R, n]⟩ ![]) (y : FVec Ideal ⟨2, ![R, n]⟩ .f32)
    (i : (⟨2, ![R, n]⟩ : Shape).Idx) : reluR hbz y i = max (y i) wZero := by
  unfold reluR
  rw [maximumf_apply, Cert.HostRowForms.bcast_scalar_apply]

/-- A linear layer with the weight stored [out, in]: the contraction with the transposed weight, plus the bias vector
    broadcast to the rows. -/
def linR (D : DotDims ⟨2, ![R, m]⟩ ⟨2, ![m, k]⟩ ⟨2, ![R, k]⟩) (ht : (⟨2, ![k, m]⟩ : Shape).Transposes [1, 0] ⟨2, ![m, k]⟩)
    (hb1 : (⟨1, ![k]⟩ : Shape).BroadcastsInDim ⟨2, ![1, k]⟩ ![1])
    (hb2 : (⟨2, ![1, k]⟩ : Shape).BroadcastsInDim ⟨2, ![R, k]⟩ ![0, 1])
    (x : FVec Ideal ⟨2, ![R, m]⟩ .f32) (W : FVec Ideal ⟨2, ![k, m]⟩ .f32) (b : FVec Ideal ⟨1, ![k]⟩ .f32) :
    FVec Ideal ⟨2, ![R, k]⟩ .f32 :=
  addf (Host.dotGeneral D none x (transpose ⟨2, ![m, k]⟩ [1, 0] W ht)) (rowsR hb1 hb2 b)

theorem linR_apply (D : DotDims ⟨2, ![R, m]⟩ ⟨2, ![m, k]⟩ ⟨2, ![R, k]⟩) (hD : D = DotDims.plain R m k)
    (ht : (⟨2, ![k, m]⟩ : Shape).Transposes [1, 0] ⟨2, ![m, k]⟩)
    (hb1 : (⟨1, ![k]⟩ : Shape).BroadcastsInDim ⟨2, ![1, k]⟩ ![1])
    (hb2 : (⟨2, ![1, k]⟩ : Shape).BroadcastsInDim ⟨2, ![R, k]⟩ ![0, 1])
    (x : FVec Ideal ⟨2, ![R, m]⟩ .f32) (W : FVec Ideal ⟨2, ![k, m]⟩ .f32) (b : FVec Ideal ⟨1, ![k]⟩ .f32)
    (q : Fin R) (o : Fin k) :
    linR D ht hb1 hb2 x W b (ix2 q o)
      = lin (fun r c => x (ix2 r c)) (fun j c => W (ix2 j c)) (fun j => b (ix1 j)) q o := by
  unfold linR lin
  rw [addf_apply, PlainProduct.dotGeneral_transposed_apply D hD, rowsR_apply]

/-- The bilinear form: the contraction of the embeddings with the form's matrix, times the table. -/
def bilR (D : DotDims ⟨2, ![R, m]⟩ ⟨2, ![m, k]⟩ ⟨2, ![R, k]⟩)
    (hg : FVec Ideal ⟨2, ![R, m]⟩ .f32) (Wb : FVec Ideal ⟨2, ![m, k]⟩ .f32) (sf : FVec Ideal ⟨2, ![R, k]⟩ .f32) :
    FVec Ideal ⟨2, ![R, k]⟩ .f32 :=
  mulf (Host.dotGeneral D none hg Wb) sf

theorem bilR_apply (D : DotDims ⟨2, ![R, m]⟩ ⟨2, ![m, k]⟩ ⟨2, ![R, k]⟩) (hD : D = DotDims.plain R m k)
    (hg : FVec Ideal ⟨2, ![R, m]⟩ .f32) (Wb : FVec Ideal ⟨2, ![m, k]⟩ .f32) (sf : FVec Ideal ⟨2, ![R, k]⟩ .f32)
    (q : Fin R) (c : Fin k) :
    bilR D hg Wb sf (ix2 q c) = (∑ j : Fin m, hg (ix2 q j) * Wb (ix2 j c)) * sf (ix2 q c) := by
  unfold bilR
  rw [mulf_apply, PlainProduct.dotGeneral_of_plain D hD]

end R

end Cert.Bridge.Tail

end
-- ==== Proof.TailKernel.lean ====
/-
  The last pipelined region's output buffer, entry by entry.

  The region has one grid point and every operand resident: it loads thirteen whole buffers, computes, and stores the
  whole [256, 1] result once, so what it leaves is its stored value. That value is three nested groups of operations:
  the first is the bilinear form, the first linear layer and the first normalisation up to (not including) its shift;
  the second is that shift and rectification, the second linear layer, its normalisation, shift and rectification; the
  third is the last linear layer. Each group is, operation for operation, a composition of the generic combinators
  `bilK`, `linK`, `bnK`, `actK` at this region's sizes (the three `_eq` statements, which hold by unfolding),
  and the combinators' entries are the entrywise functions of the specification.
-/
import proofs.«143691_j84954453115059_2_alg».proof.Proof.Gen.KernelIdeal.Frame
import proofs.«143691_j84954453115059_2_alg».proof.Proof.TailOps

noncomputable section

open scoped BigOperators

namespace Cert.Bridge.Tail

open Idealize.ShloMosaic Idealize.ShloMosaic.ValueIdx Cert.KernelIdeal Cert.KernelIdeal.Gen

/-- The zero offsets of a whole two-axis buffer, as a constant function. -/
theorem hz2 : (![0, 0] : Fin 2 → Nat) = fun _ => 0 := funext fun a => by fin_cases a <;> rfl

/-- The first group: bilinear form, first linear layer, first normalisation before its shift. -/
theorem pay2_eq (v0 : Vec Ideal S256x20 .f32) (v3 : Vec Ideal S20x64 .f32) (v6 : Vec Ideal S256x64 .f32)
    (v8 : Vec Ideal S32x64 .f32) (v13 v28 : Vec Ideal S1x32 .f32) :
    k2_pay2 (F := Ideal) v0 v3 v6 v8 v13 v28
      = bnK reduces_S256x32_S32 (.inl rfl) rfl shapeCasts_S32_S1x32 shapeCasts_S1x32_S1x32 broadcasts_S1x32_S256x32
          (linK dot_S256x64_S64x32_S256x32_1_0_0_1_n_n transposes_S32x64_p1_0_S64x32 shapeCasts_S1x32_S1x32
            broadcasts_S1x32_S256x32 bitsLt_bf16_f32
            (bilK dot_S256x20_S20x64_S256x64_1_0_0_1_n_n shapeCasts_S256x20_S256x20 bitsLt_bf16_f32 v0 v3 v6) v8 v13)
          v28 := rfl

/-- The second group: shift and rectification, second linear layer, second normalisation, shift, rectification. -/
theorem pay3_eq (v38 : FVec Ideal S256x32 .f32) (v39 : Vec Ideal S1x32 .f32) (v45 : Vec Ideal S8x32 .f32)
    (v50 v65 v76 : Vec Ideal S1x8 .f32) :
    k2_pay3 (F := Ideal) v38 v39 v45 v50 v65 v76
      = actK shapeCasts_S1x8_S1x8 broadcasts_S1x8_S256x8
          (bnK reduces_S256x8_S8 (.inl rfl) rfl shapeCasts_S8_S1x8 shapeCasts_S1x8_S1x8 broadcasts_S1x8_S256x8
            (linK dot_S256x32_S32x8_S256x8_1_0_0_1_n_n transposes_S8x32_p1_0_S32x8 shapeCasts_S1x8_S1x8
              broadcasts_S1x8_S256x8 bitsLt_bf16_f32
              (actK shapeCasts_S1x32_S1x32 broadcasts_S1x32_S256x32 v38 v39) v45 v50)
            v65)
          v76 := rfl

/-- The third group: the last linear layer. -/
theorem pay1_eq (v81 : FVec Ideal S256x8 .f32) (v82 : Vec Ideal S1x8 .f32) (v87 : Vec Ideal S1x1 .f32) :
    k2_pay1 (F := Ideal) v81 v82 v87
      = linK dot_S256x8_S8x1_S256x1_1_0_0_1_n_n transposes_S1x8_p1_0_S8x1 shapeCasts_S1x1_S1x1 broadcasts_S1x1_S256x1
          bitsLt_bf16_f32 v81 v82 v87 := rfl

/-- THE REGION'S OUTPUT at graph `q`: the specification at the entries of the thirteen operands (biases, gains and
    shifts are one-row matrices here). -/
theorem kernel_tail (x0 : Vec Ideal S256x20 .f32) (x1 : Vec Ideal S256x64 .f32) (x2 : Vec Ideal S20x64 .f32)
    (x3 : Vec Ideal S32x64 .f32) (x4 : Vec Ideal S1x32 .f32) (x5 : Vec Ideal S8x32 .f32) (x6 x7 : Vec Ideal S1x8 .f32)
    (x8 : Vec Ideal S1x1 .f32) (x9 x10 : Vec Ideal S1x32 .f32) (x11 x12 : Vec Ideal S1x8 .f32) (q : Fin 256) (u : Fin 1) :
    out2_13 (F := Ideal) x0 x1 x2 x3 x4 x5 x6 x7 x8 x9 x10 x11 x12 (ix2 q u)
      = tailSpec (fun r c => x0 (ix2 r c)) (fun r c => x1 (ix2 r c)) (fun j c => x2 (ix2 j c)) (fun j c => x3 (ix2 j c))
          (fun j => x4 (ix2 (0 : Fin 1) j)) (fun j c => x5 (ix2 j c)) (fun j => x6 (ix2 (0 : Fin 1) j))
          (fun j => x7 (ix2 (0 : Fin 1) j)) (x8 (ix2 (0 : Fin 1) (0 : Fin 1))) (fun j => x9 (ix2 (0 : Fin 1) j))
          (fun j => x10 (ix2 (0 : Fin 1) j)) (fun j => x11 (ix2 (0 : Fin 1) j)) (fun j => x12 (ix2 (0 : Fin 1) j)) q := by
  obtain rfl : u = 0 := Subsingleton.elim _ _
  unfold out2_13
  rw [View.canon_unit_zero hz2]
  simp only [View.ld_unit_zero (S := S256x20) hz2, View.ld_unit_zero (S := S20x64) hz2, View.ld_unit_zero (S := S256x64) hz2,
    View.ld_unit_zero (S := S32x64) hz2, View.ld_unit_zero (S := S1x32) hz2, View.ld_unit_zero (S := S8x32) hz2,
    View.ld_unit_zero (S := S1x8) hz2, View.ld_unit_zero (S := S1x1) hz2]
  rw [pay1_eq, pay3_eq, pay2_eq]
  simp only [linK_apply dot_S256x8_S8x1_S256x1_1_0_0_1_n_n rfl, linK_apply dot_S256x32_S32x8_S256x8_1_0_0_1_n_n rfl,
    linK_apply dot_S256x64_S64x32_S256x32_1_0_0_1_n_n rfl, bilK_apply dot_S256x20_S20x64_S256x64_1_0_0_1_n_n rfl,
    actK_apply,
    bnK_apply reduces_S256x8_S8 (.inl rfl) rfl shapeCasts_S8_S1x8 shapeCasts_S1x8_S1x8 broadcasts_S1x8_S256x8,
    bnK_apply reduces_S256x32_S32 (.inl rfl) rfl shapeCasts_S32_S1x32 shapeCasts_S1x32_S1x32 broadcasts_S1x32_S256x32]
  rfl

end Cert.Bridge.Tail

end
-- ==== Proof.TailRefForm.lean ====
/-
  The reference's last operations as a composition of generic combinators, entry by entry.

  From the graph embedding on, the reference applies: a contraction with the bilinear form's matrix and a product with
  the per-graph table; a contraction with the transposed first weight plus its bias; the column means and variances
  over the 256 graphs and the normalisation with a quotient by a square root; a rectification; the same with the
  second weight; and a contraction with the transposed last weight plus its bias. `refTail` is that composition of
  `bilR`, `linR`, `bnR`, `reluR` at these sizes over an abstract graph embedding; its entries are the entrywise
  functions of the specification (`ref_tail`).
-/
import proofs.«143691_j84954453115059_2_alg».proof.Proof.Gen.ReferenceIdeal
import proofs.«143691_j84954453115059_2_alg».proof.Proof.TailOps

noncomputable section

open scoped BigOperators

namespace Cert.Bridge.Tail

open Idealize.ShloMosaic Idealize.ShloMosaic.ValueIdx Cert.ReferenceIdeal Cert.ReferenceIdeal.Gen

/-- The reference's operations after the graph embedding `hg`, as a composition of the combinators. -/
def refTail (hg : FVec Ideal S256x20 .f32) (x1 : FVec Ideal S256x64 .f32) (x9 : FVec Ideal S20x64 .f32)
    (x10 : FVec Ideal S32x64 .f32) (x11 : FVec Ideal S32 .f32) (x12 : FVec Ideal S8x32 .f32) (x13 : FVec Ideal S8 .f32)
    (x14 : FVec Ideal S1x8 .f32) (x15 : FVec Ideal S1 .f32) (x16 x17 : FVec Ideal S32 .f32) (x18 x19 : FVec Ideal S8 .f32) :
    FVec Ideal S256x1 .f32 :=
  linR dot_S256x8_S8x1_S256x1_1_0_0_1_n_n transposes_S1x8_S8x1_1_0 bcast_S1_S1x1_1 bcast_S1x1_S256x1_0_1
    (reluR bcast_S_S256x8
      (bnR reducesTo_S256x8_S8_d0 h_S_ bcast_S_S8 bcast_S8_S1x8_1 bcast_S1x8_S256x8_0_1
        (linR dot_S256x32_S32x8_S256x8_1_0_0_1_n_n transposes_S8x32_S32x8_1_0 bcast_S8_S1x8_1 bcast_S1x8_S256x8_0_1
          (reluR bcast_S_S256x32
            (bnR reducesTo_S256x32_S32_d0 h_S_ bcast_S_S32 bcast_S32_S1x32_1 bcast_S1x32_S256x32_0_1
              (linR dot_S256x64_S64x32_S256x32_1_0_0_1_n_n transposes_S32x64_S64x32_1_0 bcast_S32_S1x32_1
                bcast_S1x32_S256x32_0_1 (bilR dot_S256x20_S20x64_S256x64_1_0_0_1_n_n hg x9 x1) x10 x11)
              x16 x17))
          x12 x13)
        x18 x19))
    x14 x15

/-- THE REFERENCE'S TAIL at graph `q`: the specification at the entries of the operands (biases, gains and shifts are
    vectors here). -/
theorem ref_tail (hg : FVec Ideal S256x20 .f32) (x1 : FVec Ideal S256x64 .f32) (x9 : FVec Ideal S20x64 .f32)
    (x10 : FVec Ideal S32x64 .f32) (x11 : FVec Ideal S32 .f32) (x12 : FVec Ideal S8x32 .f32) (x13 : FVec Ideal S8 .f32)
    (x14 : FVec Ideal S1x8 .f32) (x15 : FVec Ideal S1 .f32) (x16 x17 : FVec Ideal S32 .f32) (x18 x19 : FVec Ideal S8 .f32)
    (q : Fin 256) (u : Fin 1) :
    refTail hg x1 x9 x10 x11 x12 x13 x14 x15 x16 x17 x18 x19 (ix2 q u)
      = tailSpec (fun r c => hg (ix2 r c)) (fun r c => x1 (ix2 r c)) (fun j c => x9 (ix2 j c)) (fun j c => x10 (ix2 j c))
          (fun j => x11 (ix1 j)) (fun j c => x12 (ix2 j c)) (fun j => x13 (ix1 j)) (fun j => x14 (ix2 (0 : Fin 1) j))
          (x15 (ix1 (0 : Fin 1))) (fun j => x16 (ix1 j)) (fun j => x17 (ix1 j)) (fun j => x18 (ix1 j))
          (fun j => x19 (ix1 j)) q := by
  obtain rfl : u = 0 := Subsingleton.elim _ _
  unfold refTail
  simp only [linR_apply dot_S256x8_S8x1_S256x1_1_0_0_1_n_n rfl, linR_apply dot_S256x32_S32x8_S256x8_1_0_0_1_n_n rfl,
    linR_apply dot_S256x64_S64x32_S256x32_1_0_0_1_n_n rfl, bilR_apply dot_S256x20_S20x64_S256x64_1_0_0_1_n_n rfl,
    reluR_apply, bnR_apply reducesTo_S256x8_S8_d0 (by decide), bnR_apply reducesTo_S256x32_S32_d0 (by decide)]
  rfl

end Cert.Bridge.Tail

end
-- ==== Proof.TailRef.lean ====
/-
  The reference's result is the composition `refTail` applied to its graph embedding.

  Each of the reference's last 69 operations is one operation of a combinator of `refTail`, in the same order on the
  same operands, so unfolding both sides down to the graph embedding (kept abstract) leaves the same term.
-/
import proofs.«143691_j84954453115059_2_alg».proof.Proof.RefRead
import proofs.«143691_j84954453115059_2_alg».proof.Proof.TailRefForm

noncomputable section

namespace Cert.Bridge.Tail

open Idealize.ShloMosaic Idealize.ShloMosaic.ValueIdx Cert.ReferenceIdeal Cert.ReferenceIdeal.Gen Cert.ReferenceIdeal.ReadP

/-- The reference's result is `refTail` of its graph embedding and the remaining arguments. -/
theorem ref_eq (x0 : (⟨S100000x128, .f32⟩ : BufTy).Contents (Elt Ideal)) (x1 : (⟨S256x64, .f32⟩ : BufTy).Contents (Elt Ideal))
    (x2 x3 : (⟨S1600000, .i32⟩ : BufTy).Contents (Elt Ideal)) (x4 : (⟨S100000, .i32⟩ : BufTy).Contents (Elt Ideal))
    (x5 : (⟨S100x128, .f32⟩ : BufTy).Contents (Elt Ideal)) (x6 : (⟨S100, .f32⟩ : BufTy).Contents (Elt Ideal))
    (x7 : (⟨S20x100, .f32⟩ : BufTy).Contents (Elt Ideal)) (x8 : (⟨S20, .f32⟩ : BufTy).Contents (Elt Ideal))
    (x9 : (⟨S20x64, .f32⟩ : BufTy).Contents (Elt Ideal)) (x10 : (⟨S32x64, .f32⟩ : BufTy).Contents (Elt Ideal))
    (x11 : (⟨S32, .f32⟩ : BufTy).Contents (Elt Ideal)) (x12 : (⟨S8x32, .f32⟩ : BufTy).Contents (Elt Ideal))
    (x13 : (⟨S8, .f32⟩ : BufTy).Contents (Elt Ideal)) (x14 : (⟨S1x8, .f32⟩ : BufTy).Contents (Elt Ideal))
    (x15 : (⟨S1, .f32⟩ : BufTy).Contents (Elt Ideal)) (x16 x17 : (⟨S32, .f32⟩ : BufTy).Contents (Elt Ideal))
    (x18 x19 : (⟨S8, .f32⟩ : BufTy).Contents (Elt Ideal)) :
    val_main_v133 (F := Ideal) x0 x1 x2 x3 x4 x5 x6 x7 x8 x9 x10 x11 x12 x13 x14 x15 x16 x17 x18 x19
      = refTail (val_main_v64 (F := Ideal) x0 x2 x3 x4 x5 x6 x7 x8) x1 x9 x10 x11 x12 x13 x14 x15 x16 x17 x18 x19 := by
  unfold
    val_main_v133 val_main_v132 val_main_v131 val_main_v130 val_main_v129 val_main_v128 val_main_call5_v0 val_main_call5_cst
    val_main_v127 val_main_v126 val_main_v125 val_main_v124 val_main_v123 val_main_v122 val_main_v121 val_main_v120
    val_main_v119 val_main_cst_25 val_main_v118 val_main_v117 val_main_v116 val_main_v115 val_main_v114 val_main_v113
    val_main_v112 val_main_v111 val_main_cst_24 val_main_v110 val_main_cst_23 val_main_v109 val_main_v108 val_main_v107
    val_main_v106 val_main_v105 val_main_v104 val_main_cst_22 val_main_v103 val_main_cst_21 val_main_v102 val_main_v101
    val_main_v100 val_main_v99 val_main_v98 val_main_v97 val_main_call4_v0 val_main_call4_cst val_main_v96 val_main_v95
    val_main_v94 val_main_v93 val_main_v92 val_main_v91 val_main_v90 val_main_v89 val_main_v88 val_main_cst_20
    val_main_v87 val_main_v86 val_main_v85 val_main_v84 val_main_v83 val_main_v82 val_main_v81 val_main_v80
    val_main_cst_19 val_main_v79 val_main_cst_18 val_main_v78 val_main_v77 val_main_v76 val_main_v75 val_main_v74
    val_main_v73 val_main_cst_17 val_main_v72 val_main_cst_16 val_main_v71 val_main_v70 val_main_v69 val_main_v68
    val_main_v67 val_main_v66 val_main_v65
  generalize val_main_v64 (F := Ideal) x0 x2 x3 x4 x5 x6 x7 x8 = hg
  rfl

end Cert.Bridge.Tail

end
-- ==== Proof.Tail.lean ====
/-
  The last region against the reference's last operations.

  Both sides, read at graph `q`, are the same entrywise function `tailSpec` of the same entries: the region's output
  buffer by `kernel_tail`, the reference's result by `ref_eq` and `ref_tail`. The region receives the seven vectors
  (three biases, two gains, two shifts) as one-row matrices; entry (0, k) of each is entry k of the vector. The one law
  between the two arrangements — a quotient by a square root against a product with a reciprocal square root — holds at
  every extended real (the variance plus the constant is positive whatever the entries are), so no entry needs to be
  finite; the finiteness hypotheses of `tail_eq` are not used.
-/
import proofs.«143691_j84954453115059_2_alg».proof.Proof.TailKernel
import proofs.«143691_j84954453115059_2_alg».proof.Proof.TailRef
import proofs.«143691_j84954453115059_2_alg».proof.Proof.LibRealEntries

noncomputable section

namespace Cert.Bridge.Tail

open Idealize.ShloMosaic Idealize.ShloMosaic.ValueIdx Cert.LibRealEntries

/-- The specification depends on the seven vectors only through their entries. -/
theorem tailSpec_congr {hg : Fin 256 → Fin 20 → EReal} {sf : Fin 256 → Fin 64 → EReal} {Wbil : Fin 20 → Fin 64 → EReal}
    {fc1w : Fin 32 → Fin 64 → EReal} {fc2w : Fin 8 → Fin 32 → EReal} {fc3w : Fin 8 → EReal}
    {fc1b fc1b' g1 g1' be1 be1' : Fin 32 → EReal} {fc2b fc2b' g2 g2' be2 be2' : Fin 8 → EReal} {fc3b fc3b' : EReal}
    (e1 : fc1b = fc1b') (e2 : fc2b = fc2b') (e3 : fc3b = fc3b') (e4 : g1 = g1') (e5 : be1 = be1') (e6 : g2 = g2')
    (e7 : be2 = be2') (q : Fin 256) :
    tailSpec hg sf Wbil fc1w fc1b fc2w fc2b fc3w fc3b g1 be1 g2 be2 q
      = tailSpec hg sf Wbil fc1w fc1b' fc2w fc2b' fc3w fc3b' g1' be1' g2' be2' q := by
  subst e1 e2 e3 e4 e5 e6 e7; rfl

/-- The region's output buffer, given the graph embedding and the reference's arguments (the seven vectors as one-row
    matrices with the same entries), is the reference's result — at every extended real. -/
theorem tail_eq_all (x0 : (⟨Cert.ReferenceIdeal.S100000x128, .f32⟩ : BufTy).Contents (Elt Ideal)) (x1 : (⟨Cert.ReferenceIdeal.S256x64, .f32⟩ : BufTy).Contents (Elt Ideal))
    (x2 x3 : (⟨Cert.ReferenceIdeal.S1600000, .i32⟩ : BufTy).Contents (Elt Ideal)) (x4 : (⟨Cert.ReferenceIdeal.S100000, .i32⟩ : BufTy).Contents (Elt Ideal))
    (x5 : (⟨Cert.ReferenceIdeal.S100x128, .f32⟩ : BufTy).Contents (Elt Ideal)) (x6 : (⟨Cert.ReferenceIdeal.S100, .f32⟩ : BufTy).Contents (Elt Ideal))
    (x7 : (⟨Cert.ReferenceIdeal.S20x100, .f32⟩ : BufTy).Contents (Elt Ideal)) (x8 : (⟨Cert.ReferenceIdeal.S20, .f32⟩ : BufTy).Contents (Elt Ideal))
    (x9 : (⟨Cert.ReferenceIdeal.S20x64, .f32⟩ : BufTy).Contents (Elt Ideal)) (x10 : (⟨Cert.ReferenceIdeal.S32x64, .f32⟩ : BufTy).Contents (Elt Ideal))
    (x11 : (⟨Cert.ReferenceIdeal.S32, .f32⟩ : BufTy).Contents (Elt Ideal)) (x12 : (⟨Cert.ReferenceIdeal.S8x32, .f32⟩ : BufTy).Contents (Elt Ideal))
    (x13 : (⟨Cert.ReferenceIdeal.S8, .f32⟩ : BufTy).Contents (Elt Ideal)) (x14 : (⟨Cert.ReferenceIdeal.S1x8, .f32⟩ : BufTy).Contents (Elt Ideal))
    (x15 : (⟨Cert.ReferenceIdeal.S1, .f32⟩ : BufTy).Contents (Elt Ideal)) (x16 x17 : (⟨Cert.ReferenceIdeal.S32, .f32⟩ : BufTy).Contents (Elt Ideal))
    (x18 x19 : (⟨Cert.ReferenceIdeal.S8, .f32⟩ : BufTy).Contents (Elt Ideal))
    (r11 r16 r17 : Vec Ideal Cert.KernelIdeal.S1x32 .f32) (r13 r18 r19 : Vec Ideal Cert.KernelIdeal.S1x8 .f32)
    (r15 : Vec Ideal Cert.KernelIdeal.S1x1 .f32)
    (hr11 : ∀ k : Fin 32, r11 (ix2 0 k) = x11 (ix1 k)) (hr16 : ∀ k : Fin 32, r16 (ix2 0 k) = x16 (ix1 k))
    (hr17 : ∀ k : Fin 32, r17 (ix2 0 k) = x17 (ix1 k)) (hr13 : ∀ k : Fin 8, r13 (ix2 0 k) = x13 (ix1 k))
    (hr18 : ∀ k : Fin 8, r18 (ix2 0 k) = x18 (ix1 k)) (hr19 : ∀ k : Fin 8, r19 (ix2 0 k) = x19 (ix1 k))
    (hr15 : r15 (ix2 0 0) = x15 (ix1 0)) :
    Cert.KernelIdeal.Gen.out2_13 (F := Ideal)
        (Cert.ReferenceIdeal.ReadP.val_main_v64 (F := Ideal) x0 x2 x3 x4 x5 x6 x7 x8) x1 x9 x10 r11 x12 r13 x14 r15 r16 r17 r18 r19
      = Cert.ReferenceIdeal.ReadP.val_main_v133 (F := Ideal) x0 x1 x2 x3 x4 x5 x6 x7 x8 x9 x10 x11 x12 x13 x14 x15 x16 x17 x18 x19 := by
  funext i
  obtain ⟨q, u, rfl⟩ : ∃ (q : Fin 256) (u : Fin 1), i = ix2 q u := ⟨i 0, i 1, eq_ix2 i⟩
  rw [ref_eq, ref_tail]
  refine (kernel_tail _ _ _ _ _ _ _ _ _ _ _ _ _ q u).trans ?_
  exact tailSpec_congr (funext hr11) (funext hr13) hr15 (funext hr16) (funext hr17) (funext hr18) (funext hr19) q

/-- The same with the finiteness of the graph embedding and of the arguments among the hypotheses (they are not
    needed). -/
theorem tail_eq (x0 : (⟨Cert.ReferenceIdeal.S100000x128, .f32⟩ : BufTy).Contents (Elt Ideal)) (x1 : (⟨Cert.ReferenceIdeal.S256x64, .f32⟩ : BufTy).Contents (Elt Ideal))
    (x2 x3 : (⟨Cert.ReferenceIdeal.S1600000, .i32⟩ : BufTy).Contents (Elt Ideal)) (x4 : (⟨Cert.ReferenceIdeal.S100000, .i32⟩ : BufTy).Contents (Elt Ideal))
    (x5 : (⟨Cert.ReferenceIdeal.S100x128, .f32⟩ : BufTy).Contents (Elt Ideal)) (x6 : (⟨Cert.ReferenceIdeal.S100, .f32⟩ : BufTy).Contents (Elt Ideal))
    (x7 : (⟨Cert.ReferenceIdeal.S20x100, .f32⟩ : BufTy).Contents (Elt Ideal)) (x8 : (⟨Cert.ReferenceIdeal.S20, .f32⟩ : BufTy).Contents (Elt Ideal))
    (x9 : (⟨Cert.ReferenceIdeal.S20x64, .f32⟩ : BufTy).Contents (Elt Ideal)) (x10 : (⟨Cert.ReferenceIdeal.S32x64, .f32⟩ : BufTy).Contents (Elt Ideal))
    (x11 : (⟨Cert.ReferenceIdeal.S32, .f32⟩ : BufTy).Contents (Elt Ideal)) (x12 : (⟨Cert.ReferenceIdeal.S8x32, .f32⟩ : BufTy).Contents (Elt Ideal))
    (x13 : (⟨Cert.ReferenceIdeal.S8, .f32⟩ : BufTy).Contents (Elt Ideal)) (x14 : (⟨Cert.ReferenceIdeal.S1x8, .f32⟩ : BufTy).Contents (Elt Ideal))
    (x15 : (⟨Cert.ReferenceIdeal.S1, .f32⟩ : BufTy).Contents (Elt Ideal)) (x16 x17 : (⟨Cert.ReferenceIdeal.S32, .f32⟩ : BufTy).Contents (Elt Ideal))
    (x18 x19 : (⟨Cert.ReferenceIdeal.S8, .f32⟩ : BufTy).Contents (Elt Ideal))
    (r11 r16 r17 : Vec Ideal Cert.KernelIdeal.S1x32 .f32) (r13 r18 r19 : Vec Ideal Cert.KernelIdeal.S1x8 .f32)
    (r15 : Vec Ideal Cert.KernelIdeal.S1x1 .f32)
    (hr11 : ∀ k : Fin 32, r11 (ix2 0 k) = x11 (ix1 k)) (hr16 : ∀ k : Fin 32, r16 (ix2 0 k) = x16 (ix1 k))
    (hr17 : ∀ k : Fin 32, r17 (ix2 0 k) = x17 (ix1 k)) (hr13 : ∀ k : Fin 8, r13 (ix2 0 k) = x13 (ix1 k))
    (hr18 : ∀ k : Fin 8, r18 (ix2 0 k) = x18 (ix1 k)) (hr19 : ∀ k : Fin 8, r19 (ix2 0 k) = x19 (ix1 k))
    (hr15 : r15 (ix2 0 0) = x15 (ix1 0))
    (hhg : ∀ i, IsReal (Cert.ReferenceIdeal.ReadP.val_main_v64 (F := Ideal) x0 x2 x3 x4 x5 x6 x7 x8 i))
    (h1 : ∀ i, IsReal (x1 i)) (h9 : ∀ i, IsReal (x9 i)) (h10 : ∀ i, IsReal (x10 i)) (h11 : ∀ i, IsReal (x11 i))
    (h12 : ∀ i, IsReal (x12 i)) (h13 : ∀ i, IsReal (x13 i)) (h14 : ∀ i, IsReal (x14 i)) (h15 : ∀ i, IsReal (x15 i))
    (h16 : ∀ i, IsReal (x16 i)) (h17 : ∀ i, IsReal (x17 i)) (h18 : ∀ i, IsReal (x18 i)) (h19 : ∀ i, IsReal (x19 i)) :
    Cert.KernelIdeal.Gen.out2_13 (F := Ideal)
        (Cert.ReferenceIdeal.ReadP.val_main_v64 (F := Ideal) x0 x2 x3 x4 x5 x6 x7 x8) x1 x9 x10 r11 x12 r13 x14 r15 r16 r17 r18 r19
      = Cert.ReferenceIdeal.ReadP.val_main_v133 (F := Ideal) x0 x1 x2 x3 x4 x5 x6 x7 x8 x9 x10 x11 x12 x13 x14 x15 x16 x17 x18 x19 :=
  tail_eq_all x0 x1 x2 x3 x4 x5 x6 x7 x8 x9 x10 x11 x12 x13 x14 x15 x16 x17 x18 x19 r11 r16 r17 r13 r18 r19 r15 hr11 hr16 hr17 hr13 hr18 hr19 hr15

end Cert.Bridge.Tail

end
-- ==== Proof.Bridge.lean ====
/-
  The two idealized programs compute one function of the arguments.

  The kernel's result is the third region's body applied to the per-graph mean of its second layer and to the
  arguments; the reference's is its last operation's value. For real feature, weight and bias entries the kernel's
  per-graph mean (project, aggregate, bias, maximum, twice; then the mean over each graph's nodes) is the reference's
  (aggregate, project, bias, maximum, twice; then the same mean), and on that common array the kernel's body and the
  reference's remaining operations agree at every extended real.
-/
import proofs.«143691_j84954453115059_2_alg».proof.Proof.Layers
import proofs.«143691_j84954453115059_2_alg».proof.Proof.Tail
import Idealize.ShloMosaic.Lib.ValueIdx
import Idealize.ShloMosaic.Lib.Pipeline.Value

set_option maxRecDepth 16384

noncomputable section

namespace Cert.Bridge

open Idealize.ShloMosaic Idealize.ShloMosaic.ValueIdx Cert.LibRealEntries

/-- A vector laid out as a one-row matrix, read at its row's entry `k`, is the vector's entry `k`. -/
theorem row_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  (shapeCast_addUnit_apply ![n] v h (ix2 (0 : Fin 1) k)).trans
    (congrArg v (funext fun a => by match a with | ⟨0, _⟩ => rfl))

/-- The kernel's composed result term equals the reference's result, for real features, weights and biases of the two
    graph layers. -/
theorem kernel_eq_reference (x0 : (⟨Cert.ReferenceIdeal.S100000x128, .f32⟩ : BufTy).Contents (Elt Ideal)) (x1 : (⟨Cert.ReferenceIdeal.S256x64, .f32⟩ : BufTy).Contents (Elt Ideal))
    (x2 x3 : (⟨Cert.ReferenceIdeal.S1600000, .i32⟩ : BufTy).Contents (Elt Ideal)) (x4 : (⟨Cert.ReferenceIdeal.S100000, .i32⟩ : BufTy).Contents (Elt Ideal))
    (x5 : (⟨Cert.ReferenceIdeal.S100x128, .f32⟩ : BufTy).Contents (Elt Ideal)) (x6 : (⟨Cert.ReferenceIdeal.S100, .f32⟩ : BufTy).Contents (Elt Ideal))
    (x7 : (⟨Cert.ReferenceIdeal.S20x100, .f32⟩ : BufTy).Contents (Elt Ideal)) (x8 : (⟨Cert.ReferenceIdeal.S20, .f32⟩ : BufTy).Contents (Elt Ideal))
    (x9 : (⟨Cert.ReferenceIdeal.S20x64, .f32⟩ : BufTy).Contents (Elt Ideal)) (x10 : (⟨Cert.ReferenceIdeal.S32x64, .f32⟩ : BufTy).Contents (Elt Ideal))
    (x11 : (⟨Cert.ReferenceIdeal.S32, .f32⟩ : BufTy).Contents (Elt Ideal)) (x12 : (⟨Cert.ReferenceIdeal.S8x32, .f32⟩ : BufTy).Contents (Elt Ideal))
    (x13 : (⟨Cert.ReferenceIdeal.S8, .f32⟩ : BufTy).Contents (Elt Ideal)) (x14 : (⟨Cert.ReferenceIdeal.S1x8, .f32⟩ : BufTy).Contents (Elt Ideal))
    (x15 : (⟨Cert.ReferenceIdeal.S1, .f32⟩ : BufTy).Contents (Elt Ideal)) (x16 x17 : (⟨Cert.ReferenceIdeal.S32, .f32⟩ : BufTy).Contents (Elt Ideal))
    (x18 x19 : (⟨Cert.ReferenceIdeal.S8, .f32⟩ : BufTy).Contents (Elt Ideal))
    (h0 : ∀ i, IsReal (x0 i)) (h5 : ∀ i, IsReal (x5 i)) (h6 : ∀ i, IsReal (x6 i)) (h7 : ∀ i, IsReal (x7 i))
    (h8 : ∀ i, IsReal (x8 i)) :
    Cert.KernelIdeal.Gen.out2_13 (F := Ideal)
        (kHg (F := Ideal) (kH2 (F := Ideal) (kAgg2 (F := Ideal)
          (reg1 (kAgg1 (F := Ideal) (reg0 x0 (kW1T (F := Ideal) x5)) x2 x3)
            (fun i => shapeCast Cert.KernelIdeal.S1x100 x6 Cert.KernelIdeal.Facts₀.shapeCasts_S100_S1x100 i) (kW2T (F := Ideal) x7)) x2 x3) x8) x4)
        x1 x9 x10 (fun i => shapeCast Cert.KernelIdeal.S1x32 x11 Cert.KernelIdeal.Facts₀.shapeCasts_S32_S1x32 i) x12 (fun i => shapeCast Cert.KernelIdeal.S1x8 x13 Cert.KernelIdeal.Facts₀.shapeCasts_S8_S1x8 i) x14
        (fun i => shapeCast Cert.KernelIdeal.S1x1 x15 Cert.KernelIdeal.Facts₀.shapeCasts_S1_S1x1 i) (fun i => shapeCast Cert.KernelIdeal.S1x32 x16 Cert.KernelIdeal.Facts₀.shapeCasts_S32_S1x32 i) (fun i => shapeCast Cert.KernelIdeal.S1x32 x17 Cert.KernelIdeal.Facts₀.shapeCasts_S32_S1x32 i)
        (fun i => shapeCast Cert.KernelIdeal.S1x8 x18 Cert.KernelIdeal.Facts₀.shapeCasts_S8_S1x8 i) (fun i => shapeCast Cert.KernelIdeal.S1x8 x19 Cert.KernelIdeal.Facts₀.shapeCasts_S8_S1x8 i)
      = Cert.ReferenceIdeal.ReadP.val_main_v133 (F := Ideal) x0 x1 x2 x3 x4 x5 x6 x7 x8 x9 x10 x11 x12 x13 x14 x15 x16 x17 x18 x19 := by
  obtain ⟨hl, -⟩ := Cert.Bridge.Layers.layers_eq x0 x2 x3 x4 x5 x6 x7 x8
    (fun i => shapeCast Cert.KernelIdeal.S1x100 x6 Cert.KernelIdeal.Facts₀.shapeCasts_S100_S1x100 i) (fun k => row_apply _ _ k) h0 h5 h6 h7 h8
  rw [hl]
  exact Cert.Bridge.Tail.tail_eq_all x0 x1 x2 x3 x4 x5 x6 x7 x8 x9 x10 x11 x12 x13 x14 x15 x16 x17 x18 x19
    _ _ _ _ _ _ _
    (fun k => row_apply _ _ k) (fun k => row_apply _ _ k) (fun k => row_apply _ _ k)
    (fun k => row_apply _ _ k) (fun k => row_apply _ _ k) (fun k => row_apply _ _ k) (row_apply _ _ 0)

end Cert.Bridge

end
-- ==== Proof.lean ====
/-
  The certificate's five claims.

  The three frames are generated: both kernels' whole, the reference's as its run with the result dropped. The ideal
  pass rewrote no operation, so the kernel's idealization is its own text read over the extended reals. The value claim:
  the idealized kernel projects each layer's rows BEFORE the mean aggregation over incoming edges, the reference after;
  both then take the per-graph mean and run the same bilinear product and two batch-normalised layers, the kernel
  multiplying by the inverse square root where the reference divides by the square root. For finite inputs every entry
  met in the two graph layers is a real number, a finite sum and a division by a nonzero real distribute over the
  contraction with the weight matrix, and the layers agree entry by entry; the tail agrees at every extended real.
-/
import proofs.«143691_j84954453115059_2_alg».proof.Defs
import proofs.«143691_j84954453115059_2_alg».proof.Proof.Gen.Kernel
import proofs.«143691_j84954453115059_2_alg».proof.Proof.Gen.Kernel.Skeleton
import proofs.«143691_j84954453115059_2_alg».proof.Proof.Gen.Kernel.Launch
import proofs.«143691_j84954453115059_2_alg».proof.Proof.Gen.Kernel.Points
import proofs.«143691_j84954453115059_2_alg».proof.Proof.Gen.Kernel.Frame
import proofs.«143691_j84954453115059_2_alg».proof.Proof.Gen.KernelIdeal
import proofs.«143691_j84954453115059_2_alg».proof.Proof.Gen.KernelIdeal.Skeleton
import proofs.«143691_j84954453115059_2_alg».proof.Proof.Gen.KernelIdeal.Launch
import proofs.«143691_j84954453115059_2_alg».proof.Proof.Gen.KernelIdeal.Points
import proofs.«143691_j84954453115059_2_alg».proof.Proof.Gen.KernelIdeal.Frame
import proofs.«143691_j84954453115059_2_alg».proof.Proof.Gen.ReferenceIdeal
import proofs.«143691_j84954453115059_2_alg».proof.Proof.RefRun
import proofs.«143691_j84954453115059_2_alg».proof.Proof.RefRead
import proofs.«143691_j84954453115059_2_alg».proof.Proof.Gen.Pre_finite_inputs
import proofs.«143691_j84954453115059_2_alg».proof.Proof.KernelRun
import proofs.«143691_j84954453115059_2_alg».proof.Proof.KernelValue
import proofs.«143691_j84954453115059_2_alg».proof.Proof.FiniteArgsAt
import proofs.«143691_j84954453115059_2_alg».proof.Proof.Bridge
import Idealize.ShloMosaic.Adequacy
import Idealize.ShloMosaic.Init

set_option maxRecDepth 16384

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both idealized programs run; the kernel's result array ends at its composed
    term of the arguments, the reference's at its last operation's value, and for finite arguments these are equal. -/
theorem algebraic : Cert.algebraic_KernelIdeal_ReferenceIdeal := by
  intro m ρ m' ρ' hpre hagree
  refine ⟨fun c => Cert.KernelIdeal.Gen.W12 m ρ c (Proc.devRef .tc Cert.KernelIdeal.main_v65),
    Cert.Bridge.Run.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15, a16, a17, a18, a19⟩ := hagree c
  obtain ⟨r0, r1, r5, r6, r7, r8, r9, r10, r11, r12, r13, r14, r15, r16, r17, r18, r19⟩ := Cert.Bridge.Finite.real_of_Pre_KernelIdeal m hpre c
  rw [Cert.ReferenceIdeal.ReadP.val_main_v133_eq, a0, a1, a2, a3, a4, a5, a6, a7, a8, a9, a10, a11, a12, a13, a14, a15, a16, a17, a18, a19]
  exact (Cert.Bridge.kernel_eq_reference _ _ _ _ _ _ _ _ _ _ _ _ _ _ _ _ _ _ _ _ r0 r5 r6 r7 r8).symm.trans
    (Cert.Bridge.Value.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
